-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x32 : Shape := ⟨2, ![1, 32]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S5000x32 : Shape := ⟨2, ![5000, 32]⟩
abbrev S1600000x64 : Shape := ⟨2, ![1600000, 64]⟩

abbrev nBuf : Space → Nat
  | .hbm => 48
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x32, .f32⟩
  | .hbm, ⟨29, _⟩ => ⟨S1x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S100000x64, .f32⟩
  | .hbm, ⟨47, _⟩ => ⟨S1x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S1x32, .f32⟩
  | .local _ .vmem, ⟨6, _⟩ => ⟨S32x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S32_S1x32 : S32.ShapeCasts S1x32
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  reduces_S5000x64_S64 : S5000x64.Reduces [0] S64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x64.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32 : Shape := ⟨2, ![1, 32]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S100000x32, .f32⟩
  | .hbm, ⟨30, _⟩ => ⟨S1x32, .f32⟩
  | .hbm, ⟨31, _⟩ => ⟨S100000x32, .f32⟩
  | .hbm, ⟨32, _⟩ => ⟨S100000x32, .f32⟩
  | .hbm, ⟨33, _⟩ => ⟨S_, .f32⟩
  | .hbm, ⟨34, _⟩ => ⟨S100000x32, .f32⟩
  | .hbm, ⟨35, _⟩ => ⟨S100000x32, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S64, .f32⟩
  | .hbm, ⟨73, _⟩ => ⟨S1x64, .f32⟩
  | .hbm, ⟨74, _⟩ => ⟨S_, .f32⟩
  | .hbm, ⟨75, _⟩ => ⟨S1x64, .f32⟩
  | .hbm, ⟨76, _⟩ => ⟨S1x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call2_cst : Ref sig .tc := ⟨.hbm, 61, rfl⟩
abbrev main_call2_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call3_cst : Ref sig .tc := ⟨.hbm, 68, rfl⟩
abbrev main_call3_v0 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S1x64 : S_.BroadcastsInDim S1x64 (![] : Fin 0 → Fin S1x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Reg0.lean ====
import proofs.«150901_j3083786519230_1_alg».proof.Proof.Gen.Kernel.Launch
import proofs.«150901_j3083786519230_1_alg».proof.Proof.Gen.Kernel.Skeleton
import proofs.«150901_j3083786519230_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the two-layer perceptron kernel, at the buffers' contents when the region is entered

The kernel reads six whole staging buffers (two row blocks, two weight matrices, two bias rows), and
stores one value — the second layer's rectified output — over the whole of the seventh. So at every
grid point each input's staging buffer holds that window's block of its array, and the output's buffer
is left at a function of the six blocks. This file states that function, the proof data built from it,
and the body's obligation at every point, all at a parameter `V`: what the buffers hold on entry. -/

-- membership in a rectangle of long extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there, for any proof data whose array is `V`'s (`hA`) and whose body leaves the block in place (`hafter`): where
    it is not fetched the block index has not moved, and the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there, for any proof data whose array is `V`'s (`hA`) and whose body leaves the block in place (`hafter`): where
    it is not fetched the block index has not moved, and the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there, for any proof data whose array is `V`'s (`hA`) and whose body leaves the block in place (`hafter`): where
    it is not fetched the block index has not moved, and the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the pipeline fetched it
    there, for any proof data whose array is `V`'s (`hA`) and whose body leaves the block in place (`hafter`): where
    it is not fetched the block index has not moved, and the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether or not the pipeline fetched it
    there, for any proof data whose array is `V`'s (`hA`) and whose body leaves the block in place (`hafter`): where
    it is not fetched the block index has not moved, and the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether or not the pipeline fetched it
    there, for any proof data whose array is `V`'s (`hA`) and whose body leaves the block in place (`hafter`): where
    it is not fetched the block index has not moved, and the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store is the whole buffer -/

abbrev r0_0 : Rect S5000x128 := Rect.unit (s := S5000x128) ![0, 0] S5000x128.size inb_S5000x128_S5000x128_0_0
abbrev r0_1 : Rect S5000x128 := Rect.unit (s := S5000x128) ![0, 0] S5000x128.size inb_S5000x128_S5000x128_0_0
abbrev r0_2 : Rect S128x32 := Rect.unit (s := S128x32) ![0, 0] S128x32.size inb_S128x32_S128x32_0_0
abbrev r0_3 : Rect S1x32 := Rect.unit (s := S1x32) ![0, 0] S1x32.size inb_S1x32_S1x32_0_0
abbrev r0_4 : Rect S32x64 := Rect.unit (s := S32x64) ![0, 0] S32x64.size inb_S32x64_S32x64_0_0
abbrev r0_5 : Rect S1x64 := Rect.unit (s := S1x64) ![0, 0] S1x64.size inb_S1x64_S1x64_0_0
abbrev r0_6 : Rect S5000x64 := Rect.unit (s := S5000x64) ![0, 0] S5000x64.size inb_S5000x64_S5000x64_0_0

/-! ## What the body leaves in the output window's buffer -/

/-- Window 6's staging buffer after the body, from the six input blocks: its one store, the whole buffer
    at the second layer's rectified output. -/
def out0_6 (x0 x1 : Vec F S5000x128 .f32) (x2 : Vec F S128x32 .f32) (x3 : Vec F S1x32 .f32) (x4 : Vec F S32x64 .f32) (x5 : Vec F S1x64 .f32) : Vec F S5000x64 .f32 :=
  View.canon [⟨r0_6, k0_pay1 (View.ld x0 r0_0) (View.ld x1 r0_1) (View.ld x2 r0_2) (View.ld x3 r0_3) (View.ld x4 r0_4) (View.ld x5 r0_5)⟩]

/-- The one store is the whole buffer, so it covers it. -/
theorem cover0_6 (p0 : Vec F S5000x64 .f32) (y : S5000x64.Idx) :
    ∃ pc ∈ ([⟨r0_6, p0⟩] : List (View.Piece (Elt F) S5000x64 .f32)), y ∈ pc.1.set :=
  View.cover_of_tiled [⟨r0_6, p0⟩] S5000x64.size (by rfl) y

/-! ## The body's triple -/

set_option maxHeartbeats 1000000 in
/-- The kernel body on whole staging memrefs, the inputs' at contents `xW` and the output's at anything, runs to
    the continuation holding the inputs' as they were and the output's at `out0_6` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S5000x64 .f32) (harg7 : arg7.IsWhole)
    (x0 x1 : Vec F S5000x128 .f32) (x2 : Vec F S128x32 .f32) (x3 : Vec F S1x32 .f32) (x4 : Vec F S32x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_relu_kernel i arg1 harg1 arg2 harg2 arg3 harg3 arg4 harg4 arg5 harg5 arg6 harg6 arg7 harg7) K := by
  simp only [cc0__mlp_relu_kernel_eq_skeleton]; unfold cc0__mlp_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and the output's at `out0_6` of the input blocks; the invariant
    is the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
import proofs.«150901_j3083786519230_1_alg».proof.Proof.Gen.Kernel.Launch
import proofs.«150901_j3083786519230_1_alg».proof.Proof.Gen.Kernel.Skeleton
import proofs.«150901_j3083786519230_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the two-layer perceptron kernel, at the buffers' contents when the region is entered

The kernel reads six whole staging buffers (two row blocks, two weight matrices, two bias rows), and
stores one value — the second layer's rectified output — over the whole of the seventh. So at every
grid point each input's staging buffer holds that window's block of its array, and the output's buffer
is left at a function of the six blocks. This file states that function, the proof data built from it,
and the body's obligation at every point, all at a parameter `V`: what the buffers hold on entry. -/

-- membership in a rectangle of long extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there, for any proof data whose array is `V`'s (`hA`) and whose body leaves the block in place (`hafter`): where
    it is not fetched the block index has not moved, and the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there, for any proof data whose array is `V`'s (`hA`) and whose body leaves the block in place (`hafter`): where
    it is not fetched the block index has not moved, and the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there, for any proof data whose array is `V`'s (`hA`) and whose body leaves the block in place (`hafter`): where
    it is not fetched the block index has not moved, and the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there, for any proof data whose array is `V`'s (`hA`) and whose body leaves the block in place (`hafter`): where
    it is not fetched the block index has not moved, and the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched it
    there, for any proof data whose array is `V`'s (`hA`) and whose body leaves the block in place (`hafter`): where
    it is not fetched the block index has not moved, and the window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the pipeline fetched it
    there, for any proof data whose array is `V`'s (`hA`) and whose body leaves the block in place (`hafter`): where
    it is not fetched the block index has not moved, and the window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store is the whole buffer -/

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64x64 := Rect.unit (s := S64x64) ![0, 0] S64x64.size inb_S64x64_S64x64_0_0
abbrev r1_3 : Rect S1x64 := Rect.unit (s := S1x64) ![0, 0] S1x64.size inb_S1x64_S1x64_0_0
abbrev r1_4 : Rect S64x64 := Rect.unit (s := S64x64) ![0, 0] S64x64.size inb_S64x64_S64x64_0_0
abbrev r1_5 : Rect S1x64 := Rect.unit (s := S1x64) ![0, 0] S1x64.size inb_S1x64_S1x64_0_0
abbrev r1_6 : Rect S5000x64 := Rect.unit (s := S5000x64) ![0, 0] S5000x64.size inb_S5000x64_S5000x64_0_0

/-! ## What the body leaves in the output window's buffer -/

/-- Window 6's staging buffer after the body, from the six input blocks: its one store, the whole buffer
    at the second layer's rectified output. -/
def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r1_6, k1_pay1 (View.ld x0 r1_0) (View.ld x1 r1_1) (View.ld x2 r1_2) (View.ld x3 r1_3) (View.ld x4 r1_4) (View.ld x5 r1_5)⟩]

/-- The one store is the whole buffer, so it covers it. -/
theorem cover1_6 (p0 : Vec F S5000x64 .f32) (y : S5000x64.Idx) :
    ∃ pc ∈ ([⟨r1_6, p0⟩] : List (View.Piece (Elt F) S5000x64 .f32)), y ∈ pc.1.set :=
  View.cover_of_tiled [⟨r1_6, p0⟩] S5000x64.size (by rfl) y

/-! ## The body's triple -/

set_option maxHeartbeats 1000000 in
/-- The kernel body on whole staging memrefs, the inputs' at contents `xW` and the output's at anything, runs to
    the continuation holding the inputs' as they were and the output's at `out1_6` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_relu_kernel i arg1 harg1 arg2 harg2 arg3 harg3 arg4 harg4 arg5 harg5 arg6 harg6 arg7 harg7) K := by
  simp only [cc1__mlp_relu_kernel_eq_skeleton]; unfold cc1__mlp_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant
    is the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2Runs.lean ====
/- Region 2 (the mean-pool kernel) of the frame proof: what its three cases share — the two branch
   conditions of the body in closed form over the grid, where the output window is idle, the staging and
   scratch memrefs — and each case's whole-body run. -/
import proofs.«150901_j3083786519230_1_alg».proof.Proof.Gen.Kernel.Launch
import proofs.«150901_j3083786519230_1_alg».proof.Proof.Gen.Kernel.Skeleton
import proofs.«150901_j3083786519230_1_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions -/

/-- The first conditional's condition (the grid coordinate is 0), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional's condition (the grid coordinate is 19). -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- Window 0 (the input) is never idle. -/
theorem liveAt2_0 : ∀ t : Fin cfg2.N, cfg2.idle 0 (grid2.coords t) = false := by decide +kernel
/-- Case A (the first point): the output window is idle, and not written back. -/
theorem idleAt2_1_A : ∀ t : Fin cfg2.N, cond2_0 (grid2.coords t) → ¬cond2_1 (grid2.coords t) → cfg2.idle 1 (grid2.coords t) = true := by decide +kernel
theorem noFlush2_1_A : ∀ t : Fin cfg2.N, cond2_0 (grid2.coords t) → ¬cond2_1 (grid2.coords t) → (cfg2.win 1).flush t = false := by decide +kernel
/-- Case B (the points strictly between): the output window is idle, and not written back. -/
theorem idleAt2_1_B : ∀ t : Fin cfg2.N, ¬cond2_0 (grid2.coords t) → ¬cond2_1 (grid2.coords t) → cfg2.idle 1 (grid2.coords t) = true := by decide +kernel
theorem noFlush2_1_B : ∀ t : Fin cfg2.N, ¬cond2_0 (grid2.coords t) → ¬cond2_1 (grid2.coords t) → (cfg2.win 1).flush t = false := by decide +kernel
/-- Case C (the last point): the output window is live. -/
theorem liveAt2_1_C : ∀ t : Fin cfg2.N, ¬cond2_0 (grid2.coords t) → cond2_1 (grid2.coords t) → cfg2.idle 1 (grid2.coords t) = false := by decide +kernel

/-! ## The memrefs the body is called on -/

/-- The output window's one staging buffer, through which its contents are stated. -/
abbrev VO2_1 : View sig .tc .vmem S1x64 .f32 := (Memref.whole cc2_stg1_0 : Memref sig .tc .vmem S1x64 .f32).view
/-- Each window's current staging memref at point `t`, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
/-- The scratch accumulator: a whole scoped buffer of the kernel's own. -/
abbrev scM2_0 : Memref sig .tc .vmem S1x64 .f32 := Memref.whole cc2_scratch0
/-- The same as a view: what it holds is stated through it. -/
abbrev VS2_0 : View sig .tc .vmem S1x64 .f32 := scM2_0.view

/-! ## The body's run, case by case

Each run is a pair of piece lists — what the body's stores leave in the output's staging memref and in the
scratch, last store first — with the proof that, on whole memrefs, the body runs to a continuation that holds
the input's buffer as it was, an idle output's buffer as it was, and every buffer stored into with its pieces
written. -/

set_option maxHeartbeats 1000000 in
/-- Case A (first point: the scratch is zeroed, then accumulated into; no store to the output). The scratch may
    hold anything on entry. -/
noncomputable def kernelRun2_A (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- Case B (a point strictly between the first and the last: the scratch, at the contents `xs0` the point before
    left, is accumulated into; no store to the output). -/
noncomputable def kernelRun2_B (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- Case C (last point: the scratch, at the contents `xs0` the point before left, is accumulated into, and its
    scaled contents are stored into the output, whose buffer may hold anything on entry). -/
noncomputable def kernelRun2_C (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) :
    Σ' (L1 : List (View.Piece (Elt F) S1x64 .f32)), { LS0 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨?_, ?_, fun E K => ?run⟩
  case run =>
    simp only [cc2__mean_pool_kernel_eq_skeleton]; unfold cc2__mean_pool_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Fr

end
-- ==== Proof.K.Reg2.lean ====
/- Region 2 (the mean-pool kernel) of the frame proof, at a parameter `V` (the buffers' contents when the
   region is entered): what the output's staging buffer and the carried scratch accumulator hold after each grid
   point, the pipeline's proof data over an invariant that tracks the scratch point by point, the body
   obligation, the two entailments between that invariant and the class invariant, and what the scratch and the
   output hold point by point as the kernel's payloads. -/
import proofs.«150901_j3083786519230_1_alg».proof.Proof.K.Reg2Runs
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The class invariant, with the scratch accumulator set apart -/

/-- The core's scoped buffers that are no staging buffer of this region and not its scratch (the other two
    regions' staging buffers), each whole at some contents. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f))

/-- The class invariant is those buffers, the scratch accumulator owned at some contents, and the generator
    register at some state. -/
theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; simp only [scM2_0, owns_whole]
  unfold rest2
  refine BI.equiv_iff.mp ⟨?_, ?_⟩
  · show (_ : sProp 𝕄) ⊢ (_ : sProp 𝕄)
    iintro ⟨⟨HR0, HR1, HR2, HR3, HR4, HR5, HR6, HR7, HR8, HR9, HR10, HR11, HR12, HR13, HR14, HR15, HR16, HR17, HR18, HR19, HS⟩, Hg⟩
    isplitl [HR0 HR1 HR2 HR3 HR4 HR5 HR6 HR7 HR8 HR9 HR10 HR11 HR12 HR13 HR14 HR15 HR16 HR17 HR18 HR19 HS]
    · isplitl [HR0 HR1 HR2 HR3 HR4 HR5 HR6 HR7 HR8 HR9 HR10 HR11 HR12 HR13 HR14 HR15 HR16 HR17 HR18 HR19]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        iexact HR19
      iexact HS
    iexact Hg
  · show (_ : sProp 𝕄) ⊢ (_ : sProp 𝕄)
    iintro ⟨⟨⟨HR0, HR1, HR2, HR3, HR4, HR5, HR6, HR7, HR8, HR9, HR10, HR11, HR12, HR13, HR14, HR15, HR16, HR17, HR18, HR19⟩, HS⟩, Hg⟩
    isplitl [HR0 HR1 HR2 HR3 HR4 HR5 HR6 HR7 HR8 HR9 HR10 HR11 HR12 HR13 HR14 HR15 HR16 HR17 HR18 HR19 HS]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      iexact HS
    iexact Hg

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array
    is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output's staging buffer and in the scratch -/

/-- Case A stores nothing into the output (idle there, not written back): a placeholder nothing consults. -/
def out2_A_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) : Vec F S1x64 .f32 :=
  VO2_1.read (Elt F) (VO2_1.writes (Elt F) VO2_1.junk (kernelRun2_A c i arg1 harg1 arg2 harg2 arg3 harg3 hc0 hc1 x0).1)

/-- Case A's pieces for the scratch cover it. -/
theorem scover2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) (y : S1x64.Idx) :
    ∃ pc ∈ (kernelRun2_A c i arg1 harg1 arg2 harg2 arg3 harg3 hc0 hc1 x0).2.1, y ∈ pc.1.set :=
  View.cover_of_tiledL (kernelRun2_A c i arg1 harg1 arg2 harg2 arg3 harg3 hc0 hc1 x0).2.1 S1x64.size (by sl_kernel_rfl) y

/-- What case A leaves in the scratch: its pieces read back. -/
def sout2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) : Vec F S1x64 .f32 :=
  VS2_0.read (Elt F) (VS2_0.writes (Elt F) VS2_0.junk (kernelRun2_A c i arg1 harg1 arg2 harg2 arg3 harg3 hc0 hc1 x0).2.1)

/-- Case B stores nothing into the output (idle there, not written back): a placeholder nothing consults. -/
def out2_B_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) : Vec F S1x64 .f32 :=
  VO2_1.read (Elt F) (VO2_1.writes (Elt F) VO2_1.junk (kernelRun2_B c i arg1 harg1 arg2 harg2 arg3 harg3 hc0 hc1 x0 xs0).1)

/-- Case B's pieces for the scratch cover it. -/
theorem scover2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) (y : S1x64.Idx) :
    ∃ pc ∈ (kernelRun2_B c i arg1 harg1 arg2 harg2 arg3 harg3 hc0 hc1 x0 xs0).2.1, y ∈ pc.1.set :=
  View.cover_of_tiledL (kernelRun2_B c i arg1 harg1 arg2 harg2 arg3 harg3 hc0 hc1 x0 xs0).2.1 S1x64.size (by sl_kernel_rfl) y

/-- What case B leaves in the scratch: its pieces read back. -/
def sout2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) : Vec F S1x64 .f32 :=
  VS2_0.read (Elt F) (VS2_0.writes (Elt F) VS2_0.junk (kernelRun2_B c i arg1 harg1 arg2 harg2 arg3 harg3 hc0 hc1 x0 xs0).2.1)

/-- Case C's pieces for the output cover its block. -/
theorem cover2_C_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) (y : S1x64.Idx) :
    ∃ pc ∈ (kernelRun2_C c i arg1 harg1 arg2 harg2 arg3 harg3 hc0 hc1 x0 xs0).1, y ∈ pc.1.set :=
  View.cover_of_tiledL (kernelRun2_C c i arg1 harg1 arg2 harg2 arg3 harg3 hc0 hc1 x0 xs0).1 S1x64.size (by sl_kernel_rfl) y

/-- What case C leaves in the output's staging buffer: its pieces read back. -/
def out2_C_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) : Vec F S1x64 .f32 :=
  VO2_1.read (Elt F) (VO2_1.writes (Elt F) VO2_1.junk (kernelRun2_C c i arg1 harg1 arg2 harg2 arg3 harg3 hc0 hc1 x0 xs0).1)

/-- Case C's pieces for the scratch cover it. -/
theorem scover2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) (y : S1x64.Idx) :
    ∃ pc ∈ (kernelRun2_C c i arg1 harg1 arg2 harg2 arg3 harg3 hc0 hc1 x0 xs0).2.1, y ∈ pc.1.set :=
  View.cover_of_tiledL (kernelRun2_C c i arg1 harg1 arg2 harg2 arg3 harg3 hc0 hc1 x0 xs0).2.1 S1x64.size (by sl_kernel_rfl) y

/-- What case C leaves in the scratch: its pieces read back. -/
def sout2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) : Vec F S1x64 .f32 :=
  VS2_0.read (Elt F) (VS2_0.writes (Elt F) VS2_0.junk (kernelRun2_C c i arg1 harg1 arg2 harg2 arg3 harg3 hc0 hc1 x0 xs0).2.1)

/-! ## What the output and the scratch hold after each point -/

/-- No point after the first meets the first conditional's condition. -/
theorem not_cond2_0_succ (n : ℕ) (hn : n + 1 < cfg2.N) : ¬cond2_0 (grid2.coords ⟨n + 1, hn⟩) := fun h => by
  have h' := (hcond2_0 ⟨n + 1, hn⟩).mp h
  have hN : n + 1 < 20 := lt_of_lt_of_eq hn (show cfg2.N = 20 from N_2)
  (try dsimp only at h'); omega

/-- The first point does not meet the second conditional's condition. -/
theorem not_cond2_1_zero (hn : 0 < cfg2.N) : ¬cond2_1 (grid2.coords ⟨0, hn⟩) := fun h => by
  have h' := (hcond2_1 ⟨0, hn⟩).mp h
  (try dsimp only at h'); omega

/-- THE ACCUMULATION: what the output's staging buffer and the carried scratch hold after the body at position
    `n` — at the first point case A's contents; afterwards case C's at the last point and case B's elsewhere, the
    scratch read at what the point before left in it. -/
def outsAt2 (c : Dev nD) : (n : ℕ) → n < cfg2.N → Vec F S1x64 .f32 × Vec F S1x64 .f32
  | 0, hn => (out2_A_1 c (grid2.coords ⟨0, hn⟩) (ms2_0 ⟨0, hn⟩) (hs2_0 ⟨0, hn⟩) (ms2_1 ⟨0, hn⟩) (hs2_1 ⟨0, hn⟩) scM2_0 (Memref.isWhole_whole _) ((hcond2_0 ⟨0, hn⟩).mpr (Nat.zero_mod _)) (not_cond2_1_zero hn) (iblk2 V c 0 ⟨0, hn⟩),
      sout2_A_0 c (grid2.coords ⟨0, hn⟩) (ms2_0 ⟨0, hn⟩) (hs2_0 ⟨0, hn⟩) (ms2_1 ⟨0, hn⟩) (hs2_1 ⟨0, hn⟩) scM2_0 (Memref.isWhole_whole _) ((hcond2_0 ⟨0, hn⟩).mpr (Nat.zero_mod _)) (not_cond2_1_zero hn) (iblk2 V c 0 ⟨0, hn⟩))
  | n + 1, hn =>
    if h1 : (n + 1) % 20 = 19 then
      (out2_C_1 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) ((hcond2_1 ⟨n + 1, hn⟩).mpr h1) (iblk2 V c 0 ⟨n + 1, hn⟩) (outsAt2 c n (Nat.lt_of_succ_lt hn)).2,
        sout2_C_0 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) ((hcond2_1 ⟨n + 1, hn⟩).mpr h1) (iblk2 V c 0 ⟨n + 1, hn⟩) (outsAt2 c n (Nat.lt_of_succ_lt hn)).2)
    else
      (out2_B_1 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) (fun h => h1 ((hcond2_1 ⟨n + 1, hn⟩).mp h)) (iblk2 V c 0 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) (fun h => h1 ((hcond2_1 ⟨n + 1, hn⟩).mp h)) (iblk2 V c 0 ⟨n + 1, hn⟩) (outsAt2 c n (Nat.lt_of_succ_lt hn)).2)

/-- `outsAt2` at the point of case A. -/
theorem outsAt2_A (c : Dev nD) (t : Fin cfg2.N) (h0 : t.val % 20 = 0) (h1 : ¬t.val % 20 = 19) :
    outsAt2 V c t.val t.isLt = (out2_A_1 c (grid2.coords t) (ms2_0 t) (hs2_0 t) (ms2_1 t) (hs2_1 t) scM2_0 (Memref.isWhole_whole _) ((hcond2_0 t).mpr h0) (fun h => h1 ((hcond2_1 t).mp h)) (iblk2 V c 0 t),
      sout2_A_0 c (grid2.coords t) (ms2_0 t) (hs2_0 t) (ms2_1 t) (hs2_1 t) scM2_0 (Memref.isWhole_whole _) ((hcond2_0 t).mpr h0) (fun h => h1 ((hcond2_1 t).mp h)) (iblk2 V c 0 t)) := by
  obtain ⟨n, hn⟩ := t
  cases n with
  | zero => exact rfl
  | succ n =>
    exfalso
    have hN : n + 1 < 20 := lt_of_lt_of_eq hn (show cfg2.N = 20 from N_2)
    (try dsimp only at h0); omega

/-- `outsAt2` at a point of case B: that case's contents, over what the point before left. -/
theorem outsAt2_B (c : Dev nD) (t : Fin cfg2.N) (h0 : ¬t.val % 20 = 0) (h1 : ¬t.val % 20 = 19) :
    outsAt2 V c t.val t.isLt = (out2_B_1 c (grid2.coords t) (ms2_0 t) (hs2_0 t) (ms2_1 t) (hs2_1 t) scM2_0 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2,
      sout2_B_0 c (grid2.coords t) (ms2_0 t) (hs2_0 t) (ms2_1 t) (hs2_1 t) scM2_0 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt2` at the point of case C: that case's contents, over what the point before left. -/
theorem outsAt2_C (c : Dev nD) (t : Fin cfg2.N) (h0 : ¬t.val % 20 = 0) (h1 : t.val % 20 = 19) :
    outsAt2 V c t.val t.isLt = (out2_C_1 c (grid2.coords t) (ms2_0 t) (hs2_0 t) (ms2_1 t) (hs2_1 t) scM2_0 (Memref.isWhole_whole _) (fun h => h0 ((hcond2_0 t).mp h)) ((hcond2_1 t).mpr h1) (iblk2 V c 0 t) (outsAt2 V c (t.val - 1) (Nat.lt_of_le_of_lt (Nat.sub_le _ _) t.isLt)).2,
      sout2_C_0 c (grid2.coords t) (ms2_0 t) (hs2_0 t) (ms2_1 t) (hs2_1 t) scM2_0 (Memref.isWhole_whole _) (fun h => h0 ((hcond2_0 t).mp h)) ((hcond2_1 t).mpr h1) (iblk2 V c 0 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant, point by point -/

/-- The invariant before position `n`: before the first point the class invariant (the scratch at anything);
    afterwards the other scoped buffers at anything, the scratch at what the point before left in it
    (`outsAt2`'s second component), and the generator register at some state. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the
    body at point `t` the input's buffer at its block and the output's at `outsAt2`'s first component; the
    invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point. The input's memref holds its block; the closed forms of the two conditions say which
    case the point is in; the invariant hands the body the scratch — at anything at the first point, at what the
    point before left elsewhere — and takes it back at this point's contents, the case's pieces covering it; the
    output's buffer is handed back untouched where the window is idle and at the case's pieces at the last point;
    the other scoped buffers, the generator register and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 20 = 0
  · by_cases h1 : t.val % 20 = 19
    · exfalso; omega
    · rw [show (dat2 V c).leavesExact 0 t = owns (c : Thread nD τ) (ms2_0 t) fullShare ((dat2 V c).after 0 t) from by
            unfold Dat.leavesExact; rw [liveAt2_0 t], after2_0]
      rw [Dat.leavesExact_idle (dat2 V c) 1 t (idleAt2_1_A t ((hcond2_0 t).mpr h0) (fun h => h1 ((hcond2_1 t).mp h))) (noFlush2_1_A t ((hcond2_0 t).mpr h0) (fun h => h1 ((hcond2_1 t).mp h)))]
      rw [outsAt2_A V c t h0 h1]
      unfold sout2_A_0; (try dsimp only)
      have hz : t.val = 0 := by omega
      rw [PhiS2_castSucc V c t, PhiS2_zero V c _ _ hz, PhiA2_eq]
      iintro ⟨⟨⟨HR, HS0⟩, Hg⟩, Ho, ⟨%d0, H0⟩, ⟨%d1, H1⟩⟩
      iapply ((kernelRun2_A c (grid2.coords t) _ _ _ _ _ _ ((hcond2_0 t).mpr h0) (fun h => h1 ((hcond2_1 t).mp h)) (iblk2 V c 0 t)).2.2 _ Set.univ _)
      isplitl [H0]; · iexact H0
      isplitl [H1]; · iexact H1
      isplitl [HS0]; · iexact HS0
      iintro ⟨H0, H1, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_A_0 c _ _ _ _ _ _ _ _ _ _)
        iexact Hg
      isplitl [Ho]; · iexact Ho
      isplitl [H0]; · iexact H0
      iexists _; iexact H1
  · have hz : t.val ≠ 0 := fun hz => h0 (by rw [hz])
    by_cases h1 : t.val % 20 = 19
    · rw [show (dat2 V c).leavesExact 0 t = owns (c : Thread nD τ) (ms2_0 t) fullShare ((dat2 V c).after 0 t) from by
            unfold Dat.leavesExact; rw [liveAt2_0 t], after2_0]
      rw [show (dat2 V c).leavesExact 1 t = owns (c : Thread nD τ) (ms2_1 t) fullShare ((dat2 V c).after 1 t) from by
            unfold Dat.leavesExact; rw [liveAt2_1_C t (fun h => h0 ((hcond2_0 t).mp h)) ((hcond2_1 t).mpr h1)], after2_1]
      rw [outsAt2_C V c t h0 h1]
      unfold out2_C_1 sout2_C_0; (try dsimp only)
      rw [PhiS2_castSucc V c t, PhiS2_pos V c _ _ hz]
      iintro ⟨⟨⟨HR, HS0⟩, Hg⟩, Ho, ⟨%d0, H0⟩, ⟨%d1, H1⟩⟩
      iapply ((kernelRun2_C c (grid2.coords t) _ _ _ _ _ _ (fun h => h0 ((hcond2_0 t).mp h)) ((hcond2_1 t).mpr h1) (iblk2 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover2_C_1 c _ _ _ _ _ _ _ _ _ _ _)
    · rw [show (dat2 V c).leavesExact 0 t = owns (c : Thread nD τ) (ms2_0 t) fullShare ((dat2 V c).after 0 t) from by
            unfold Dat.leavesExact; rw [liveAt2_0 t], after2_0]
      rw [Dat.leavesExact_idle (dat2 V c) 1 t (idleAt2_1_B t (fun h => h0 ((hcond2_0 t).mp h)) (fun h => h1 ((hcond2_1 t).mp h))) (noFlush2_1_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HR, HS0⟩, Hg⟩, Ho, ⟨%d0, H0⟩, ⟨%d1, H1⟩⟩
      iapply ((kernelRun2_B c (grid2.coords t) _ _ _ _ _ _ (fun h => h0 ((hcond2_0 t).mp h)) (fun h => h1 ((hcond2_1 t).mp h)) (iblk2 V c 0 t) _).2.2 _ Set.univ _)
      isplitl [H0]; · iexact H0
      isplitl [H1]; · iexact H1
      isplitl [HS0]; · iexact HS0
      iintro ⟨H0, H1, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B_0 c _ _ _ _ _ _ _ _ _ _ _)
        iexact Hg
      isplitl [Ho]; · iexact Ho
      isplitl [H0]; · iexact H0
      iexists _; iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the scratch's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

/-! ## The found pieces, as the skeleton's payloads -/

/-- The zero offsets of a rank-2 access, as a constant function. -/
theorem hz2 : (![0, 0] : Fin 2 → Nat) = fun _ => 0 := funext fun a => by fin_cases a <;> rfl

/-- The first point zeroes the scratch, then adds the block's column sums onto the zeros it reads back. -/
theorem soutA2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i) (x0 : Vec F S5000x64 .f32) :
    sout2_A_0 c i arg1 harg1 arg2 harg2 arg3 harg3 hc0 hc1 x0 = k2_pay2 (k2_pay1 (F := F)) x0 := by
  unfold sout2_A_0
  rw [View.read_writes_eq_canon _ _ _ (scover2_A_0 c i arg1 harg1 arg2 harg2 arg3 harg3 hc0 hc1 x0)]
  unfold kernelRun2_A
  dsimp only
  try sl_unfold_words
  rw [View.canon_cons_unit_zero hz2]
  simp only [View.readAt_eq_ld, harg1.read_unread, View.ld_unit_zero (S := S5000x64) hz2, View.readCov_unit_zero (S := S1x64) _ hz2]

/-- A middle point adds the block's column sums onto what the scratch held. -/
theorem soutB2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i) (x0 : Vec F S5000x64 .f32) (xs0 : Vec F S1x64 .f32) :
    sout2_B_0 c i arg1 harg1 arg2 harg2 arg3 harg3 hc0 hc1 x0 xs0 = k2_pay2 xs0 x0 := by
  unfold sout2_B_0
  rw [View.read_writes_eq_canon _ _ _ (scover2_B_0 c i arg1 harg1 arg2 harg2 arg3 harg3 hc0 hc1 x0 xs0)]
  unfold kernelRun2_B
  dsimp only
  try sl_unfold_words
  rw [View.canon_unit_zero hz2]
  simp only [View.readAt_eq_ld, harg1.read_unread, harg3.read_unread, View.ld_unit_zero (S := S5000x64) hz2, View.ld_unit_zero (S := S1x64) hz2]

/-- So does the last point. -/
theorem soutC2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i) (x0 : Vec F S5000x64 .f32) (xs0 : Vec F S1x64 .f32) :
    sout2_C_0 c i arg1 harg1 arg2 harg2 arg3 harg3 hc0 hc1 x0 xs0 = k2_pay2 xs0 x0 := by
  unfold sout2_C_0
  rw [View.read_writes_eq_canon _ _ _ (scover2_C_0 c i arg1 harg1 arg2 harg2 arg3 harg3 hc0 hc1 x0 xs0)]
  unfold kernelRun2_C
  dsimp only
  try sl_unfold_words
  rw [View.canon_unit_zero hz2]
  simp only [View.readAt_eq_ld, harg1.read_unread, harg3.read_unread, View.ld_unit_zero (S := S5000x64) hz2, View.ld_unit_zero (S := S1x64) hz2]

/-- The last point stores into the output the scaling of the scratch as it has just left it. -/
theorem outC2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i) (x0 : Vec F S5000x64 .f32) (xs0 : Vec F S1x64 .f32) :
    out2_C_1 c i arg1 harg1 arg2 harg2 arg3 harg3 hc0 hc1 x0 xs0 = k2_pay3 (k2_pay2 xs0 x0) := by
  unfold out2_C_1
  rw [View.read_writes_eq_canon _ _ _ (cover2_C_1 c i arg1 harg1 arg2 harg2 arg3 harg3 hc0 hc1 x0 xs0)]
  unfold kernelRun2_C
  dsimp only
  try sl_unfold_words
  rw [View.canon_unit_zero hz2, View.readCov_unit_zero (S := S1x64) _ hz2]
  simp only [View.readAt_eq_ld, harg1.read_unread, harg3.read_unread, View.ld_unit_zero (S := S5000x64) hz2, View.ld_unit_zero (S := S1x64) hz2]

/-- After the first point the scratch holds the first block's column sums added onto zeros. -/
theorem scr2_zero (c : Dev nD) (h : 0 < cfg2.N) : (outsAt2 V c 0 h).2 = k2_pay2 (k2_pay1 (F := F)) (iblk2 V c 0 ⟨0, h⟩) := by
  rw [outsAt2_A V c ⟨0, h⟩ (Nat.zero_mod _) (fun h' => by (try dsimp only at h'); omega)]
  dsimp only
  rw [soutA2_eq]

/-- After each later point it holds that point's block's column sums added onto what the point before left. -/
theorem scr2_succ (c : Dev nD) (n : ℕ) (h : n + 1 < cfg2.N) : (outsAt2 V c (n + 1) h).2 = k2_pay2 (outsAt2 V c n (Nat.lt_of_succ_lt h)).2 (iblk2 V c 0 ⟨n + 1, h⟩) := by
  have hN : n + 1 < 20 := lt_of_lt_of_eq h (show cfg2.N = 20 from N_2)
  have h0 : ¬(⟨n + 1, h⟩ : Fin cfg2.N).val % 20 = 0 := fun h0 => by (try dsimp only at h0); omega
  by_cases h1 : (⟨n + 1, h⟩ : Fin cfg2.N).val % 20 = 19
  · rw [outsAt2_C V c ⟨n + 1, h⟩ h0 h1]
    dsimp only
    rw [soutC2_eq]
    first | done | rfl | simp only [Nat.add_sub_cancel]
  · rw [outsAt2_B V c ⟨n + 1, h⟩ h0 h1]
    dsimp only
    rw [soutB2_eq]
    first | done | rfl | simp only [Nat.add_sub_cancel]

/-- At the last point the output's staging buffer holds the scaling of what the scratch then holds. -/
theorem out2_last (c : Dev nD) (h : 19 < cfg2.N) : (outsAt2 V c 19 h).1 = k2_pay3 (outsAt2 V c 19 h).2 := by
  rw [outsAt2_C V c ⟨19, h⟩ (fun h' => by (try dsimp only at h'); omega) (show (19 : ℕ) % 20 = 19 from rfl)]
  dsimp only
  rw [outC2_eq, soutC2_eq]

end Cert.Kernel.Fr

end
-- ==== Proof.K.Run.lean ====
/-
  The run of the whole program, segment by segment: the host operations before the first kernel, the first
  perceptron kernel over its twenty row blocks, the host operations between, the second perceptron kernel, the
  pooling kernel.  Between two segments every buffer outside the kernels' scratch holds a named value: the launch
  memory, then the host operations' results folded over it, then — after a kernel — its output array with every block
  the kernel wrote back folded in.  The run ends with the two result arrays at these named values and every argument
  array as launched.
-/
import proofs.«150901_j3083786519230_1_alg».proof.Proof.Gen.Kernel.Regions
import proofs.«150901_j3083786519230_1_alg».proof.Proof.K.Reg0
import proofs.«150901_j3083786519230_1_alg».proof.Proof.K.Reg1
import proofs.«150901_j3083786519230_1_alg».proof.Proof.K.Reg2

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each segment boundary -/

/-- The launch memory, per core. -/
abbrev B0 : Dev nD → Valuation τ sig (Elt F) := fun c b => (s₀ m ρ).mem ((c : Dev nD), b)
/-- After the first stretch of host operations (the first kernel's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves (an input's array as entered, the output's with
    every write-back folded in), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the core's own references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations (the second kernel's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves (an input's array as entered, the output's with
    every write-back folded in), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the core's own references. -/
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- At region 2's exit: its arrays at what the pipeline leaves (an input's array as entered, the output's with
    every write-back folded in), every other buffer as entered. -/
def B5 (c : Dev nD) : Valuation τ sig (Elt F) :=
  Pipeline.withArrays spec2 c (B4 m ρ c) fun w => (dat2 (E4 m ρ) c).arrAt w cfg2.N
theorem B5_arr (c : Dev nD) (w : Fin cfg2.W) :
    B5 m ρ c (Proc.devRef .tc (Pipeline.arrRef spec2 w)) = (dat2 (E4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same read at the core's own references. -/
abbrev E5 : (c : Dev nD) → (b : Ref sig .tc) → Buf (Elt F) ((c : Thread nD τ).loc b) := fun c b => B5 m ρ c b
theorem hF2 (c : Dev nD) (w : Fin cfg2.W) : (dat2 (E4 m ρ) c).arrAt w cfg2.N = E5 m ρ c (Pipeline.arrRef spec2 w) :=
  (B5_arr m ρ c w).symm
theorem hrest2 (c : Dev nD) : ∀ b, b ∉ Finset.univ.image (Pipeline.arrRef spec2) → E5 m ρ c b = E4 m ρ c b :=
  fun b hb => B5_of_ne m ρ c b fun w e => hb (Finset.mem_image.mpr ⟨w, Finset.mem_univ _, e⟩)

/-! ### No host operation and no kernel writes an argument: its buffer walks back to the launch memory -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of_ne m ρ c main_arg0 (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (by decide)
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of_ne m ρ c main_arg1 (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of_ne m ρ c main_arg2 (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of_ne m ρ c main_arg3 (by decide)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := (B2_arr m ρ c 2).trans (((dat0 (E1 m ρ) c).arrAt_in 2 rfl _).trans (A_eq0 (E1 m ρ) c 2))
    _ = B0 m ρ c (Proc.devRef .tc main_arg3) := StableHlo.after_of_writes_sub hostOps0 _ hostOps0_writes (by decide)
    _ = m ((c : Thread nD τ).loc main_arg3) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of_ne m ρ c main_arg4 (by decide)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := B5_of_ne m ρ c main_arg5 (by decide)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := (B2_arr m ρ c 4).trans (((dat0 (E1 m ρ) c).arrAt_in 4 rfl _).trans (A_eq0 (E1 m ρ) c 4))
    _ = B0 m ρ c (Proc.devRef .tc main_arg5) := StableHlo.after_of_writes_sub hostOps0 _ hostOps0_writes (by decide)
    _ = m ((c : Thread nD τ).loc main_arg5) := rfl
theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := B5_of_ne m ρ c main_arg6 (by decide)
    _ = B3 m ρ c (Proc.devRef .tc main_arg6) := B4_of_ne m ρ c main_arg6 (by decide)
    _ = B2 m ρ c (Proc.devRef .tc main_arg6) := StableHlo.after_of_writes_sub hostOps1 _ hostOps1_writes (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl
theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := B5_of_ne m ρ c main_arg7 (by decide)
    _ = B3 m ρ c (Proc.devRef .tc main_arg7) := (B4_arr m ρ c 2).trans (((dat1 (E3 m ρ) c).arrAt_in 2 rfl _).trans (A_eq1 (E3 m ρ) c 2))
    _ = B2 m ρ c (Proc.devRef .tc main_arg7) := StableHlo.after_of_writes_sub hostOps1 _ hostOps1_writes (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl
theorem B5_main_arg8 (c : Dev nD) : B5 m ρ c (Proc.devRef .tc main_arg8) = m ((c : Thread nD τ).loc main_arg8) :=
  calc B5 m ρ c (Proc.devRef .tc main_arg8)
    _ = B4 m ρ c (Proc.devRef .tc main_arg8) := B5_of_ne m ρ c main_arg8 (by decide)
    _ = B3 m ρ c (Proc.devRef .tc main_arg8) := B4_of_ne m ρ c main_arg8 (by decide)
    _ = B2 m ρ c (Proc.devRef .tc main_arg8) := StableHlo.after_of_writes_sub hostOps1 _ hostOps1_writes (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl
theorem B5_main_arg9 (c : Dev nD) : B5 m ρ c (Proc.devRef .tc main_arg9) = m ((c : Thread nD τ).loc main_arg9) :=
  calc B5 m ρ c (Proc.devRef .tc main_arg9)
    _ = B4 m ρ c (Proc.devRef .tc main_arg9) := B5_of_ne m ρ c main_arg9 (by decide)
    _ = B3 m ρ c (Proc.devRef .tc main_arg9) := (B4_arr m ρ c 4).trans (((dat1 (E3 m ρ) c).arrAt_in 4 rfl _).trans (A_eq1 (E3 m ρ) c 4))
    _ = B2 m ρ c (Proc.devRef .tc main_arg9) := StableHlo.after_of_writes_sub hostOps1 _ hostOps1_writes (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl
theorem B5_main_arg10 (c : Dev nD) : B5 m ρ c (Proc.devRef .tc main_arg10) = m ((c : Thread nD τ).loc main_arg10) :=
  calc B5 m ρ c (Proc.devRef .tc main_arg10)
    _ = B4 m ρ c (Proc.devRef .tc main_arg10) := B5_of_ne m ρ c main_arg10 (by decide)
    _ = B3 m ρ c (Proc.devRef .tc main_arg10) := B4_of_ne m ρ c main_arg10 (by decide)
    _ = B2 m ρ c (Proc.devRef .tc main_arg10) := StableHlo.after_of_writes_sub hostOps1 _ hostOps1_writes (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl

/-! ### The two results at the last boundary -/

/-- The node table the second kernel leaves is the pooling kernel's input and is not written again. -/
theorem B5_main_v29 (c : Dev nD) : B5 m ρ c (Proc.devRef .tc main_v29) = (dat1 (E3 m ρ) c).arrAt 6 cfg1.N :=
  calc B5 m ρ c (Proc.devRef .tc main_v29)
    _ = B4 m ρ c (Proc.devRef .tc main_v29) := (B5_arr m ρ c 0).trans (((dat2 (E4 m ρ) c).arrAt_in 0 rfl _).trans (A_eq2 (E4 m ρ) c 0))
    _ = (dat1 (E3 m ρ) c).arrAt 6 cfg1.N := B4_arr m ρ c 6
theorem B5_main_v30 (c : Dev nD) : B5 m ρ c (Proc.devRef .tc main_v30) = (dat2 (E4 m ρ) c).arrAt 1 cfg2.N :=
  B5_arr m ρ c 1

/-! ## The proof data family and the thread state -/

abbrev admF : (p : Fin 3) → (pcfgs (F := F) p).Adm := fun p => (cfgs p).toPCfg_adm
/-- Every pipeline's proof data, each at its region's entry contents. -/
def pdats : (p : Fin 3) → (c : Dev nD) → Dat τ (Elt F) Unit ℕ (Pipeline.UD sig nD τ) ℕ (Pipeline.pin (pcfgs (F := F)) admF p) c
  | ⟨0, _⟩ => fun c => dat0 (E1 m ρ) c
  | ⟨1, _⟩ => fun c => dat1 (E3 m ρ) c
  | ⟨2, _⟩ => fun c => dat2 (E4 m ρ) c
abbrev Vn : Variants := Variants.none
abbrev Lz : GSem nD τ sig → Finset Unit := fun _ => ∅
abbrev lvz : GSem nD τ sig → Unit → ℕ := fun _ _ => 0
/-- What rides beside the buffers through every segment: the core's generator register at some state and nothing owed. -/
abbrev Rd (c : Dev nD) : sProp 𝕄 := iprop((∃ r, prngReg c r) ∗ ∃ W, owes (c : Thread nD τ) (0 : CellTallies nD τ sig Unit) W)
/-- A stretch of host operations as a segment from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tn (c : Dev nD) : sProp 𝕄 := iprop(StableHlo.held (c : Thread nD τ) (Pipeline.ucRefs τ sig) (B5 m ρ c) ∗ ∃ r, prngReg c r)

/-! ## The kernels as segments -/

-- a library lemma stated over the pinned configuration unifies with the printed one only when unification may
-- unfold plain definitions in a metavariable's type
set_option backward.isDefEq.respectTransparency.types false in
/-- Region 0 over the thread state: entered from every unscoped buffer at `B1`, left at `B2`.  Its arrays are
    split out of the unscoped buffers and put back at the exit contents; the generator register goes into the region's
    invariant and comes back; nothing is owed; the kernel has no semaphore of its own. -/
def reg0 : Pipeline.RegionSeg (pcfgs (F := F)) admF (pdats m ρ) () defs₀ Vn Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (E1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := Pipeline.UD sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `B3`, left at `B4`.  Its arrays are
    split out of the unscoped buffers and put back at the exit contents; the generator register goes into the region's
    invariant and comes back; nothing is owed; the kernel has no semaphore of its own. -/
def reg1 : Pipeline.RegionSeg (pcfgs (F := F)) admF (pdats m ρ) () defs₀ Vn Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rd c)
  post c := iprop(StableHlo.held (c : Thread nD τ) (Pipeline.ucRefs τ sig) (B4 m ρ c) ∗ Rd c)
  X c := iprop(∃ r, prngReg c r)
  Y c := iprop(∃ r, prngReg c r)
  Z c := Pipeline.unscopedRest (Ix := Unit) (Name := ℕ) (U := Pipeline.UD sig nD τ) (Lvl := ℕ) spec1 c (E3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := Pipeline.UD sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `B4`, left at `B5`.  Its arrays are
    split out of the unscoped buffers and put back at the exit contents; the generator register goes into the region's
    invariant and comes back; nothing is owed; the kernel has no semaphore of its own. -/
def reg2 : Pipeline.RegionSeg (pcfgs (F := F)) admF (pdats m ρ) () defs₀ Vn Lz lvz 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ Lz lvz 2 fun _ _ => rfl
  pre c := iprop(StableHlo.held (c : Thread nD τ) (Pipeline.ucRefs τ sig) (B4 m ρ c) ∗ Rd c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (E4 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from by
      unfold Pipeline.ΦA
      iintro ⟨Hp, -, Hr⟩
      isplitl [Hr]; · iexact Hr
      iexact Hp).trans ?_
    exact hin2 (E4 m ρ) c
  hout c := by
    rw [Pipeline.ownSems0_none]
    refine (show (pdats m ρ 2 c).Φ (Fin.last _) ⊢ Pipeline.ΦA spec2 c from hout2 (E4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := Pipeline.UD sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsF : List (Pipeline.Seg (pcfgs (F := F)) admF (pdats m ρ) () defs₀ Vn Lz lvz) :=
  [ .host (hsegF hostOps0 hostOps0_sub hostOps0_fresh (B0 m ρ)),
    .region (reg0 m ρ),
    .host (hsegF hostOps1 hostOps1_sub hostOps1_fresh (B2 m ρ)),
    .region (reg1 m ρ),
    .region (reg2 m ρ) ]
theorem main_run (c : Dev nD) : main (F := F) c = Pipeline.Seg.run (segsF m ρ) := (main_chain c).trans (by chain_rfl)

set_option backward.isDefEq.respectTransparency.types false in
/-- Every weakly fair execution of the program from memory `m` terminates without a fault, with the node table at
    what the second kernel's write-backs leave, the pooled row at what the pooling kernel's last write-back leaves,
    and every argument array as launched. -/
theorem run : θ_run defs (onTc (τ := τ) (main (F := F))) ⟨m, fun _ => 0, ρ⟩ (fun r => ∀ c : Dev nD,
      r.2.mem ((c.tc : Thread nD τ).loc main_v29) = (dat1 (E3 m ρ) c).arrAt 6 cfg1.N
      ∧ r.2.mem ((c.tc : Thread nD τ).loc main_v30) = (dat2 (E4 m ρ) c).arrAt 1 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) admF (pdats m ρ) () cellOf_inj embL defs₀ Vn Lz lvz m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tn m ρ)
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c =>
      ⟨(h c _ (mem_uc main_v29 (by decide))).trans (B5_main_v29 m ρ c),
       (h c _ (mem_uc main_v30 (by decide))).trans (B5_main_v30 m ρ c),
       (h c _ (mem_uc main_arg0 (by decide))).trans (B5_main_arg0 m ρ c),
       (h c _ (mem_uc main_arg1 (by decide))).trans (B5_main_arg1 m ρ c),
       (h c _ (mem_uc main_arg2 (by decide))).trans (B5_main_arg2 m ρ c),
       (h c _ (mem_uc main_arg3 (by decide))).trans (B5_main_arg3 m ρ c),
       (h c _ (mem_uc main_arg4 (by decide))).trans (B5_main_arg4 m ρ c),
       (h c _ (mem_uc main_arg5 (by decide))).trans (B5_main_arg5 m ρ c),
       (h c _ (mem_uc main_arg6 (by decide))).trans (B5_main_arg6 m ρ c),
       (h c _ (mem_uc main_arg7 (by decide))).trans (B5_main_arg7 m ρ c),
       (h c _ (mem_uc main_arg8 (by decide))).trans (B5_main_arg8 m ρ c),
       (h c _ (mem_uc main_arg9 (by decide))).trans (B5_main_arg9 m ρ c),
       (h c _ (mem_uc main_arg10 (by decide))).trans (B5_main_arg10 m ρ c)⟩)

/-- The frame: every execution terminates without a fault and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2.2) (run m ρ)

end Cert.Kernel.Fr

end
-- ==== Proof.KI.Reg0.lean ====
import proofs.«150901_j3083786519230_1_alg».proof.Proof.Gen.KernelIdeal.Launch
import proofs.«150901_j3083786519230_1_alg».proof.Proof.Gen.KernelIdeal.Skeleton
import proofs.«150901_j3083786519230_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the two-layer perceptron kernel, at the buffers' contents when the region is entered

The kernel reads six whole staging buffers (two row blocks, two weight matrices, two bias rows), and
stores one value — the second layer's rectified output — over the whole of the seventh. So at every
grid point each input's staging buffer holds that window's block of its array, and the output's buffer
is left at a function of the six blocks. This file states that function, the proof data built from it,
and the body's obligation at every point, all at a parameter `V`: what the buffers hold on entry. -/

-- membership in a rectangle of long extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there, for any proof data whose array is `V`'s (`hA`) and whose body leaves the block in place (`hafter`): where
    it is not fetched the block index has not moved, and the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there, for any proof data whose array is `V`'s (`hA`) and whose body leaves the block in place (`hafter`): where
    it is not fetched the block index has not moved, and the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there, for any proof data whose array is `V`'s (`hA`) and whose body leaves the block in place (`hafter`): where
    it is not fetched the block index has not moved, and the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the pipeline fetched it
    there, for any proof data whose array is `V`'s (`hA`) and whose body leaves the block in place (`hafter`): where
    it is not fetched the block index has not moved, and the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether or not the pipeline fetched it
    there, for any proof data whose array is `V`'s (`hA`) and whose body leaves the block in place (`hafter`): where
    it is not fetched the block index has not moved, and the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether or not the pipeline fetched it
    there, for any proof data whose array is `V`'s (`hA`) and whose body leaves the block in place (`hafter`): where
    it is not fetched the block index has not moved, and the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store is the whole buffer -/

abbrev r0_0 : Rect S5000x128 := Rect.unit (s := S5000x128) ![0, 0] S5000x128.size inb_S5000x128_S5000x128_0_0
abbrev r0_1 : Rect S5000x128 := Rect.unit (s := S5000x128) ![0, 0] S5000x128.size inb_S5000x128_S5000x128_0_0
abbrev r0_2 : Rect S128x32 := Rect.unit (s := S128x32) ![0, 0] S128x32.size inb_S128x32_S128x32_0_0
abbrev r0_3 : Rect S1x32 := Rect.unit (s := S1x32) ![0, 0] S1x32.size inb_S1x32_S1x32_0_0
abbrev r0_4 : Rect S32x64 := Rect.unit (s := S32x64) ![0, 0] S32x64.size inb_S32x64_S32x64_0_0
abbrev r0_5 : Rect S1x64 := Rect.unit (s := S1x64) ![0, 0] S1x64.size inb_S1x64_S1x64_0_0
abbrev r0_6 : Rect S5000x64 := Rect.unit (s := S5000x64) ![0, 0] S5000x64.size inb_S5000x64_S5000x64_0_0

/-! ## What the body leaves in the output window's buffer -/

/-- Window 6's staging buffer after the body, from the six input blocks: its one store, the whole buffer
    at the second layer's rectified output. -/
def out0_6 (x0 x1 : Vec F S5000x128 .f32) (x2 : Vec F S128x32 .f32) (x3 : Vec F S1x32 .f32) (x4 : Vec F S32x64 .f32) (x5 : Vec F S1x64 .f32) : Vec F S5000x64 .f32 :=
  View.canon [⟨r0_6, k0_pay1 (View.ld x0 r0_0) (View.ld x1 r0_1) (View.ld x2 r0_2) (View.ld x3 r0_3) (View.ld x4 r0_4) (View.ld x5 r0_5)⟩]

/-- The one store is the whole buffer, so it covers it. -/
theorem cover0_6 (p0 : Vec F S5000x64 .f32) (y : S5000x64.Idx) :
    ∃ pc ∈ ([⟨r0_6, p0⟩] : List (View.Piece (Elt F) S5000x64 .f32)), y ∈ pc.1.set :=
  View.cover_of_tiled [⟨r0_6, p0⟩] S5000x64.size (by rfl) y

/-! ## The body's triple -/

set_option maxHeartbeats 1000000 in
/-- The kernel body on whole staging memrefs, the inputs' at contents `xW` and the output's at anything, runs to
    the continuation holding the inputs' as they were and the output's at `out0_6` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S5000x64 .f32) (harg7 : arg7.IsWhole)
    (x0 x1 : Vec F S5000x128 .f32) (x2 : Vec F S128x32 .f32) (x3 : Vec F S1x32 .f32) (x4 : Vec F S32x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_relu_kernel i arg1 harg1 arg2 harg2 arg3 harg3 arg4 harg4 arg5 harg5 arg6 harg6 arg7 harg7) K := by
  simp only [cc0__mlp_relu_kernel_eq_skeleton]; unfold cc0__mlp_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and the output's at `out0_6` of the input blocks; the invariant
    is the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«150901_j3083786519230_1_alg».proof.Proof.Gen.KernelIdeal.Launch
import proofs.«150901_j3083786519230_1_alg».proof.Proof.Gen.KernelIdeal.Skeleton
import proofs.«150901_j3083786519230_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the two-layer perceptron kernel, at the buffers' contents when the region is entered

The kernel reads six whole staging buffers (two row blocks, two weight matrices, two bias rows), and
stores one value — the second layer's rectified output — over the whole of the seventh. So at every
grid point each input's staging buffer holds that window's block of its array, and the output's buffer
is left at a function of the six blocks. This file states that function, the proof data built from it,
and the body's obligation at every point, all at a parameter `V`: what the buffers hold on entry. -/

-- membership in a rectangle of long extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there, for any proof data whose array is `V`'s (`hA`) and whose body leaves the block in place (`hafter`): where
    it is not fetched the block index has not moved, and the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there, for any proof data whose array is `V`'s (`hA`) and whose body leaves the block in place (`hafter`): where
    it is not fetched the block index has not moved, and the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there, for any proof data whose array is `V`'s (`hA`) and whose body leaves the block in place (`hafter`): where
    it is not fetched the block index has not moved, and the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there, for any proof data whose array is `V`'s (`hA`) and whose body leaves the block in place (`hafter`): where
    it is not fetched the block index has not moved, and the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched it
    there, for any proof data whose array is `V`'s (`hA`) and whose body leaves the block in place (`hafter`): where
    it is not fetched the block index has not moved, and the window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the pipeline fetched it
    there, for any proof data whose array is `V`'s (`hA`) and whose body leaves the block in place (`hafter`): where
    it is not fetched the block index has not moved, and the window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store is the whole buffer -/

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64x64 := Rect.unit (s := S64x64) ![0, 0] S64x64.size inb_S64x64_S64x64_0_0
abbrev r1_3 : Rect S1x64 := Rect.unit (s := S1x64) ![0, 0] S1x64.size inb_S1x64_S1x64_0_0
abbrev r1_4 : Rect S64x64 := Rect.unit (s := S64x64) ![0, 0] S64x64.size inb_S64x64_S64x64_0_0
abbrev r1_5 : Rect S1x64 := Rect.unit (s := S1x64) ![0, 0] S1x64.size inb_S1x64_S1x64_0_0
abbrev r1_6 : Rect S5000x64 := Rect.unit (s := S5000x64) ![0, 0] S5000x64.size inb_S5000x64_S5000x64_0_0

/-! ## What the body leaves in the output window's buffer -/

/-- Window 6's staging buffer after the body, from the six input blocks: its one store, the whole buffer
    at the second layer's rectified output. -/
def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r1_6, k1_pay1 (View.ld x0 r1_0) (View.ld x1 r1_1) (View.ld x2 r1_2) (View.ld x3 r1_3) (View.ld x4 r1_4) (View.ld x5 r1_5)⟩]

/-- The one store is the whole buffer, so it covers it. -/
theorem cover1_6 (p0 : Vec F S5000x64 .f32) (y : S5000x64.Idx) :
    ∃ pc ∈ ([⟨r1_6, p0⟩] : List (View.Piece (Elt F) S5000x64 .f32)), y ∈ pc.1.set :=
  View.cover_of_tiled [⟨r1_6, p0⟩] S5000x64.size (by rfl) y

/-! ## The body's triple -/

set_option maxHeartbeats 1000000 in
/-- The kernel body on whole staging memrefs, the inputs' at contents `xW` and the output's at anything, runs to
    the continuation holding the inputs' as they were and the output's at `out1_6` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_relu_kernel i arg1 harg1 arg2 harg2 arg3 harg3 arg4 harg4 arg5 harg5 arg6 harg6 arg7 harg7) K := by
  simp only [cc1__mlp_relu_kernel_eq_skeleton]; unfold cc1__mlp_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant
    is the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2Runs.lean ====
/- Region 2 (the mean-pool kernel) of the frame proof: what its three cases share — the two branch
   conditions of the body in closed form over the grid, where the output window is idle, the staging and
   scratch memrefs — and each case's whole-body run. -/
import proofs.«150901_j3083786519230_1_alg».proof.Proof.Gen.KernelIdeal.Launch
import proofs.«150901_j3083786519230_1_alg».proof.Proof.Gen.KernelIdeal.Skeleton
import proofs.«150901_j3083786519230_1_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The body's two branch conditions -/

/-- The first conditional's condition (the grid coordinate is 0), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional's condition (the grid coordinate is 19). -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- Window 0 (the input) is never idle. -/
theorem liveAt2_0 : ∀ t : Fin cfg2.N, cfg2.idle 0 (grid2.coords t) = false := by decide +kernel
/-- Case A (the first point): the output window is idle, and not written back. -/
theorem idleAt2_1_A : ∀ t : Fin cfg2.N, cond2_0 (grid2.coords t) → ¬cond2_1 (grid2.coords t) → cfg2.idle 1 (grid2.coords t) = true := by decide +kernel
theorem noFlush2_1_A : ∀ t : Fin cfg2.N, cond2_0 (grid2.coords t) → ¬cond2_1 (grid2.coords t) → (cfg2.win 1).flush t = false := by decide +kernel
/-- Case B (the points strictly between): the output window is idle, and not written back. -/
theorem idleAt2_1_B : ∀ t : Fin cfg2.N, ¬cond2_0 (grid2.coords t) → ¬cond2_1 (grid2.coords t) → cfg2.idle 1 (grid2.coords t) = true := by decide +kernel
theorem noFlush2_1_B : ∀ t : Fin cfg2.N, ¬cond2_0 (grid2.coords t) → ¬cond2_1 (grid2.coords t) → (cfg2.win 1).flush t = false := by decide +kernel
/-- Case C (the last point): the output window is live. -/
theorem liveAt2_1_C : ∀ t : Fin cfg2.N, ¬cond2_0 (grid2.coords t) → cond2_1 (grid2.coords t) → cfg2.idle 1 (grid2.coords t) = false := by decide +kernel

/-! ## The memrefs the body is called on -/

/-- The output window's one staging buffer, through which its contents are stated. -/
abbrev VO2_1 : View sig .tc .vmem S1x64 .f32 := (Memref.whole cc2_stg1_0 : Memref sig .tc .vmem S1x64 .f32).view
/-- Each window's current staging memref at point `t`, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
/-- The scratch accumulator: a whole scoped buffer of the kernel's own. -/
abbrev scM2_0 : Memref sig .tc .vmem S1x64 .f32 := Memref.whole cc2_scratch0
/-- The same as a view: what it holds is stated through it. -/
abbrev VS2_0 : View sig .tc .vmem S1x64 .f32 := scM2_0.view

/-! ## The body's run, case by case

Each run is a pair of piece lists — what the body's stores leave in the output's staging memref and in the
scratch, last store first — with the proof that, on whole memrefs, the body runs to a continuation that holds
the input's buffer as it was, an idle output's buffer as it was, and every buffer stored into with its pieces
written. -/

set_option maxHeartbeats 1000000 in
/-- Case A (first point: the scratch is zeroed, then accumulated into; no store to the output). The scratch may
    hold anything on entry. -/
noncomputable def kernelRun2_A (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- Case B (a point strictly between the first and the last: the scratch, at the contents `xs0` the point before
    left, is accumulated into; no store to the output). -/
noncomputable def kernelRun2_B (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨[], ?_, fun xi1 E K => ?run⟩
  case run =>
    simp only [cc2__mean_pool_kernel_eq_skeleton]; unfold cc2__mean_pool_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- Case C (last point: the scratch, at the contents `xs0` the point before left, is accumulated into, and its
    scaled contents are stored into the output, whose buffer may hold anything on entry). -/
noncomputable def kernelRun2_C (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) :
    Σ' (L1 : List (View.Piece (Elt F) S1x64 .f32)), { LS0 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc2__mean_pool_kernel i arg1 harg1 arg2 harg2 arg3 harg3) K } := by
  refine ⟨?_, ?_, fun E K => ?run⟩
  case run =>
    simp only [cc2__mean_pool_kernel_eq_skeleton]; unfold cc2__mean_pool_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Fr

end
-- ==== Proof.KI.Reg2.lean ====
/- Region 2 (the mean-pool kernel) of the frame proof, at a parameter `V` (the buffers' contents when the
   region is entered): what the output's staging buffer and the carried scratch accumulator hold after each grid
   point, the pipeline's proof data over an invariant that tracks the scratch point by point, the body
   obligation, the two entailments between that invariant and the class invariant, and what the scratch and the
   output hold point by point as the kernel's payloads. -/
import proofs.«150901_j3083786519230_1_alg».proof.Proof.KI.Reg2Runs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The class invariant, with the scratch accumulator set apart -/

/-- The core's scoped buffers that are no staging buffer of this region and not its scratch (the other two
    regions' staging buffers), each whole at some contents. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f))

/-- The class invariant is those buffers, the scratch accumulator owned at some contents, and the generator
    register at some state. -/
theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; simp only [scM2_0, owns_whole]
  unfold rest2
  refine BI.equiv_iff.mp ⟨?_, ?_⟩
  · show (_ : sProp 𝕄) ⊢ (_ : sProp 𝕄)
    iintro ⟨⟨HR0, HR1, HR2, HR3, HR4, HR5, HR6, HR7, HR8, HR9, HR10, HR11, HR12, HR13, HR14, HR15, HR16, HR17, HR18, HR19, HS⟩, Hg⟩
    isplitl [HR0 HR1 HR2 HR3 HR4 HR5 HR6 HR7 HR8 HR9 HR10 HR11 HR12 HR13 HR14 HR15 HR16 HR17 HR18 HR19 HS]
    · isplitl [HR0 HR1 HR2 HR3 HR4 HR5 HR6 HR7 HR8 HR9 HR10 HR11 HR12 HR13 HR14 HR15 HR16 HR17 HR18 HR19]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        iexact HR19
      iexact HS
    iexact Hg
  · show (_ : sProp 𝕄) ⊢ (_ : sProp 𝕄)
    iintro ⟨⟨⟨HR0, HR1, HR2, HR3, HR4, HR5, HR6, HR7, HR8, HR9, HR10, HR11, HR12, HR13, HR14, HR15, HR16, HR17, HR18, HR19⟩, HS⟩, Hg⟩
    isplitl [HR0 HR1 HR2 HR3 HR4 HR5 HR6 HR7 HR8 HR9 HR10 HR11 HR12 HR13 HR14 HR15 HR16 HR17 HR18 HR19 HS]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      iexact HS
    iexact Hg

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array
    is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the output's staging buffer and in the scratch -/

/-- Case A stores nothing into the output (idle there, not written back): a placeholder nothing consults. -/
def out2_A_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) : Vec F S1x64 .f32 :=
  VO2_1.read (Elt F) (VO2_1.writes (Elt F) VO2_1.junk (kernelRun2_A c i arg1 harg1 arg2 harg2 arg3 harg3 hc0 hc1 x0).1)

/-- Case A's pieces for the scratch cover it. -/
theorem scover2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) (y : S1x64.Idx) :
    ∃ pc ∈ (kernelRun2_A c i arg1 harg1 arg2 harg2 arg3 harg3 hc0 hc1 x0).2.1, y ∈ pc.1.set :=
  View.cover_of_tiledL (kernelRun2_A c i arg1 harg1 arg2 harg2 arg3 harg3 hc0 hc1 x0).2.1 S1x64.size (by sl_kernel_rfl) y

/-- What case A leaves in the scratch: its pieces read back. -/
def sout2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i)
    (x0 : Vec F S5000x64 .f32) : Vec F S1x64 .f32 :=
  VS2_0.read (Elt F) (VS2_0.writes (Elt F) VS2_0.junk (kernelRun2_A c i arg1 harg1 arg2 harg2 arg3 harg3 hc0 hc1 x0).2.1)

/-- Case B stores nothing into the output (idle there, not written back): a placeholder nothing consults. -/
def out2_B_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) : Vec F S1x64 .f32 :=
  VO2_1.read (Elt F) (VO2_1.writes (Elt F) VO2_1.junk (kernelRun2_B c i arg1 harg1 arg2 harg2 arg3 harg3 hc0 hc1 x0 xs0).1)

/-- Case B's pieces for the scratch cover it. -/
theorem scover2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) (y : S1x64.Idx) :
    ∃ pc ∈ (kernelRun2_B c i arg1 harg1 arg2 harg2 arg3 harg3 hc0 hc1 x0 xs0).2.1, y ∈ pc.1.set :=
  View.cover_of_tiledL (kernelRun2_B c i arg1 harg1 arg2 harg2 arg3 harg3 hc0 hc1 x0 xs0).2.1 S1x64.size (by sl_kernel_rfl) y

/-- What case B leaves in the scratch: its pieces read back. -/
def sout2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i)
    (x0 : Vec F S5000x64 .f32) (xs0 : Vec F S1x64 .f32) : Vec F S1x64 .f32 :=
  VS2_0.read (Elt F) (VS2_0.writes (Elt F) VS2_0.junk (kernelRun2_B c i arg1 harg1 arg2 harg2 arg3 harg3 hc0 hc1 x0 xs0).2.1)

/-- Case C's pieces for the output cover its block. -/
theorem cover2_C_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) (y : S1x64.Idx) :
    ∃ pc ∈ (kernelRun2_C c i arg1 harg1 arg2 harg2 arg3 harg3 hc0 hc1 x0 xs0).1, y ∈ pc.1.set :=
  View.cover_of_tiledL (kernelRun2_C c i arg1 harg1 arg2 harg2 arg3 harg3 hc0 hc1 x0 xs0).1 S1x64.size (by sl_kernel_rfl) y

/-- What case C leaves in the output's staging buffer: its pieces read back. -/
def out2_C_1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) : Vec F S1x64 .f32 :=
  VO2_1.read (Elt F) (VO2_1.writes (Elt F) VO2_1.junk (kernelRun2_C c i arg1 harg1 arg2 harg2 arg3 harg3 hc0 hc1 x0 xs0).1)

/-- Case C's pieces for the scratch cover it. -/
theorem scover2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) (y : S1x64.Idx) :
    ∃ pc ∈ (kernelRun2_C c i arg1 harg1 arg2 harg2 arg3 harg3 hc0 hc1 x0 xs0).2.1, y ∈ pc.1.set :=
  View.cover_of_tiledL (kernelRun2_C c i arg1 harg1 arg2 harg2 arg3 harg3 hc0 hc1 x0 xs0).2.1 S1x64.size (by sl_kernel_rfl) y

/-- What case C leaves in the scratch: its pieces read back. -/
def sout2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i)
    (x0 : Vec F S5000x64 .f32) (xs0 : Vec F S1x64 .f32) : Vec F S1x64 .f32 :=
  VS2_0.read (Elt F) (VS2_0.writes (Elt F) VS2_0.junk (kernelRun2_C c i arg1 harg1 arg2 harg2 arg3 harg3 hc0 hc1 x0 xs0).2.1)

/-! ## What the output and the scratch hold after each point -/

/-- No point after the first meets the first conditional's condition. -/
theorem not_cond2_0_succ (n : ℕ) (hn : n + 1 < cfg2.N) : ¬cond2_0 (grid2.coords ⟨n + 1, hn⟩) := fun h => by
  have h' := (hcond2_0 ⟨n + 1, hn⟩).mp h
  have hN : n + 1 < 20 := lt_of_lt_of_eq hn (show cfg2.N = 20 from N_2)
  (try dsimp only at h'); omega

/-- The first point does not meet the second conditional's condition. -/
theorem not_cond2_1_zero (hn : 0 < cfg2.N) : ¬cond2_1 (grid2.coords ⟨0, hn⟩) := fun h => by
  have h' := (hcond2_1 ⟨0, hn⟩).mp h
  (try dsimp only at h'); omega

/-- THE ACCUMULATION: what the output's staging buffer and the carried scratch hold after the body at position
    `n` — at the first point case A's contents; afterwards case C's at the last point and case B's elsewhere, the
    scratch read at what the point before left in it. -/
def outsAt2 (c : Dev nD) : (n : ℕ) → n < cfg2.N → Vec F S1x64 .f32 × Vec F S1x64 .f32
  | 0, hn => (out2_A_1 c (grid2.coords ⟨0, hn⟩) (ms2_0 ⟨0, hn⟩) (hs2_0 ⟨0, hn⟩) (ms2_1 ⟨0, hn⟩) (hs2_1 ⟨0, hn⟩) scM2_0 (Memref.isWhole_whole _) ((hcond2_0 ⟨0, hn⟩).mpr (Nat.zero_mod _)) (not_cond2_1_zero hn) (iblk2 V c 0 ⟨0, hn⟩),
      sout2_A_0 c (grid2.coords ⟨0, hn⟩) (ms2_0 ⟨0, hn⟩) (hs2_0 ⟨0, hn⟩) (ms2_1 ⟨0, hn⟩) (hs2_1 ⟨0, hn⟩) scM2_0 (Memref.isWhole_whole _) ((hcond2_0 ⟨0, hn⟩).mpr (Nat.zero_mod _)) (not_cond2_1_zero hn) (iblk2 V c 0 ⟨0, hn⟩))
  | n + 1, hn =>
    if h1 : (n + 1) % 20 = 19 then
      (out2_C_1 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) ((hcond2_1 ⟨n + 1, hn⟩).mpr h1) (iblk2 V c 0 ⟨n + 1, hn⟩) (outsAt2 c n (Nat.lt_of_succ_lt hn)).2,
        sout2_C_0 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) ((hcond2_1 ⟨n + 1, hn⟩).mpr h1) (iblk2 V c 0 ⟨n + 1, hn⟩) (outsAt2 c n (Nat.lt_of_succ_lt hn)).2)
    else
      (out2_B_1 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) (fun h => h1 ((hcond2_1 ⟨n + 1, hn⟩).mp h)) (iblk2 V c 0 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) scM2_0 (Memref.isWhole_whole _) (not_cond2_0_succ n hn) (fun h => h1 ((hcond2_1 ⟨n + 1, hn⟩).mp h)) (iblk2 V c 0 ⟨n + 1, hn⟩) (outsAt2 c n (Nat.lt_of_succ_lt hn)).2)

/-- `outsAt2` at the point of case A. -/
theorem outsAt2_A (c : Dev nD) (t : Fin cfg2.N) (h0 : t.val % 20 = 0) (h1 : ¬t.val % 20 = 19) :
    outsAt2 V c t.val t.isLt = (out2_A_1 c (grid2.coords t) (ms2_0 t) (hs2_0 t) (ms2_1 t) (hs2_1 t) scM2_0 (Memref.isWhole_whole _) ((hcond2_0 t).mpr h0) (fun h => h1 ((hcond2_1 t).mp h)) (iblk2 V c 0 t),
      sout2_A_0 c (grid2.coords t) (ms2_0 t) (hs2_0 t) (ms2_1 t) (hs2_1 t) scM2_0 (Memref.isWhole_whole _) ((hcond2_0 t).mpr h0) (fun h => h1 ((hcond2_1 t).mp h)) (iblk2 V c 0 t)) := by
  obtain ⟨n, hn⟩ := t
  cases n with
  | zero => exact rfl
  | succ n =>
    exfalso
    have hN : n + 1 < 20 := lt_of_lt_of_eq hn (show cfg2.N = 20 from N_2)
    (try dsimp only at h0); omega

/-- `outsAt2` at a point of case B: that case's contents, over what the point before left. -/
theorem outsAt2_B (c : Dev nD) (t : Fin cfg2.N) (h0 : ¬t.val % 20 = 0) (h1 : ¬t.val % 20 = 19) :
    outsAt2 V c t.val t.isLt = (out2_B_1 c (grid2.coords t) (ms2_0 t) (hs2_0 t) (ms2_1 t) (hs2_1 t) scM2_0 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2,
      sout2_B_0 c (grid2.coords t) (ms2_0 t) (hs2_0 t) (ms2_1 t) (hs2_1 t) scM2_0 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt2` at the point of case C: that case's contents, over what the point before left. -/
theorem outsAt2_C (c : Dev nD) (t : Fin cfg2.N) (h0 : ¬t.val % 20 = 0) (h1 : t.val % 20 = 19) :
    outsAt2 V c t.val t.isLt = (out2_C_1 c (grid2.coords t) (ms2_0 t) (hs2_0 t) (ms2_1 t) (hs2_1 t) scM2_0 (Memref.isWhole_whole _) (fun h => h0 ((hcond2_0 t).mp h)) ((hcond2_1 t).mpr h1) (iblk2 V c 0 t) (outsAt2 V c (t.val - 1) (Nat.lt_of_le_of_lt (Nat.sub_le _ _) t.isLt)).2,
      sout2_C_0 c (grid2.coords t) (ms2_0 t) (hs2_0 t) (ms2_1 t) (hs2_1 t) scM2_0 (Memref.isWhole_whole _) (fun h => h0 ((hcond2_0 t).mp h)) ((hcond2_1 t).mpr h1) (iblk2 V c 0 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant, point by point -/

/-- The invariant before position `n`: before the first point the class invariant (the scratch at anything);
    afterwards the other scoped buffers at anything, the scratch at what the point before left in it
    (`outsAt2`'s second component), and the generator register at some state. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the
    body at point `t` the input's buffer at its block and the output's at `outsAt2`'s first component; the
    invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point. The input's memref holds its block; the closed forms of the two conditions say which
    case the point is in; the invariant hands the body the scratch — at anything at the first point, at what the
    point before left elsewhere — and takes it back at this point's contents, the case's pieces covering it; the
    output's buffer is handed back untouched where the window is idle and at the case's pieces at the last point;
    the other scoped buffers, the generator register and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 20 = 0
  · by_cases h1 : t.val % 20 = 19
    · exfalso; omega
    · rw [show (dat2 V c).leavesExact 0 t = owns (c : Thread nD τ) (ms2_0 t) fullShare ((dat2 V c).after 0 t) from by
            unfold Dat.leavesExact; rw [liveAt2_0 t], after2_0]
      rw [Dat.leavesExact_idle (dat2 V c) 1 t (idleAt2_1_A t ((hcond2_0 t).mpr h0) (fun h => h1 ((hcond2_1 t).mp h))) (noFlush2_1_A t ((hcond2_0 t).mpr h0) (fun h => h1 ((hcond2_1 t).mp h)))]
      rw [outsAt2_A V c t h0 h1]
      unfold sout2_A_0; (try dsimp only)
      have hz : t.val = 0 := by omega
      rw [PhiS2_castSucc V c t, PhiS2_zero V c _ _ hz, PhiA2_eq]
      iintro ⟨⟨⟨HR, HS0⟩, Hg⟩, Ho, ⟨%d0, H0⟩, ⟨%d1, H1⟩⟩
      iapply ((kernelRun2_A c (grid2.coords t) _ _ _ _ _ _ ((hcond2_0 t).mpr h0) (fun h => h1 ((hcond2_1 t).mp h)) (iblk2 V c 0 t)).2.2 _ Set.univ _)
      isplitl [H0]; · iexact H0
      isplitl [H1]; · iexact H1
      isplitl [HS0]; · iexact HS0
      iintro ⟨H0, H1, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_A_0 c _ _ _ _ _ _ _ _ _ _)
        iexact Hg
      isplitl [Ho]; · iexact Ho
      isplitl [H0]; · iexact H0
      iexists _; iexact H1
  · have hz : t.val ≠ 0 := fun hz => h0 (by rw [hz])
    by_cases h1 : t.val % 20 = 19
    · rw [show (dat2 V c).leavesExact 0 t = owns (c : Thread nD τ) (ms2_0 t) fullShare ((dat2 V c).after 0 t) from by
            unfold Dat.leavesExact; rw [liveAt2_0 t], after2_0]
      rw [show (dat2 V c).leavesExact 1 t = owns (c : Thread nD τ) (ms2_1 t) fullShare ((dat2 V c).after 1 t) from by
            unfold Dat.leavesExact; rw [liveAt2_1_C t (fun h => h0 ((hcond2_0 t).mp h)) ((hcond2_1 t).mpr h1)], after2_1]
      rw [outsAt2_C V c t h0 h1]
      unfold out2_C_1 sout2_C_0; (try dsimp only)
      rw [PhiS2_castSucc V c t, PhiS2_pos V c _ _ hz]
      iintro ⟨⟨⟨HR, HS0⟩, Hg⟩, Ho, ⟨%d0, H0⟩, ⟨%d1, H1⟩⟩
      iapply ((kernelRun2_C c (grid2.coords t) _ _ _ _ _ _ (fun h => h0 ((hcond2_0 t).mp h)) ((hcond2_1 t).mpr h1) (iblk2 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover2_C_1 c _ _ _ _ _ _ _ _ _ _ _)
    · rw [show (dat2 V c).leavesExact 0 t = owns (c : Thread nD τ) (ms2_0 t) fullShare ((dat2 V c).after 0 t) from by
            unfold Dat.leavesExact; rw [liveAt2_0 t], after2_0]
      rw [Dat.leavesExact_idle (dat2 V c) 1 t (idleAt2_1_B t (fun h => h0 ((hcond2_0 t).mp h)) (fun h => h1 ((hcond2_1 t).mp h))) (noFlush2_1_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HR, HS0⟩, Hg⟩, Ho, ⟨%d0, H0⟩, ⟨%d1, H1⟩⟩
      iapply ((kernelRun2_B c (grid2.coords t) _ _ _ _ _ _ (fun h => h0 ((hcond2_0 t).mp h)) (fun h => h1 ((hcond2_1 t).mp h)) (iblk2 V c 0 t) _).2.2 _ Set.univ _)
      isplitl [H0]; · iexact H0
      isplitl [H1]; · iexact H1
      isplitl [HS0]; · iexact HS0
      iintro ⟨H0, H1, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B_0 c _ _ _ _ _ _ _ _ _ _ _)
        iexact Hg
      isplitl [Ho]; · iexact Ho
      isplitl [H0]; · iexact H0
      iexists _; iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the scratch's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

/-! ## The found pieces, as the skeleton's payloads -/

/-- The zero offsets of a rank-2 access, as a constant function. -/
theorem hz2 : (![0, 0] : Fin 2 → Nat) = fun _ => 0 := funext fun a => by fin_cases a <;> rfl

/-- The first point zeroes the scratch, then adds the block's column sums onto the zeros it reads back. -/
theorem soutA2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (hc1 : ¬cond2_1 i) (x0 : Vec F S5000x64 .f32) :
    sout2_A_0 c i arg1 harg1 arg2 harg2 arg3 harg3 hc0 hc1 x0 = k2_pay2 (k2_pay1 (F := F)) x0 := by
  unfold sout2_A_0
  rw [View.read_writes_eq_canon _ _ _ (scover2_A_0 c i arg1 harg1 arg2 harg2 arg3 harg3 hc0 hc1 x0)]
  unfold kernelRun2_A
  dsimp only
  try sl_unfold_words
  rw [View.canon_cons_unit_zero hz2]
  simp only [View.readAt_eq_ld, harg1.read_unread, View.ld_unit_zero (S := S5000x64) hz2, View.readCov_unit_zero (S := S1x64) _ hz2]

/-- A middle point adds the block's column sums onto what the scratch held. -/
theorem soutB2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : ¬cond2_1 i) (x0 : Vec F S5000x64 .f32) (xs0 : Vec F S1x64 .f32) :
    sout2_B_0 c i arg1 harg1 arg2 harg2 arg3 harg3 hc0 hc1 x0 xs0 = k2_pay2 xs0 x0 := by
  unfold sout2_B_0
  rw [View.read_writes_eq_canon _ _ _ (scover2_B_0 c i arg1 harg1 arg2 harg2 arg3 harg3 hc0 hc1 x0 xs0)]
  unfold kernelRun2_B
  dsimp only
  try sl_unfold_words
  rw [View.canon_unit_zero hz2]
  simp only [View.readAt_eq_ld, harg1.read_unread, harg3.read_unread, View.ld_unit_zero (S := S5000x64) hz2, View.ld_unit_zero (S := S1x64) hz2]

/-- So does the last point. -/
theorem soutC2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i) (x0 : Vec F S5000x64 .f32) (xs0 : Vec F S1x64 .f32) :
    sout2_C_0 c i arg1 harg1 arg2 harg2 arg3 harg3 hc0 hc1 x0 xs0 = k2_pay2 xs0 x0 := by
  unfold sout2_C_0
  rw [View.read_writes_eq_canon _ _ _ (scover2_C_0 c i arg1 harg1 arg2 harg2 arg3 harg3 hc0 hc1 x0 xs0)]
  unfold kernelRun2_C
  dsimp only
  try sl_unfold_words
  rw [View.canon_unit_zero hz2]
  simp only [View.readAt_eq_ld, harg1.read_unread, harg3.read_unread, View.ld_unit_zero (S := S5000x64) hz2, View.ld_unit_zero (S := S1x64) hz2]

/-- The last point stores into the output the scaling of the scratch as it has just left it. -/
theorem outC2_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i) (hc1 : cond2_1 i) (x0 : Vec F S5000x64 .f32) (xs0 : Vec F S1x64 .f32) :
    out2_C_1 c i arg1 harg1 arg2 harg2 arg3 harg3 hc0 hc1 x0 xs0 = k2_pay3 (k2_pay2 xs0 x0) := by
  unfold out2_C_1
  rw [View.read_writes_eq_canon _ _ _ (cover2_C_1 c i arg1 harg1 arg2 harg2 arg3 harg3 hc0 hc1 x0 xs0)]
  unfold kernelRun2_C
  dsimp only
  try sl_unfold_words
  rw [View.canon_unit_zero hz2, View.readCov_unit_zero (S := S1x64) _ hz2]
  simp only [View.readAt_eq_ld, harg1.read_unread, harg3.read_unread, View.ld_unit_zero (S := S5000x64) hz2, View.ld_unit_zero (S := S1x64) hz2]

/-- After the first point the scratch holds the first block's column sums added onto zeros. -/
theorem scr2_zero (c : Dev nD) (h : 0 < cfg2.N) : (outsAt2 V c 0 h).2 = k2_pay2 (k2_pay1 (F := F)) (iblk2 V c 0 ⟨0, h⟩) := by
  rw [outsAt2_A V c ⟨0, h⟩ (Nat.zero_mod _) (fun h' => by (try dsimp only at h'); omega)]
  dsimp only
  rw [soutA2_eq]

/-- After each later point it holds that point's block's column sums added onto what the point before left. -/
theorem scr2_succ (c : Dev nD) (n : ℕ) (h : n + 1 < cfg2.N) : (outsAt2 V c (n + 1) h).2 = k2_pay2 (outsAt2 V c n (Nat.lt_of_succ_lt h)).2 (iblk2 V c 0 ⟨n + 1, h⟩) := by
  have hN : n + 1 < 20 := lt_of_lt_of_eq h (show cfg2.N = 20 from N_2)
  have h0 : ¬(⟨n + 1, h⟩ : Fin cfg2.N).val % 20 = 0 := fun h0 => by (try dsimp only at h0); omega
  by_cases h1 : (⟨n + 1, h⟩ : Fin cfg2.N).val % 20 = 19
  · rw [outsAt2_C V c ⟨n + 1, h⟩ h0 h1]
    dsimp only
    rw [soutC2_eq]
    first | done | rfl | simp only [Nat.add_sub_cancel]
  · rw [outsAt2_B V c ⟨n + 1, h⟩ h0 h1]
    dsimp only
    rw [soutB2_eq]
    first | done | rfl | simp only [Nat.add_sub_cancel]

/-- At the last point the output's staging buffer holds the scaling of what the scratch then holds. -/
theorem out2_last (c : Dev nD) (h : 19 < cfg2.N) : (outsAt2 V c 19 h).1 = k2_pay3 (outsAt2 V c 19 h).2 := by
  rw [outsAt2_C V c ⟨19, h⟩ (fun h' => by (try dsimp only at h'); omega) (show (19 : ℕ) % 20 = 19 from rfl)]
  dsimp only
  rw [outC2_eq, soutC2_eq]

end Cert.KernelIdeal.Fr

end
-- ==== Proof.KI.Run.lean ====
/-
  The run of the whole program, segment by segment: the host operations before the first kernel, the first
  perceptron kernel over its twenty row blocks, the host operations between, the second perceptron kernel, the
  pooling kernel.  Between two segments every buffer outside the kernels' scratch holds a named value: the launch
  memory, then the host operations' results folded over it, then — after a kernel — its output array with every block
  the kernel wrote back folded in.  The run ends with the two result arrays at these named values and every argument
  array as launched.
-/
import proofs.«150901_j3083786519230_1_alg».proof.Proof.Gen.KernelIdeal.Regions
import proofs.«150901_j3083786519230_1_alg».proof.Proof.KI.Reg0
import proofs.«150901_j3083786519230_1_alg».proof.Proof.KI.Reg1
import proofs.«150901_j3083786519230_1_alg».proof.Proof.KI.Reg2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The buffers' contents at each segment boundary -/

/-- The launch memory, per core. -/
abbrev B0 : Dev nD → Valuation τ sig (Elt F) := fun c b => (s₀ m ρ).mem ((c : Dev nD), b)
/-- After the first stretch of host operations (the first kernel's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves (an input's array as entered, the output's with
    every write-back folded in), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the core's own references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations (the second kernel's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves (an input's array as entered, the output's with
    every write-back folded in), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the core's own references. -/
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- At region 2's exit: its arrays at what the pipeline leaves (an input's array as entered, the output's with
    every write-back folded in), every other buffer as entered. -/
def B5 (c : Dev nD) : Valuation τ sig (Elt F) :=
  Pipeline.withArrays spec2 c (B4 m ρ c) fun w => (dat2 (E4 m ρ) c).arrAt w cfg2.N
theorem B5_arr (c : Dev nD) (w : Fin cfg2.W) :
    B5 m ρ c (Proc.devRef .tc (Pipeline.arrRef spec2 w)) = (dat2 (E4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same read at the core's own references. -/
abbrev E5 : (c : Dev nD) → (b : Ref sig .tc) → Buf (Elt F) ((c : Thread nD τ).loc b) := fun c b => B5 m ρ c b
theorem hF2 (c : Dev nD) (w : Fin cfg2.W) : (dat2 (E4 m ρ) c).arrAt w cfg2.N = E5 m ρ c (Pipeline.arrRef spec2 w) :=
  (B5_arr m ρ c w).symm
theorem hrest2 (c : Dev nD) : ∀ b, b ∉ Finset.univ.image (Pipeline.arrRef spec2) → E5 m ρ c b = E4 m ρ c b :=
  fun b hb => B5_of_ne m ρ c b fun w e => hb (Finset.mem_image.mpr ⟨w, Finset.mem_univ _, e⟩)

/-! ### No host operation and no kernel writes an argument: its buffer walks back to the launch memory -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of_ne m ρ c main_arg0 (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (by decide)
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of_ne m ρ c main_arg1 (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of_ne m ρ c main_arg2 (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of_ne m ρ c main_arg3 (by decide)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := (B2_arr m ρ c 2).trans (((dat0 (E1 m ρ) c).arrAt_in 2 rfl _).trans (A_eq0 (E1 m ρ) c 2))
    _ = B0 m ρ c (Proc.devRef .tc main_arg3) := StableHlo.after_of_writes_sub hostOps0 _ hostOps0_writes (by decide)
    _ = m ((c : Thread nD τ).loc main_arg3) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of_ne m ρ c main_arg4 (by decide)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := B5_of_ne m ρ c main_arg5 (by decide)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := (B2_arr m ρ c 4).trans (((dat0 (E1 m ρ) c).arrAt_in 4 rfl _).trans (A_eq0 (E1 m ρ) c 4))
    _ = B0 m ρ c (Proc.devRef .tc main_arg5) := StableHlo.after_of_writes_sub hostOps0 _ hostOps0_writes (by decide)
    _ = m ((c : Thread nD τ).loc main_arg5) := rfl
theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := B5_of_ne m ρ c main_arg6 (by decide)
    _ = B3 m ρ c (Proc.devRef .tc main_arg6) := B4_of_ne m ρ c main_arg6 (by decide)
    _ = B2 m ρ c (Proc.devRef .tc main_arg6) := StableHlo.after_of_writes_sub hostOps1 _ hostOps1_writes (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl
theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := B5_of_ne m ρ c main_arg7 (by decide)
    _ = B3 m ρ c (Proc.devRef .tc main_arg7) := (B4_arr m ρ c 2).trans (((dat1 (E3 m ρ) c).arrAt_in 2 rfl _).trans (A_eq1 (E3 m ρ) c 2))
    _ = B2 m ρ c (Proc.devRef .tc main_arg7) := StableHlo.after_of_writes_sub hostOps1 _ hostOps1_writes (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl
theorem B5_main_arg8 (c : Dev nD) : B5 m ρ c (Proc.devRef .tc main_arg8) = m ((c : Thread nD τ).loc main_arg8) :=
  calc B5 m ρ c (Proc.devRef .tc main_arg8)
    _ = B4 m ρ c (Proc.devRef .tc main_arg8) := B5_of_ne m ρ c main_arg8 (by decide)
    _ = B3 m ρ c (Proc.devRef .tc main_arg8) := B4_of_ne m ρ c main_arg8 (by decide)
    _ = B2 m ρ c (Proc.devRef .tc main_arg8) := StableHlo.after_of_writes_sub hostOps1 _ hostOps1_writes (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl
theorem B5_main_arg9 (c : Dev nD) : B5 m ρ c (Proc.devRef .tc main_arg9) = m ((c : Thread nD τ).loc main_arg9) :=
  calc B5 m ρ c (Proc.devRef .tc main_arg9)
    _ = B4 m ρ c (Proc.devRef .tc main_arg9) := B5_of_ne m ρ c main_arg9 (by decide)
    _ = B3 m ρ c (Proc.devRef .tc main_arg9) := (B4_arr m ρ c 4).trans (((dat1 (E3 m ρ) c).arrAt_in 4 rfl _).trans (A_eq1 (E3 m ρ) c 4))
    _ = B2 m ρ c (Proc.devRef .tc main_arg9) := StableHlo.after_of_writes_sub hostOps1 _ hostOps1_writes (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl
theorem B5_main_arg10 (c : Dev nD) : B5 m ρ c (Proc.devRef .tc main_arg10) = m ((c : Thread nD τ).loc main_arg10) :=
  calc B5 m ρ c (Proc.devRef .tc main_arg10)
    _ = B4 m ρ c (Proc.devRef .tc main_arg10) := B5_of_ne m ρ c main_arg10 (by decide)
    _ = B3 m ρ c (Proc.devRef .tc main_arg10) := B4_of_ne m ρ c main_arg10 (by decide)
    _ = B2 m ρ c (Proc.devRef .tc main_arg10) := StableHlo.after_of_writes_sub hostOps1 _ hostOps1_writes (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl

/-! ### The two results at the last boundary -/

/-- The node table the second kernel leaves is the pooling kernel's input and is not written again. -/
theorem B5_main_v29 (c : Dev nD) : B5 m ρ c (Proc.devRef .tc main_v29) = (dat1 (E3 m ρ) c).arrAt 6 cfg1.N :=
  calc B5 m ρ c (Proc.devRef .tc main_v29)
    _ = B4 m ρ c (Proc.devRef .tc main_v29) := (B5_arr m ρ c 0).trans (((dat2 (E4 m ρ) c).arrAt_in 0 rfl _).trans (A_eq2 (E4 m ρ) c 0))
    _ = (dat1 (E3 m ρ) c).arrAt 6 cfg1.N := B4_arr m ρ c 6
theorem B5_main_v30 (c : Dev nD) : B5 m ρ c (Proc.devRef .tc main_v30) = (dat2 (E4 m ρ) c).arrAt 1 cfg2.N :=
  B5_arr m ρ c 1

/-! ## The proof data family and the thread state -/

abbrev admF : (p : Fin 3) → (pcfgs (F := F) p).Adm := fun p => (cfgs p).toPCfg_adm
/-- Every pipeline's proof data, each at its region's entry contents. -/
def pdats : (p : Fin 3) → (c : Dev nD) → Dat τ (Elt F) Unit ℕ (Pipeline.UD sig nD τ) ℕ (Pipeline.pin (pcfgs (F := F)) admF p) c
  | ⟨0, _⟩ => fun c => dat0 (E1 m ρ) c
  | ⟨1, _⟩ => fun c => dat1 (E3 m ρ) c
  | ⟨2, _⟩ => fun c => dat2 (E4 m ρ) c
abbrev Vn : Variants := Variants.none
abbrev Lz : GSem nD τ sig → Finset Unit := fun _ => ∅
abbrev lvz : GSem nD τ sig → Unit → ℕ := fun _ _ => 0
/-- What rides beside the buffers through every segment: the core's generator register at some state and nothing owed. -/
abbrev Rd (c : Dev nD) : sProp 𝕄 := iprop((∃ r, prngReg c r) ∗ ∃ W, owes (c : Thread nD τ) (0 : CellTallies nD τ sig Unit) W)
/-- A stretch of host operations as a segment from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tn (c : Dev nD) : sProp 𝕄 := iprop(StableHlo.held (c : Thread nD τ) (Pipeline.ucRefs τ sig) (B5 m ρ c) ∗ ∃ r, prngReg c r)

/-! ## The kernels as segments -/

-- a library lemma stated over the pinned configuration unifies with the printed one only when unification may
-- unfold plain definitions in a metavariable's type
set_option backward.isDefEq.respectTransparency.types false in
/-- Region 0 over the thread state: entered from every unscoped buffer at `B1`, left at `B2`.  Its arrays are
    split out of the unscoped buffers and put back at the exit contents; the generator register goes into the region's
    invariant and comes back; nothing is owed; the kernel has no semaphore of its own. -/
def reg0 : Pipeline.RegionSeg (pcfgs (F := F)) admF (pdats m ρ) () defs₀ Vn Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (E1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := Pipeline.UD sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `B3`, left at `B4`.  Its arrays are
    split out of the unscoped buffers and put back at the exit contents; the generator register goes into the region's
    invariant and comes back; nothing is owed; the kernel has no semaphore of its own. -/
def reg1 : Pipeline.RegionSeg (pcfgs (F := F)) admF (pdats m ρ) () defs₀ Vn Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rd c)
  post c := iprop(StableHlo.held (c : Thread nD τ) (Pipeline.ucRefs τ sig) (B4 m ρ c) ∗ Rd c)
  X c := iprop(∃ r, prngReg c r)
  Y c := iprop(∃ r, prngReg c r)
  Z c := Pipeline.unscopedRest (Ix := Unit) (Name := ℕ) (U := Pipeline.UD sig nD τ) (Lvl := ℕ) spec1 c (E3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := Pipeline.UD sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `B4`, left at `B5`.  Its arrays are
    split out of the unscoped buffers and put back at the exit contents; the generator register goes into the region's
    invariant and comes back; nothing is owed; the kernel has no semaphore of its own. -/
def reg2 : Pipeline.RegionSeg (pcfgs (F := F)) admF (pdats m ρ) () defs₀ Vn Lz lvz 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ Lz lvz 2 fun _ _ => rfl
  pre c := iprop(StableHlo.held (c : Thread nD τ) (Pipeline.ucRefs τ sig) (B4 m ρ c) ∗ Rd c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (E4 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from by
      unfold Pipeline.ΦA
      iintro ⟨Hp, -, Hr⟩
      isplitl [Hr]; · iexact Hr
      iexact Hp).trans ?_
    exact hin2 (E4 m ρ) c
  hout c := by
    rw [Pipeline.ownSems0_none]
    refine (show (pdats m ρ 2 c).Φ (Fin.last _) ⊢ Pipeline.ΦA spec2 c from hout2 (E4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := Pipeline.UD sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsF : List (Pipeline.Seg (pcfgs (F := F)) admF (pdats m ρ) () defs₀ Vn Lz lvz) :=
  [ .host (hsegF hostOps0 hostOps0_sub hostOps0_fresh (B0 m ρ)),
    .region (reg0 m ρ),
    .host (hsegF hostOps1 hostOps1_sub hostOps1_fresh (B2 m ρ)),
    .region (reg1 m ρ),
    .region (reg2 m ρ) ]
theorem main_run (c : Dev nD) : main (F := F) c = Pipeline.Seg.run (segsF m ρ) := (main_chain c).trans (by chain_rfl)

set_option backward.isDefEq.respectTransparency.types false in
/-- Every weakly fair execution of the program from memory `m` terminates without a fault, with the node table at
    what the second kernel's write-backs leave, the pooled row at what the pooling kernel's last write-back leaves,
    and every argument array as launched. -/
theorem run : θ_run defs (onTc (τ := τ) (main (F := F))) ⟨m, fun _ => 0, ρ⟩ (fun r => ∀ c : Dev nD,
      r.2.mem ((c.tc : Thread nD τ).loc main_v29) = (dat1 (E3 m ρ) c).arrAt 6 cfg1.N
      ∧ r.2.mem ((c.tc : Thread nD τ).loc main_v30) = (dat2 (E4 m ρ) c).arrAt 1 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) admF (pdats m ρ) () cellOf_inj embL defs₀ Vn Lz lvz m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tn m ρ)
    (hch := ⟨fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c =>
      ⟨(h c _ (mem_uc main_v29 (by decide))).trans (B5_main_v29 m ρ c),
       (h c _ (mem_uc main_v30 (by decide))).trans (B5_main_v30 m ρ c),
       (h c _ (mem_uc main_arg0 (by decide))).trans (B5_main_arg0 m ρ c),
       (h c _ (mem_uc main_arg1 (by decide))).trans (B5_main_arg1 m ρ c),
       (h c _ (mem_uc main_arg2 (by decide))).trans (B5_main_arg2 m ρ c),
       (h c _ (mem_uc main_arg3 (by decide))).trans (B5_main_arg3 m ρ c),
       (h c _ (mem_uc main_arg4 (by decide))).trans (B5_main_arg4 m ρ c),
       (h c _ (mem_uc main_arg5 (by decide))).trans (B5_main_arg5 m ρ c),
       (h c _ (mem_uc main_arg6 (by decide))).trans (B5_main_arg6 m ρ c),
       (h c _ (mem_uc main_arg7 (by decide))).trans (B5_main_arg7 m ρ c),
       (h c _ (mem_uc main_arg8 (by decide))).trans (B5_main_arg8 m ρ c),
       (h c _ (mem_uc main_arg9 (by decide))).trans (B5_main_arg9 m ρ c),
       (h c _ (mem_uc main_arg10 (by decide))).trans (B5_main_arg10 m ρ c)⟩)

/-- The frame: every execution terminates without a fault and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2.2) (run m ρ)

end Cert.KernelIdeal.Fr

end
-- ==== Proof.KI.HostVal.lean ====
/-
  What the host operations around the kernels compute, named once.  The edge list `ei` has a row of source nodes and
  a row of destination nodes; a negative source index is wrapped by adding the node count.  The neighbour sums of a node
  table are the table's rows gathered at the sources and scatter-added into a zero table at the destinations.  The
  bias vectors are laid as one-row tables.  Each stretch of host operations is read over an arbitrary valuation of the
  buffers, so that nothing here depends on what the buffers hold.
-/
import proofs.«150901_j3083786519230_1_alg».proof.Proof.Gen.KernelIdeal.Launch
import Idealize.ShloMosaic.Lib.StableHlo.Run

noncomputable section

namespace Cert.KernelIdeal.HostVal

open Idealize.ShloMosaic Idealize.ShloMosaic.TcCoe Idealize.SL.Sem Idealize.ShloMosaic.StableHlo Cert.KernelIdeal Cert.KernelIdeal.Gen

variable {F : FTy → Type} [FloatOps F] [Named F]

/-- The row of source nodes, flat. -/
def srcRow (ei : (⟨S2x1600000, .i32⟩ : BufTy).Contents (Elt F)) : (⟨S1600000, .i32⟩ : BufTy).Contents (Elt F) :=
  fun i => shapeCast S1600000 (extractStridedSlice S1x1600000 ![0, 0] ei slices_S2x1600000_S1x1600000_0_0) shapeCasts_S1x1600000_S1600000 i
/-- The row of destination nodes, flat. -/
def dstRow (ei : (⟨S2x1600000, .i32⟩ : BufTy).Contents (Elt F)) : (⟨S1600000, .i32⟩ : BufTy).Contents (Elt F) :=
  fun i => shapeCast S1600000 (extractStridedSlice S1x1600000 ![1, 0] ei slices_S2x1600000_S1x1600000_1_0) shapeCasts_S1x1600000_S1600000 i
/-- The source nodes as the gather's column of start indices, a negative index wrapped by the node count. -/
def srcCol (s : (⟨S1600000, .i32⟩ : BufTy).Contents (Elt F)) : (⟨S1600000x1, .i32⟩ : BufTy).Contents (Elt F) :=
  broadcastInDim S1600000x1 ![0] bcast_S1600000_S1600000x1_0
    (select (cmpi CmpIPredicate.slt s (broadcastInDim S1600000 ![] bcast_S_S1600000 (constantI S_ 32 0#32)))
      (addi s (broadcastInDim S1600000 ![] bcast_S_S1600000 (constantI S_ 32 100000#32))) s)
/-- The destination nodes as the scatter's column of indices. -/
def dstCol (d : (⟨S1600000, .i32⟩ : BufTy).Contents (Elt F)) : (⟨S1600000x1, .i32⟩ : BufTy).Contents (Elt F) :=
  broadcastInDim S1600000x1 ![0] bcast_S1600000_S1600000x1_0 d

/-- The neighbour sums of a 128-column table from the two index rows. -/
def aggRows128 (x : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ FTy.f32 0#32)) (dstCol d)
    (Host.gather gather_S100000x128_S1600000x1_S1600000x128_1_0_n_n_0_1_1128 x (srcCol s))
/-- The neighbour sums of a 64-column table from the two index rows. -/
def aggRows64 (h : (⟨S100000x64, .f32⟩ : BufTy).Contents (Elt F)) (s d : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ FTy.f32 0#32)) (dstCol d)
    (Host.gather gather_S100000x64_S1600000x1_S1600000x64_1_0_n_n_0_1_164 h (srcCol s))
/-- The neighbour sums from the edge list. -/
def agg128 (x : (⟨S100000x128, .f32⟩ : BufTy).Contents (Elt F)) (ei : (⟨S2x1600000, .i32⟩ : BufTy).Contents (Elt F)) :=
  aggRows128 x (srcRow ei) (dstRow ei)
def agg64 (h : (⟨S100000x64, .f32⟩ : BufTy).Contents (Elt F)) (ei : (⟨S2x1600000, .i32⟩ : BufTy).Contents (Elt F)) :=
  aggRows64 h (srcRow ei) (dstRow ei)

/-! ## The first stretch, over any valuation -/

variable (W : Valuation τ sig (Elt F))

theorem host0_v1 : StableHlo.after hostOps0 W (Proc.devRef .tc main_v1) = srcRow (W (Proc.devRef .tc main_arg1)) := by
  after_results_simp; rfl
theorem host0_v3 : StableHlo.after hostOps0 W (Proc.devRef .tc main_v3) = dstRow (W (Proc.devRef .tc main_arg1)) := by
  after_results_simp; rfl
theorem host0_v13 : StableHlo.after hostOps0 W (Proc.devRef .tc main_v13)
    = agg128 (W (Proc.devRef .tc main_arg0)) (W (Proc.devRef .tc main_arg1)) := by
  after_results_simp; rfl
theorem host0_v14 : StableHlo.after hostOps0 W (Proc.devRef .tc main_v14)
    = fun i => shapeCast S1x32 (W (Proc.devRef .tc main_arg4)) shapeCasts_S32_S1x32 i := by
  after_results_simp; rfl
theorem host0_v15 : StableHlo.after hostOps0 W (Proc.devRef .tc main_v15)
    = fun i => shapeCast S1x64 (W (Proc.devRef .tc main_arg6)) shapeCasts_S64_S1x64 i := by
  after_results_simp; rfl

/-! ## The second stretch, over any valuation -/

theorem host1_v26 : StableHlo.after hostOps1 W (Proc.devRef .tc main_v26)
    = aggRows64 (W (Proc.devRef .tc main_v16)) (W (Proc.devRef .tc main_v1)) (W (Proc.devRef .tc main_v3)) := by
  after_results_simp; rfl
theorem host1_v27 : StableHlo.after hostOps1 W (Proc.devRef .tc main_v27)
    = fun i => shapeCast S1x64 (W (Proc.devRef .tc main_arg8)) shapeCasts_S64_S1x64 i := by
  after_results_simp; rfl
theorem host1_v28 : StableHlo.after hostOps1 W (Proc.devRef .tc main_v28)
    = fun i => shapeCast S1x64 (W (Proc.devRef .tc main_arg10)) shapeCasts_S64_S1x64 i := by
  after_results_simp; rfl

end Cert.KernelIdeal.HostVal

end
-- ==== Proof.Spec.lean ====
/-
  The mathematics of the two programs, as functions of arrays over the extended reals.

  One graph-isomorphism layer sends a node table h (n rows, d_in columns) and its neighbour sums a (same shape) to
      out[p, q] = max( Σ_k max( Σ_j (h[p,j] + a[p,j]) · Wa[j,k] + ba[k] , 0 ) · Wb[k,q] + bb[q] , 0 ),
  a two-layer perceptron of the row h[p,·] + a[p,·] with a rectifier after each layer.  The pooled result is the
  column mean of the last table, written as the column sum times 1/100000.

  Nothing here depends on how the rows are tiled or in which order a sum is taken: both programs are shown equal to
  these functions index by index.
-/
import Idealize.ShloMosaic.PureOps.Ideal
import Idealize.ShloMosaic.Lib.ValueIdx

noncomputable section

open scoped BigOperators

namespace Cert.GinSpec

open Idealize.ShloMosaic Idealize.ShloMosaic.ValueIdx

/-- The perceptron of one row: `row` is the row of `h + a`, `q` the output column. -/
def mlpAt {din dh dout : ℕ} (row : Fin din → EReal) (Wa : (⟨2, ![din, dh]⟩ : Shape).Idx → EReal) (ba : Fin dh → EReal)
    (Wb : (⟨2, ![dh, dout]⟩ : Shape).Idx → EReal) (bb : Fin dout → EReal) (q : Fin dout) : EReal :=
  max ((∑ k : Fin dh, max ((∑ j : Fin din, row j * Wa (ix2 j k)) + ba k) 0 * Wb (ix2 k q)) + bb q) 0

/-- One layer at row `p`, column `q`. -/
def layerAt {n din dh dout : ℕ} (h a : (⟨2, ![n, din]⟩ : Shape).Idx → EReal) (Wa : (⟨2, ![din, dh]⟩ : Shape).Idx → EReal)
    (ba : Fin dh → EReal) (Wb : (⟨2, ![dh, dout]⟩ : Shape).Idx → EReal) (bb : Fin dout → EReal) (p : Fin n) (q : Fin dout) : EReal :=
  mlpAt (fun j => h (ix2 p j) + a (ix2 p j)) Wa ba Wb bb q

/-- One layer as a table. -/
def layer {n din dh dout : ℕ} (h a : (⟨2, ![n, din]⟩ : Shape).Idx → EReal) (Wa : (⟨2, ![din, dh]⟩ : Shape).Idx → EReal)
    (ba : Fin dh → EReal) (Wb : (⟨2, ![dh, dout]⟩ : Shape).Idx → EReal) (bb : Fin dout → EReal) :
    (⟨2, ![n, dout]⟩ : Shape).Idx → EReal :=
  fun i => layerAt h a Wa ba Wb bb (i 0) (i 1)

theorem layer_apply {n din dh dout : ℕ} (h a : (⟨2, ![n, din]⟩ : Shape).Idx → EReal) (Wa : (⟨2, ![din, dh]⟩ : Shape).Idx → EReal)
    (ba : Fin dh → EReal) (Wb : (⟨2, ![dh, dout]⟩ : Shape).Idx → EReal) (bb : Fin dout → EReal) (p : Fin n) (q : Fin dout) :
    layer h a Wa ba Wb bb (ix2 p q) = layerAt h a Wa ba Wb bb p q := rfl

/-- The column mean over the rows, as the column sum times the reciprocal of the row count 100000. -/
def poolAt {n d : ℕ} (h : (⟨2, ![n, d]⟩ : Shape).Idx → EReal) (q : Fin d) : EReal :=
  (∑ p : Fin n, h (ix2 p q)) * ((1 / 100000 : ℝ) : EReal)

/-- The pooled row as a [1, d] table. -/
def pool {n d : ℕ} (h : (⟨2, ![n, d]⟩ : Shape).Idx → EReal) : (⟨2, ![1, d]⟩ : Shape).Idx → EReal :=
  fun i => poolAt h (i 1)

theorem pool_apply {n d : ℕ} (h : (⟨2, ![n, d]⟩ : Shape).Idx → EReal) (z : Fin 1) (q : Fin d) :
    pool h (ix2 z q) = poolAt h q := rfl

end Cert.GinSpec

end
-- ==== Proof.Pay0.lean ====
/-
  The first perceptron kernel's stored value read at an index, at the ideal instance.

  The kernel takes a [5000, 128] block of the node table and the matching block of neighbour sums, adds them, and
  applies two dense layers (128 → 32 → 64), each a block product into a zero accumulator, plus a bias row, bounded
  below by zero.  The changes of float format are the identity on the extended reals.  Read at row p and column q
  the stored value is the perceptron of the row (h + a)[p, ·], the specification's function.
-/
import proofs.«150901_j3083786519230_1_alg».proof.Proof.Gen.KernelIdeal.Skeleton
import proofs.«150901_j3083786519230_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.GinSpec

/-! ## The product of a [5000, 128] block with a [128, 32] matrix, and the dense layer built on it -/

/-- The left operand's row coordinate is the output's row. -/
theorem lhs_128_32_0 (i : S5000x32.Idx) (c : dot_S5000x128_S128x32_S5000x32_1_0_0_1_n_n.contr.Idx) :
    (dot_S5000x128_S128x32_S5000x32_1_0_0_1_n_n.lhsIdx i c 0).val = (i 0).val := by
  unfold DotDims.lhsIdx
  rw [dif_neg (show ¬(0 : Fin S5000x128.rank) ∈ dot_S5000x128_S128x32_S5000x32_1_0_0_1_n_n.lhsBatch by decide),
    dif_pos (show (0 : Fin S5000x128.rank) ∈ dot_S5000x128_S128x32_S5000x32_1_0_0_1_n_n.lhsNonContracting by decide)]
  rfl

/-- The left operand's column coordinate is the contraction position. -/
theorem lhs_128_32_1 (i : S5000x32.Idx) (c : dot_S5000x128_S128x32_S5000x32_1_0_0_1_n_n.contr.Idx) :
    (dot_S5000x128_S128x32_S5000x32_1_0_0_1_n_n.lhsIdx i c 1).val = (c ⟨0, by decide⟩).val :=
  dot_S5000x128_S128x32_S5000x32_1_0_0_1_n_n.lhsIdx_val_of_single rfl i c

/-- The right operand's row coordinate is the contraction position. -/
theorem rhs_128_32_0 (i : S5000x32.Idx) (c : dot_S5000x128_S128x32_S5000x32_1_0_0_1_n_n.contr.Idx) :
    (dot_S5000x128_S128x32_S5000x32_1_0_0_1_n_n.rhsIdx i c 0).val = (c ⟨0, by decide⟩).val :=
  dot_S5000x128_S128x32_S5000x32_1_0_0_1_n_n.rhsIdx_val_of_single rfl i c

/-- The right operand's column coordinate is the output's column. -/
theorem rhs_128_32_1 (i : S5000x32.Idx) (c : dot_S5000x128_S128x32_S5000x32_1_0_0_1_n_n.contr.Idx) :
    (dot_S5000x128_S128x32_S5000x32_1_0_0_1_n_n.rhsIdx i c 1).val = (i 1).val := by
  unfold DotDims.rhsIdx
  rw [dif_neg (show ¬(1 : Fin S128x32.rank) ∈ dot_S5000x128_S128x32_S5000x32_1_0_0_1_n_n.rhsBatch by decide),
    dif_pos (show (1 : Fin S128x32.rank) ∈ dot_S5000x128_S128x32_S5000x32_1_0_0_1_n_n.rhsNonContracting by decide)]
  rfl

/-- The block product into a zero accumulator, read at row p and column c: the sum over the 128 inner positions of
    the products of the operands' elements. -/
theorem mm_128_32_apply (l : FVec Ideal S5000x128 .bf16) (r : FVec Ideal S128x32 .bf16) (p : Fin 5000) (c : Fin 32) :
    matmul dot_S5000x128_S128x32_S5000x32_1_0_0_1_n_n none l r (constant (F := Ideal) S5000x32 .f32 0x00000000#32) (ix2 p c)
      = ∑ j : Fin 128, l (ix2 p j) * r (ix2 j c) := by
  simp only [matmul]
  rw [Ideal.matmul_constant_zero_apply,
    ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p c) ((contrEquiv1 dot_S5000x128_S128x32_S5000x32_1_0_0_1_n_n 128 rfl rfl).symm k) = ix2 p k :=
    funext fun a => Fin.ext (by
      match a with
      | ⟨0, _⟩ => exact lhs_128_32_0 _ _
      | ⟨1, _⟩ => exact (lhs_128_32_1 _ _).trans hk)
  have er : dot_S5000x128_S128x32_S5000x32_1_0_0_1_n_n.rhsIdx (ix2 p c) ((contrEquiv1 dot_S5000x128_S128x32_S5000x32_1_0_0_1_n_n 128 rfl rfl).symm k) = ix2 k c :=
    funext fun a => Fin.ext (by
      match a with
      | ⟨0, _⟩ => exact (rhs_128_32_0 _ _).trans hk
      | ⟨1, _⟩ => exact rhs_128_32_1 _ _)
  rw [el, er]

/-- One dense layer with its rectifier, read at row p and column c: the block product, plus the bias row repeated
    down the rows, bounded below by zero. -/
theorem dense_128_32_apply (a : FVec Ideal S5000x128 .bf16) (w : FVec Ideal S128x32 .bf16) (b : Vec Ideal S1x32 .f32)
    (hs : S1x32.ShapeCasts S1x32) (hb : S1x32.Broadcasts S5000x32) (p : Fin 5000) (c : Fin 32) :
    maximumf (addf (matmul dot_S5000x128_S128x32_S5000x32_1_0_0_1_n_n none a w (constant (F := Ideal) S5000x32 .f32 0x00000000#32))
        (broadcastTo S5000x32 (shapeCast S1x32 b hs) hb))
      (broadcast S5000x32 (Scalar.ofBits (F := Ideal) .f32 0x00000000#32)) (ix2 p c)
      = max ((∑ j : Fin 128, a (ix2 p j) * w (ix2 j c)) + b (ix2 0 c)) 0 := by
  refine (maximumf_apply _ _ _).trans ?_
  refine congrArg₂ max ?_ Ideal.ofBits_zero_f32
  refine (addf_apply _ _ _).trans ?_
  refine congrArg₂ (· + ·) (mm_128_32_apply a w p c) ?_
  rw [shapeCast_self]
  exact broadcastTo_1b_ab_apply b hb p c

/-! ## The product of a [5000, 32] block with a [32, 64] matrix, and the dense layer built on it -/

/-- The left operand's row coordinate is the output's row. -/
theorem lhs_32_64_0 (i : S5000x64.Idx) (c : dot_S5000x32_S32x64_S5000x64_1_0_0_1_n_n.contr.Idx) :
    (dot_S5000x32_S32x64_S5000x64_1_0_0_1_n_n.lhsIdx i c 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl

/-- The left operand's column coordinate is the contraction position. -/
theorem lhs_32_64_1 (i : S5000x64.Idx) (c : dot_S5000x32_S32x64_S5000x64_1_0_0_1_n_n.contr.Idx) :
    (dot_S5000x32_S32x64_S5000x64_1_0_0_1_n_n.lhsIdx i c 1).val = (c ⟨0, by decide⟩).val :=
  dot_S5000x32_S32x64_S5000x64_1_0_0_1_n_n.lhsIdx_val_of_single rfl i c

/-- The right operand's row coordinate is the contraction position. -/
theorem rhs_32_64_0 (i : S5000x64.Idx) (c : dot_S5000x32_S32x64_S5000x64_1_0_0_1_n_n.contr.Idx) :
    (dot_S5000x32_S32x64_S5000x64_1_0_0_1_n_n.rhsIdx i c 0).val = (c ⟨0, by decide⟩).val :=
  dot_S5000x32_S32x64_S5000x64_1_0_0_1_n_n.rhsIdx_val_of_single rfl i c

/-- The right operand's column coordinate is the output's column. -/
theorem rhs_32_64_1 (i : S5000x64.Idx) (c : dot_S5000x32_S32x64_S5000x64_1_0_0_1_n_n.contr.Idx) :
    (dot_S5000x32_S32x64_S5000x64_1_0_0_1_n_n.rhsIdx i c 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- The block product into a zero accumulator, read at row p and column c: the sum over the 32 inner positions of
    the products of the operands' elements. -/
theorem mm_32_64_apply (l : FVec Ideal S5000x32 .bf16) (r : FVec Ideal S32x64 .bf16) (p : Fin 5000) (c : Fin 64) :
    matmul dot_S5000x32_S32x64_S5000x64_1_0_0_1_n_n none l r (constant (F := Ideal) S5000x64 .f32 0x00000000#32) (ix2 p c)
      = ∑ j : Fin 32, l (ix2 p j) * r (ix2 j c) := by
  simp only [matmul]
  rw [Ideal.matmul_constant_zero_apply,
    ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p c) ((contrEquiv1 dot_S5000x32_S32x64_S5000x64_1_0_0_1_n_n 32 rfl rfl).symm k) = ix2 p k :=
    funext fun a => Fin.ext (by
      match a with
      | ⟨0, _⟩ => exact lhs_32_64_0 _ _
      | ⟨1, _⟩ => exact (lhs_32_64_1 _ _).trans hk)
  have er : dot_S5000x32_S32x64_S5000x64_1_0_0_1_n_n.rhsIdx (ix2 p c) ((contrEquiv1 dot_S5000x32_S32x64_S5000x64_1_0_0_1_n_n 32 rfl rfl).symm k) = ix2 k c :=
    funext fun a => Fin.ext (by
      match a with
      | ⟨0, _⟩ => exact (rhs_32_64_0 _ _).trans hk
      | ⟨1, _⟩ => exact rhs_32_64_1 _ _)
  rw [el, er]

/-- One dense layer with its rectifier, read at row p and column c: the block product, plus the bias row repeated
    down the rows, bounded below by zero. -/
theorem dense_32_64_apply (a : FVec Ideal S5000x32 .bf16) (w : FVec Ideal S32x64 .bf16) (b : Vec Ideal S1x64 .f32)
    (hs : S1x64.ShapeCasts S1x64) (hb : S1x64.Broadcasts S5000x64) (p : Fin 5000) (c : Fin 64) :
    maximumf (addf (matmul dot_S5000x32_S32x64_S5000x64_1_0_0_1_n_n none a w (constant (F := Ideal) S5000x64 .f32 0x00000000#32))
        (broadcastTo S5000x64 (shapeCast S1x64 b hs) hb))
      (broadcast S5000x64 (Scalar.ofBits (F := Ideal) .f32 0x00000000#32)) (ix2 p c)
      = max ((∑ j : Fin 32, a (ix2 p j) * w (ix2 j c)) + b (ix2 0 c)) 0 := by
  refine (maximumf_apply _ _ _).trans ?_
  refine congrArg₂ max ?_ Ideal.ofBits_zero_f32
  refine (addf_apply _ _ _).trans ?_
  refine congrArg₂ (· + ·) (mm_32_64_apply a w p c) ?_
  rw [shapeCast_self]
  exact broadcastTo_1b_ab_apply b hb p c

/-! ## The stored value -/

/-- The first kernel's stored block at row p, column q is the two-layer perceptron of the summed row. -/
theorem k0_pay1_apply (x0 x1 : Vec Ideal S5000x128 .f32) (w1 : Vec Ideal S128x32 .f32) (b1 : Vec Ideal S1x32 .f32)
    (w2 : Vec Ideal S32x64 .f32) (b2 : Vec Ideal S1x64 .f32) (p : Fin 5000) (q : Fin 64) :
    k0_pay1 (F := Ideal) x0 x1 w1 b1 w2 b2 (ix2 p q)
      = mlpAt (fun j : Fin 128 => x0 (ix2 p j) + x1 (ix2 p j)) w1 (fun k : Fin 32 => b1 (ix2 0 k)) w2
          (fun k : Fin 64 => b2 (ix2 0 k)) q := by
  unfold k0_pay1 mlpAt
  refine (dense_32_64_apply _ _ b2 _ _ p q).trans ?_
  refine congrArg (fun t => max (t + b2 (ix2 0 q)) 0) ?_
  refine Finset.sum_congr rfl fun k _ => ?_
  refine congrArg (· * w2 (ix2 k q)) ?_
  refine (truncf_apply (ψ := .bf16) _ bitsLt_bf16_f32 (ix2 p k)).trans ?_
  refine (dense_128_32_apply _ _ b1 _ _ p k).trans ?_
  rw [shapeCast_self]
  rfl

end Cert.KernelIdeal.Pay

end
-- ==== Proof.KI.Val0.lean ====
import proofs.«150901_j3083786519230_1_alg».proof.Proof.KI.Reg0
import proofs.«150901_j3083786519230_1_alg».proof.Proof.Spec
import proofs.«150901_j3083786519230_1_alg».proof.Proof.Pay0
import Idealize.ShloMosaic.Lib.Pipeline.Value
import Idealize.ShloMosaic.Lib.ValueIdx
import Idealize.ShloMosaic.Lib.Tactic

/-! # Region 0: from the blocks to the whole table

At every grid point the region's output buffer is left at the perceptron of the six input blocks. The two row
windows' blocks at point `t` are rows `5000 t … 5000 t + 4999` of their tables and the four weight and bias
windows' blocks are their whole arrays, so what point `t` writes back is rows `5000 t …` of ONE table: the layer of
the arrays as the region finds them. The twenty blocks tile the table's 100000 rows, so after the region the
output table is that layer — for any contents `V` on entry. -/

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen
open Cert.GinSpec Idealize.ShloMosaic.ValueIdx

variable (V : (c : Dev nD) → (b : Ref sig .tc) → Buf (Elt Ideal) ((c : Thread nD τ).loc b))

/-- The zero offsets of a whole-buffer access, however they are spelt. -/
theorem offs0_zero : (![0, 0] : Fin 2 → Nat) = fun _ => 0 := funext fun a => by fin_cases a <;> rfl

/-- A two-axis index is the pair of its coordinates. -/
theorem ix2_split0 {n0 n1 : Nat} (y : (⟨2, ![n0, n1]⟩ : Shape).Idx) : ∃ (p : Fin n0) (q : Fin n1), y = ix2 p q :=
  ⟨y 0, y 1, eq_ix2 y⟩

/-- The index maps over the grid: the two row windows and the output move one block of rows per point; the
    weights and the biases stay at block zero. -/
theorem index0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ True :=
  (by decide +kernel : ∀ t : Fin grid0.N, _)

/-- The payload at row `p` of tiles whose rows `p` are rows `r` of two tables is the layer of the tables at row `r`. -/
theorem pay0_layer (x0 x1 : Vec Ideal S5000x128 .f32) (w1 : Vec Ideal S128x32 .f32) (b1 : Vec Ideal S1x32 .f32)
    (w2 : Vec Ideal S32x64 .f32) (b2 : Vec Ideal S1x64 .f32) (h a : S100000x128.Idx → EReal)
    (r : Fin 100000) (p : Fin 5000) (q : Fin 64)
    (e0 : ∀ j : Fin 128, x0 (ix2 p j) = h (ix2 r j)) (e1 : ∀ j : Fin 128, x1 (ix2 p j) = a (ix2 r j)) :
    k0_pay1 (F := Ideal) x0 x1 w1 b1 w2 b2 (ix2 p q)
      = layer h a w1 (fun k : Fin 32 => b1 (ix2 0 k)) w2 (fun k : Fin 64 => b2 (ix2 0 k)) (ix2 r q) := by
  have e : (fun j : Fin 128 => x0 (ix2 p j) + x1 (ix2 p j)) = fun j : Fin 128 => h (ix2 r j) + a (ix2 r j) :=
    funext fun j => by rw [e0, e1]
  rw [Pay.k0_pay1_apply, layer_apply]
  unfold layerAt
  rw [e]

/-- Where an element of the output's block at point `t` sits in the table: row `5000 t + p`, the same column. -/
theorem emb0_6 (t : Fin cfg0.N) (p : Fin 5000) (q : Fin 64) (r : Fin 100000) (hr : r.val = 5000 * t.val + p.val) :
    ((cfg0.win 6).blk t).view.emb (ix2 p q) = (ix2 r q : S100000x64.Idx) := by
  obtain ⟨-, -, -, -, -, -, -, -, -, -, -, -, i0, i1, -⟩ := index0_facts t
  funext a
  apply Fin.ext
  match a with
  | ⟨0, _⟩ => show win0_6.index t (0 : Fin 2) * 5000 + 1 * p.val = r.val; omega
  | ⟨1, _⟩ => show win0_6.index t (1 : Fin 2) * 64 + 1 * q.val = q.val; omega

/-! ## The input blocks, read off the arrays -/

/-- The block of a row window at point `t` holds rows `5000 t …` of its table. -/
theorem iblk0_0_at (c : Dev nD) (t : Fin cfg0.N) (p : Fin 5000) (j : Fin 128) (r : Fin 100000) (hr : r.val = 5000 * t.val + p.val) :
    (iblk0 V c 0 t : Vec Ideal S5000x128 .f32) (ix2 p j) = (V c main_arg0 : S100000x128.Idx → EReal) (ix2 r j) := by
  obtain ⟨i0, i1, -⟩ := index0_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * j.val = j.val; omega

theorem iblk0_1_at (c : Dev nD) (t : Fin cfg0.N) (p : Fin 5000) (j : Fin 128) (r : Fin 100000) (hr : r.val = 5000 * t.val + p.val) :
    (iblk0 V c 1 t : Vec Ideal S5000x128 .f32) (ix2 p j) = (V c main_v13 : S100000x128.Idx → EReal) (ix2 r j) := by
  obtain ⟨-, -, i0, i1, -⟩ := index0_facts t
  unfold iblk0
  rw [View.read_apply]
  show V c main_v13 _ = V c main_v13 _
  congr 1
  funext a
  apply Fin.ext
  match a with
  | ⟨0, _⟩ => show win0_1.index t (0 : Fin 2) * 5000 + 1 * p.val = r.val; omega
  | ⟨1, _⟩ => show win0_1.index t (1 : Fin 2) * 128 + 1 * j.val = j.val; omega

/-- The block of a weight or bias window is its whole array, at every point. -/
theorem iblk0_2_eq (c : Dev nD) (t : Fin cfg0.N) : (iblk0 V c 2 t : Vec Ideal S128x32 .f32) = (V c main_arg3 : S128x32.Idx → EReal) := by
  obtain ⟨-, -, -, -, i0, i1, -⟩ := index0_facts t
  funext y
  unfold iblk0
  rw [View.read_apply]
  show V c main_arg3 _ = V c main_arg3 _
  congr 1
  funext a
  apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega

theorem iblk0_3_eq (c : Dev nD) (t : Fin cfg0.N) : (iblk0 V c 3 t : Vec Ideal S1x32 .f32) = (V c main_v14 : S1x32.Idx → EReal) := by
  obtain ⟨-, -, -, -, -, -, i0, i1, -⟩ := index0_facts t
  funext y
  unfold iblk0
  rw [View.read_apply]
  show V c main_v14 _ = V c main_v14 _
  congr 1
  funext a
  apply Fin.ext
  match a with
  | ⟨0, _⟩ => show win0_3.index t (0 : Fin 2) * 1 + 1 * (y 0).val = (y 0).val; omega
  | ⟨1, _⟩ => show win0_3.index t (1 : Fin 2) * 32 + 1 * (y 1).val = (y 1).val; omega

theorem iblk0_4_eq (c : Dev nD) (t : Fin cfg0.N) : (iblk0 V c 4 t : Vec Ideal S32x64 .f32) = (V c main_arg5 : S32x64.Idx → EReal) := by
  obtain ⟨-, -, -, -, -, -, -, -, i0, i1, -⟩ := index0_facts t
  funext y
  unfold iblk0
  rw [View.read_apply]
  show V c main_arg5 _ = V c main_arg5 _
  congr 1
  funext a
  apply Fin.ext
  match a with
  | ⟨0, _⟩ => show win0_4.index t (0 : Fin 2) * 32 + 1 * (y 0).val = (y 0).val; omega
  | ⟨1, _⟩ => show win0_4.index t (1 : Fin 2) * 64 + 1 * (y 1).val = (y 1).val; omega

theorem iblk0_5_eq (c : Dev nD) (t : Fin cfg0.N) : (iblk0 V c 5 t : Vec Ideal S1x64 .f32) = (V c main_v15 : S1x64.Idx → EReal) := by
  obtain ⟨-, -, -, -, -, -, -, -, -, -, i0, i1, -⟩ := index0_facts t
  funext y
  unfold iblk0
  rw [View.read_apply]
  show V c main_v15 _ = V c main_v15 _
  congr 1
  funext a
  apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-! ## What a point writes back -/

/-- The payload of tiles, as the write-back moves it, is block `t` of the layer of the tables, when the two row
    tiles hold rows `5000 t …` of the two row tables. -/
theorem tile0_eq (t : Fin cfg0.N) (x0 x1 : Vec Ideal S5000x128 .f32) (w1 : Vec Ideal S128x32 .f32) (b1 : Vec Ideal S1x32 .f32)
    (w2 : Vec Ideal S32x64 .f32) (b2 : Vec Ideal S1x64 .f32) (h a : S100000x128.Idx → EReal)
    (e0 : ∀ (p : Fin 5000) (j : Fin 128) (r : Fin 100000), r.val = 5000 * t.val + p.val → x0 (ix2 p j) = h (ix2 r j))
    (e1 : ∀ (p : Fin 5000) (j : Fin 128) (r : Fin 100000), r.val = 5000 * t.val + p.val → x1 (ix2 p j) = a (ix2 r j)) :
    (cfg0.win 6).cut (grid0.coords t) (k0_pay1 (F := Ideal) x0 x1 w1 b1 w2 b2)
      = ((cfg0.win 6).blk t).view.read (Elt Ideal) (layer h a w1 (fun k : Fin 32 => b1 (ix2 0 k)) w2 (fun k : Fin 64 => b2 (ix2 0 k))) := by
  funext y
  obtain ⟨p, q, rfl⟩ := ix2_split0 y
  have hr : 5000 * t.val + p.val < 100000 := by
    have h1 : t.val < 20 := lt_of_lt_of_eq t.isLt N_0
    have h2 := p.isLt; omega
  rw [View.read_apply, emb0_6 t p q ⟨5000 * t.val + p.val, hr⟩ rfl]
  exact pay0_layer x0 x1 w1 b1 w2 b2 h a ⟨5000 * t.val + p.val, hr⟩ p q (fun j => e0 p j _ rfl) (fun j => e1 p j _ rfl)

/-- What point `t` writes back is block `t` of the layer of the arrays as the region finds them. -/
theorem flushed0_eq (c : Dev nD) (t : Fin cfg0.N) :
    (dat0 (F := Ideal) V c).flushed 6 t = ((cfg0.win 6).blk t).view.read (Elt Ideal) (layer (V c main_arg0) (V c main_v13) (V c main_arg3) (fun k : Fin 32 => V c main_v14 (ix2 0 k)) (V c main_arg5) (fun k : Fin 64 => V c main_v15 (ix2 0 k))) := by
  show (cfg0.win 6).cut (grid0.coords t) ((dat0 V c).after 6 t) = _
  rw [after0_6]
  unfold out0_6
  rw [View.canon_unit_zero offs0_zero]
  simp only [View.ld_unit_zero (S := S5000x128) offs0_zero, View.ld_unit_zero (S := S128x32) offs0_zero, View.ld_unit_zero (S := S1x32) offs0_zero, View.ld_unit_zero (S := S32x64) offs0_zero, View.ld_unit_zero (S := S1x64) offs0_zero]
  rw [iblk0_2_eq, iblk0_3_eq, iblk0_4_eq, iblk0_5_eq]
  exact tile0_eq t (iblk0 V c 0 t) (iblk0 V c 1 t) _ _ _ _ _ _ (fun p j r hr => iblk0_0_at V c t p j r hr) (fun p j r hr => iblk0_1_at V c t p j r hr)

/-! ## The blocks tile the table -/

/-- An index of the table is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every row of the table is in the block of the point `row / 5000`, and every point writes back. -/
theorem covered0 (i : S100000x64.Idx) : ∃ t : Fin cfg0.N, (cfg0.win 6).flush t = true ∧ i ∈ ((cfg0.win 6).blk t).view.set := by
  have h0 : (i 0).val < 100000 := (i 0).isLt
  have h1 : (i 1).val < 64 := (i 1).isLt
  have ht : (i 0).val / 5000 < cfg0.N := lt_of_lt_of_eq (by omega : (i 0).val / 5000 < 20) N_0.symm
  refine ⟨⟨(i 0).val / 5000, ht⟩, flush0_6 _, ?_⟩
  rw [mem_blk0]
  obtain ⟨-, -, -, -, -, -, -, -, -, -, -, -, i0, i1, -⟩ := index0_facts ⟨(i 0).val / 5000, ht⟩
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [i0]
    show (i 0).val / 5000 * 5000 ≤ (i 0).val ∧ (i 0).val < (i 0).val / 5000 * 5000 + 5000
    omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    rw [i1]; omega

/-! ## The table after the region -/

/-- The output table after the region is the layer of the arrays as the region finds them. -/
theorem final0 (c : Dev nD) :
    (dat0 (F := Ideal) V c).arrAt 6 cfg0.N = layer (V c main_arg0) (V c main_v13) (V c main_arg3) (fun k : Fin 32 => V c main_v14 (ix2 0 k)) (V c main_arg5) (fun k : Fin 64 => V c main_v15 (ix2 0 k)) :=
  (dat0 V c).arrAt_eq_of_cover 6 (layer (V c main_arg0) (V c main_v13) (V c main_arg3) (fun k : Fin 32 => V c main_v14 (ix2 0 k)) (V c main_arg5) (fun k : Fin 64 => V c main_v15 (ix2 0 k)))
    (fun t _ => flushed0_eq V c t) (covered0)

end Cert.KernelIdeal.Fr

end
-- ==== Proof.Pay1.lean ====
/-
  The second perceptron kernel's stored value read at an index, at the ideal instance.

  The kernel takes a [5000, 64] block of the node table and the matching block of neighbour sums, adds them, and
  applies two dense layers (64 → 64 → 64), each a block product into a zero accumulator, plus a bias row, bounded
  below by zero.  The changes of float format are the identity on the extended reals.  Read at row p and column q
  the stored value is the perceptron of the row (h + a)[p, ·], the specification's function.
-/
import proofs.«150901_j3083786519230_1_alg».proof.Proof.Gen.KernelIdeal.Skeleton
import proofs.«150901_j3083786519230_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.GinSpec

/-! ## The product of a [5000, 64] block with a [64, 64] matrix, and the dense layer built on it -/

/-- The left operand's row coordinate is the output's row. -/
theorem lhs_64_64_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand's column coordinate is the contraction position. -/
theorem lhs_64_64_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c

/-- The right operand's row coordinate is the contraction position. -/
theorem rhs_64_64_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c

/-- The right operand's column coordinate is the output's column. -/
theorem rhs_64_64_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product into a zero accumulator, read at row p and column c: the sum over the 64 inner positions of
    the products of the operands' elements. -/
theorem mm_64_64_apply (l : FVec Ideal S5000x64 .bf16) (r : FVec Ideal S64x64 .bf16) (p : Fin 5000) (c : Fin 64) :
    matmul dot_S5000x64_S64x64_S5000x64_1_0_0_1_n_n none l r (constant (F := Ideal) S5000x64 .f32 0x00000000#32) (ix2 p c)
      = ∑ j : Fin 64, l (ix2 p j) * r (ix2 j c) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p c) ((contrEquiv1 dot_S5000x64_S64x64_S5000x64_1_0_0_1_n_n 64 rfl rfl).symm k) = ix2 p k :=
    funext fun a => Fin.ext (by
      match a with
      | ⟨0, _⟩ => exact lhs_64_64_0 _ _
      | ⟨1, _⟩ => exact (lhs_64_64_1 _ _).trans hk)
  have er : dot_S5000x64_S64x64_S5000x64_1_0_0_1_n_n.rhsIdx (ix2 p c) ((contrEquiv1 dot_S5000x64_S64x64_S5000x64_1_0_0_1_n_n 64 rfl rfl).symm k) = ix2 k c :=
    funext fun a => Fin.ext (by
      match a with
      | ⟨0, _⟩ => exact (rhs_64_64_0 _ _).trans hk
      | ⟨1, _⟩ => exact rhs_64_64_1 _ _)
  rw [el, er]

/-- One dense layer with its rectifier, read at row p and column c: the block product, plus the bias row repeated
    down the rows, bounded below by zero. -/
theorem dense_64_64_apply (a : FVec Ideal S5000x64 .bf16) (w : FVec Ideal S64x64 .bf16) (b : Vec Ideal S1x64 .f32)
    (hs : S1x64.ShapeCasts S1x64) (hb : S1x64.Broadcasts S5000x64) (p : Fin 5000) (c : Fin 64) :
    maximumf (addf (matmul dot_S5000x64_S64x64_S5000x64_1_0_0_1_n_n none a w (constant (F := Ideal) S5000x64 .f32 0x00000000#32))
        (broadcastTo S5000x64 (shapeCast S1x64 b hs) hb))
      (broadcast S5000x64 (Scalar.ofBits (F := Ideal) .f32 0x00000000#32)) (ix2 p c)
      = max ((∑ j : Fin 64, a (ix2 p j) * w (ix2 j c)) + b (ix2 0 c)) 0 := by
  refine (maximumf_apply _ _ _).trans ?_
  refine congrArg₂ max ?_ Ideal.ofBits_zero_f32
  refine (addf_apply _ _ _).trans ?_
  refine congrArg₂ (· + ·) (mm_64_64_apply a w p c) ?_
  rw [shapeCast_self]
  exact broadcastTo_1b_ab_apply b hb p c

/-! ## The stored value -/

/-- The second kernel's stored block at row p, column q is the two-layer perceptron of the summed row. -/
theorem k1_pay1_apply (x0 x1 : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k1_pay1 (F := Ideal) x0 x1 w1 b1 w2 b2 (ix2 p q)
      = mlpAt (fun j : Fin 64 => x0 (ix2 p j) + x1 (ix2 p j)) w1 (fun k : Fin 64 => b1 (ix2 0 k)) w2
          (fun k : Fin 64 => b2 (ix2 0 k)) q := by
  unfold k1_pay1 mlpAt
  refine (dense_64_64_apply _ _ b2 _ _ p q).trans ?_
  refine congrArg (fun t => max (t + b2 (ix2 0 q)) 0) ?_
  refine Finset.sum_congr rfl fun k _ => ?_
  refine congrArg (· * w2 (ix2 k q)) ?_
  refine (truncf_apply (ψ := .bf16) _ bitsLt_bf16_f32 (ix2 p k)).trans ?_
  refine (dense_64_64_apply _ _ b1 _ _ p k).trans ?_
  rw [shapeCast_self, shapeCast_self]
  rfl

end Cert.KernelIdeal.Pay

end
-- ==== Proof.KI.Val1.lean ====
import proofs.«150901_j3083786519230_1_alg».proof.Proof.KI.Reg1
import proofs.«150901_j3083786519230_1_alg».proof.Proof.Spec
import proofs.«150901_j3083786519230_1_alg».proof.Proof.Pay1
import Idealize.ShloMosaic.Lib.Pipeline.Value
import Idealize.ShloMosaic.Lib.ValueIdx
import Idealize.ShloMosaic.Lib.Tactic

/-! # Region 1: from the blocks to the whole table

At every grid point the region's output buffer is left at the perceptron of the six input blocks. The two row
windows' blocks at point `t` are rows `5000 t … 5000 t + 4999` of their tables and the four weight and bias
windows' blocks are their whole arrays, so what point `t` writes back is rows `5000 t …` of ONE table: the layer of
the arrays as the region finds them. The twenty blocks tile the table's 100000 rows, so after the region the
output table is that layer — for any contents `V` on entry. -/

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen
open Cert.GinSpec Idealize.ShloMosaic.ValueIdx

variable (V : (c : Dev nD) → (b : Ref sig .tc) → Buf (Elt Ideal) ((c : Thread nD τ).loc b))

/-- The zero offsets of a whole-buffer access, however they are spelt. -/
theorem offs1_zero : (![0, 0] : Fin 2 → Nat) = fun _ => 0 := funext fun a => by fin_cases a <;> rfl

/-- A two-axis index is the pair of its coordinates. -/
theorem ix2_split1 {n0 n1 : Nat} (y : (⟨2, ![n0, n1]⟩ : Shape).Idx) : ∃ (p : Fin n0) (q : Fin n1), y = ix2 p q :=
  ⟨y 0, y 1, eq_ix2 y⟩

/-- The index maps over the grid: the two row windows and the output move one block of rows per point; the
    weights and the biases stay at block zero. -/
theorem index1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ True :=
  (by decide +kernel : ∀ t : Fin grid1.N, _)

/-- The payload at row `p` of tiles whose rows `p` are rows `r` of two tables is the layer of the tables at row `r`. -/
theorem pay1_layer (x0 x1 : Vec Ideal S5000x64 .f32) (w1 : Vec Ideal S64x64 .f32) (b1 : Vec Ideal S1x64 .f32)
    (w2 : Vec Ideal S64x64 .f32) (b2 : Vec Ideal S1x64 .f32) (h a : S100000x64.Idx → EReal)
    (r : Fin 100000) (p : Fin 5000) (q : Fin 64)
    (e0 : ∀ j : Fin 64, x0 (ix2 p j) = h (ix2 r j)) (e1 : ∀ j : Fin 64, x1 (ix2 p j) = a (ix2 r j)) :
    k1_pay1 (F := Ideal) x0 x1 w1 b1 w2 b2 (ix2 p q)
      = layer h a w1 (fun k : Fin 64 => b1 (ix2 0 k)) w2 (fun k : Fin 64 => b2 (ix2 0 k)) (ix2 r q) := by
  have e : (fun j : Fin 64 => x0 (ix2 p j) + x1 (ix2 p j)) = fun j : Fin 64 => h (ix2 r j) + a (ix2 r j) :=
    funext fun j => by rw [e0, e1]
  rw [Pay.k1_pay1_apply, layer_apply]
  unfold layerAt
  rw [e]

/-- Where an element of the output's block at point `t` sits in the table: row `5000 t + p`, the same column. -/
theorem emb1_6 (t : Fin cfg1.N) (p : Fin 5000) (q : Fin 64) (r : Fin 100000) (hr : r.val = 5000 * t.val + p.val) :
    ((cfg1.win 6).blk t).view.emb (ix2 p q) = (ix2 r q : S100000x64.Idx) := by
  obtain ⟨-, -, -, -, -, -, -, -, -, -, -, -, i0, i1, -⟩ := index1_facts t
  funext a
  apply Fin.ext
  match a with
  | ⟨0, _⟩ => show win1_6.index t (0 : Fin 2) * 5000 + 1 * p.val = r.val; omega
  | ⟨1, _⟩ => show win1_6.index t (1 : Fin 2) * 64 + 1 * q.val = q.val; omega

/-! ## The input blocks, read off the arrays -/

/-- The block of a row window at point `t` holds rows `5000 t …` of its table. -/
theorem iblk1_0_at (c : Dev nD) (t : Fin cfg1.N) (p : Fin 5000) (j : Fin 64) (r : Fin 100000) (hr : r.val = 5000 * t.val + p.val) :
    (iblk1 V c 0 t : Vec Ideal S5000x64 .f32) (ix2 p j) = (V c main_v16 : S100000x64.Idx → EReal) (ix2 r j) := by
  obtain ⟨i0, i1, -⟩ := index1_facts t
  unfold iblk1
  rw [View.read_apply]
  show V c main_v16 _ = V c main_v16 _
  congr 1
  funext a
  apply Fin.ext
  match a with
  | ⟨0, _⟩ => show win1_0.index t (0 : Fin 2) * 5000 + 1 * p.val = r.val; omega
  | ⟨1, _⟩ => show win1_0.index t (1 : Fin 2) * 64 + 1 * j.val = j.val; omega

theorem iblk1_1_at (c : Dev nD) (t : Fin cfg1.N) (p : Fin 5000) (j : Fin 64) (r : Fin 100000) (hr : r.val = 5000 * t.val + p.val) :
    (iblk1 V c 1 t : Vec Ideal S5000x64 .f32) (ix2 p j) = (V c main_v26 : S100000x64.Idx → EReal) (ix2 r j) := by
  obtain ⟨-, -, i0, i1, -⟩ := index1_facts t
  unfold iblk1
  rw [View.read_apply]
  show V c main_v26 _ = V c main_v26 _
  congr 1
  funext a
  apply Fin.ext
  match a with
  | ⟨0, _⟩ => show win1_1.index t (0 : Fin 2) * 5000 + 1 * p.val = r.val; omega
  | ⟨1, _⟩ => show win1_1.index t (1 : Fin 2) * 64 + 1 * j.val = j.val; omega

/-- The block of a weight or bias window is its whole array, at every point. -/
theorem iblk1_2_eq (c : Dev nD) (t : Fin cfg1.N) : (iblk1 V c 2 t : Vec Ideal S64x64 .f32) = (V c main_arg7 : S64x64.Idx → EReal) := by
  obtain ⟨-, -, -, -, i0, i1, -⟩ := index1_facts t
  funext y
  unfold iblk1
  rw [View.read_apply]
  show V c main_arg7 _ = V c main_arg7 _
  congr 1
  funext a
  apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem iblk1_3_eq (c : Dev nD) (t : Fin cfg1.N) : (iblk1 V c 3 t : Vec Ideal S1x64 .f32) = (V c main_v27 : S1x64.Idx → EReal) := by
  obtain ⟨-, -, -, -, -, -, i0, i1, -⟩ := index1_facts t
  funext y
  unfold iblk1
  rw [View.read_apply]
  show V c main_v27 _ = V c main_v27 _
  congr 1
  funext a
  apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem iblk1_4_eq (c : Dev nD) (t : Fin cfg1.N) : (iblk1 V c 4 t : Vec Ideal S64x64 .f32) = (V c main_arg9 : S64x64.Idx → EReal) := by
  obtain ⟨-, -, -, -, -, -, -, -, i0, i1, -⟩ := index1_facts t
  funext y
  unfold iblk1
  rw [View.read_apply]
  show V c main_arg9 _ = V c main_arg9 _
  congr 1
  funext a
  apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem iblk1_5_eq (c : Dev nD) (t : Fin cfg1.N) : (iblk1 V c 5 t : Vec Ideal S1x64 .f32) = (V c main_v28 : S1x64.Idx → EReal) := by
  obtain ⟨-, -, -, -, -, -, -, -, -, -, i0, i1, -⟩ := index1_facts t
  funext y
  unfold iblk1
  rw [View.read_apply]
  show V c main_v28 _ = V c main_v28 _
  congr 1
  funext a
  apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-! ## What a point writes back -/

/-- The payload of tiles, as the write-back moves it, is block `t` of the layer of the tables, when the two row
    tiles hold rows `5000 t …` of the two row tables. -/
theorem tile1_eq (t : Fin cfg1.N) (x0 x1 : Vec Ideal S5000x64 .f32) (w1 : Vec Ideal S64x64 .f32) (b1 : Vec Ideal S1x64 .f32)
    (w2 : Vec Ideal S64x64 .f32) (b2 : Vec Ideal S1x64 .f32) (h a : S100000x64.Idx → EReal)
    (e0 : ∀ (p : Fin 5000) (j : Fin 64) (r : Fin 100000), r.val = 5000 * t.val + p.val → x0 (ix2 p j) = h (ix2 r j))
    (e1 : ∀ (p : Fin 5000) (j : Fin 64) (r : Fin 100000), r.val = 5000 * t.val + p.val → x1 (ix2 p j) = a (ix2 r j)) :
    (cfg1.win 6).cut (grid1.coords t) (k1_pay1 (F := Ideal) x0 x1 w1 b1 w2 b2)
      = ((cfg1.win 6).blk t).view.read (Elt Ideal) (layer h a w1 (fun k : Fin 64 => b1 (ix2 0 k)) w2 (fun k : Fin 64 => b2 (ix2 0 k))) := by
  funext y
  obtain ⟨p, q, rfl⟩ := ix2_split1 y
  have hr : 5000 * t.val + p.val < 100000 := by
    have h1 : t.val < 20 := lt_of_lt_of_eq t.isLt N_1
    have h2 := p.isLt; omega
  rw [View.read_apply, emb1_6 t p q ⟨5000 * t.val + p.val, hr⟩ rfl]
  exact pay1_layer x0 x1 w1 b1 w2 b2 h a ⟨5000 * t.val + p.val, hr⟩ p q (fun j => e0 p j _ rfl) (fun j => e1 p j _ rfl)

/-- What point `t` writes back is block `t` of the layer of the arrays as the region finds them. -/
theorem flushed1_eq (c : Dev nD) (t : Fin cfg1.N) :
    (dat1 (F := Ideal) V c).flushed 6 t = ((cfg1.win 6).blk t).view.read (Elt Ideal) (layer (V c main_v16) (V c main_v26) (V c main_arg7) (fun k : Fin 64 => V c main_v27 (ix2 0 k)) (V c main_arg9) (fun k : Fin 64 => V c main_v28 (ix2 0 k))) := by
  show (cfg1.win 6).cut (grid1.coords t) ((dat1 V c).after 6 t) = _
  rw [after1_6]
  unfold out1_6
  rw [View.canon_unit_zero offs1_zero]
  simp only [View.ld_unit_zero (S := S5000x64) offs1_zero, View.ld_unit_zero (S := S64x64) offs1_zero, View.ld_unit_zero (S := S1x64) offs1_zero]
  rw [iblk1_2_eq, iblk1_3_eq, iblk1_4_eq, iblk1_5_eq]
  exact tile1_eq t (iblk1 V c 0 t) (iblk1 V c 1 t) _ _ _ _ _ _ (fun p j r hr => iblk1_0_at V c t p j r hr) (fun p j r hr => iblk1_1_at V c t p j r hr)

/-! ## The blocks tile the table -/

/-- An index of the table is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every row of the table is in the block of the point `row / 5000`, and every point writes back. -/
theorem covered1 (i : S100000x64.Idx) : ∃ t : Fin cfg1.N, (cfg1.win 6).flush t = true ∧ i ∈ ((cfg1.win 6).blk t).view.set := by
  have h0 : (i 0).val < 100000 := (i 0).isLt
  have h1 : (i 1).val < 64 := (i 1).isLt
  have ht : (i 0).val / 5000 < cfg1.N := lt_of_lt_of_eq (by omega : (i 0).val / 5000 < 20) N_1.symm
  refine ⟨⟨(i 0).val / 5000, ht⟩, flush1_6 _, ?_⟩
  rw [mem_blk1]
  obtain ⟨-, -, -, -, -, -, -, -, -, -, -, -, i0, i1, -⟩ := index1_facts ⟨(i 0).val / 5000, ht⟩
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [i0]
    show (i 0).val / 5000 * 5000 ≤ (i 0).val ∧ (i 0).val < (i 0).val / 5000 * 5000 + 5000
    omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [i1]; omega

/-! ## The table after the region -/

/-- The output table after the region is the layer of the arrays as the region finds them. -/
theorem final1 (c : Dev nD) :
    (dat1 (F := Ideal) V c).arrAt 6 cfg1.N = layer (V c main_v16) (V c main_v26) (V c main_arg7) (fun k : Fin 64 => V c main_v27 (ix2 0 k)) (V c main_arg9) (fun k : Fin 64 => V c main_v28 (ix2 0 k)) :=
  (dat1 V c).arrAt_eq_of_cover 6 (layer (V c main_v16) (V c main_v26) (V c main_arg7) (fun k : Fin 64 => V c main_v27 (ix2 0 k)) (V c main_arg9) (fun k : Fin 64 => V c main_v28 (ix2 0 k)))
    (fun t _ => flushed1_eq V c t) (covered1)

end Cert.KernelIdeal.Fr

end
-- ==== Proof.Pay2.lean ====
/-
  The pooling kernel's stored values read at an index, at the ideal instance.

  The kernel keeps a [1, 64] running row.  Its three stored values are: the zero row it starts from; the row plus
  the column sums of one [5000, 64] block of the table; and, at the end, the row times the reciprocal of the
  number of rows, 1/100000.  Each is read here at column q as the corresponding expression on the extended reals.
-/
import proofs.«150901_j3083786519230_1_alg».proof.Proof.Gen.KernelIdeal.Skeleton
import proofs.«150901_j3083786519230_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.GinSpec

/-- The named reciprocal of the row count denotes the rational 1/100000 on the extended reals. -/
theorem inv_rows :
    Named.named (F := Ideal) Cert.KernelIdeal.κ "inv_100000" (φ := .f32) 0x3727C5AC#32 = ((1 / 100000 : ℝ) : EReal) :=
  IdealRules.named_const.ideal_named_scalar _ _ _ _ rfl

/-- The row the pooling starts from is zero in every column. -/
theorem k2_pay1_apply (z : Fin 1) (q : Fin 64) : k2_pay1 (F := Ideal) (ix2 z q) = 0 := by
  unfold k2_pay1
  rw [shapeCast_self]
  exact Ideal.ofBits_zero_f32

/-- Summing a [5000, 64] block over its rows and reading column q gives the sum over the rows of that column. -/
theorem colsum_apply (x : Vec Ideal S5000x64 .f32) (h : S5000x64.Reduces [0] S64) (hφ : FKind.Formats .f32)
    (hacc : (0x00000000#32 : BitVec 32) = FKind.add.neutral .f32 hφ) (q : Fin 64) :
    multiReduction (F := Ideal) .add [0] S64 x 0x00000000#32 h hφ hacc (ix1 q) = ∑ p : Fin 5000, x (ix2 p q) := by
  refine (Ideal.multiReduction_add_single x 0x00000000#32 h hφ hacc (ix1 q)).trans ?_
  refine Finset.sum_congr rfl fun p _ => congrArg x ?_
  funext a
  refine Fin.ext ?_
  match a with
  | ⟨0, _⟩ => rfl
  | ⟨1, _⟩ => rfl

/-- One step of the pooling: the running row plus the block's column sums. -/
theorem k2_pay2_apply (s : Vec Ideal S1x64 .f32) (x : Vec Ideal S5000x64 .f32) (z : Fin 1) (q : Fin 64) :
    k2_pay2 (F := Ideal) s x (ix2 z q) = s (ix2 z q) + ∑ p : Fin 5000, x (ix2 p q) := by
  unfold k2_pay2
  rw [shapeCast_self, shapeCast_self]
  refine (addf_apply _ _ _).trans ?_
  refine congrArg (s (ix2 z q) + ·) ?_
  refine (shapeCast_a_1a_apply _ _ z q).trans ?_
  exact colsum_apply x _ _ _ q

/-- The last step of the pooling: the running row times 1/100000. -/
theorem k2_pay3_apply (s : Vec Ideal S1x64 .f32) (z : Fin 1) (q : Fin 64) :
    k2_pay3 (F := Ideal) s (ix2 z q) = s (ix2 z q) * ((1 / 100000 : ℝ) : EReal) := by
  unfold k2_pay3
  refine (mulf_apply _ _ _).trans ?_
  exact congrArg (s (ix2 z q) * ·) inv_rows

end Cert.KernelIdeal.Pay

end
-- ==== Proof.LibBlockSum.lean ====
/-
  Sums over rows cut into equal blocks.

  A table of B·R rows is processed block by block, R rows at a time, and a running total is kept: it starts from
  zero, takes the first block's sum, and then one more block's sum per step.  The two lemmas say that the sum over all
  rows is the sum over the blocks of the sums inside each block, and that the running total after step n is the sum of
  the blocks 0, …, n.  Both hold in any commutative additive monoid, so at infinite values too.
-/
import Idealize.ShloMosaic.PureOps.Ideal

open scoped BigOperators

namespace Cert.LibBlockSum

/-- Row r of block t, in a table of B blocks of R rows, is a row of the table: t·R + r < B·R. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

/-- A sum over B·R rows is the sum over the B blocks of the sums over the R rows inside each block, row r of block t
    being row t·R + r. -/
theorem sum_blocks {M : Type*} [AddCommMonoid M] (B R : ℕ) (f : Fin (B * R) → M) :
    ∑ i : Fin (B * R), f i = ∑ t : Fin B, ∑ r : Fin R, f ⟨t.val * R + r.val, block_lt t r⟩ := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

/-- The same for a function of the row's number. -/
theorem sum_blocks_nat {M : Type*} [AddCommMonoid M] (B R : ℕ) (f : ℕ → M) :
    ∑ i : Fin (B * R), f i.val = ∑ t : Fin B, ∑ r : Fin R, f (t.val * R + r.val) :=
  sum_blocks B R fun i => f i.val

/-- A running total that starts from zero plus block 0's sum and adds block k+1's sum at step k+1 holds, after step n,
    the sum of the blocks 0, …, n. -/
theorem acc_blocks {M : Type*} [AddCommMonoid M] (g : ℕ → M) :
    ∀ n, (Nat.rec (0 + g 0) (fun k acc => acc + g (k + 1)) n : M) = ∑ t ∈ Finset.range (n + 1), g t := by
  intro n
  induction n with
  | zero =>
    rw [Finset.sum_range_one]
    exact zero_add (g 0)
  | succ n ih =>
    show (Nat.rec (0 + g 0) (fun k acc => acc + g (k + 1)) n : M) + g (n + 1) = _
    rw [ih, Finset.sum_range_succ _ (n + 1)]

/-- A sum over the first B naturals is the sum over the B-element index type. -/
theorem sum_range_eq_fin {M : Type*} [AddCommMonoid M] (g : ℕ → M) (B : ℕ) :
    ∑ t ∈ Finset.range B, g t = ∑ t : Fin B, g t.val :=
  (Fin.sum_univ_eq_sum_range g B).symm

/-- So for a table of B + 1 blocks of R rows, with the blocks' sums g t = ∑ r, f (t·R + r), the running total after
    the last step, step B, is the sum over all (B + 1)·R rows. -/
theorem acc_all_rows {M : Type*} [AddCommMonoid M] (B R : ℕ) (f : ℕ → M) :
    (Nat.rec (0 + ∑ r : Fin R, f (0 * R + r.val)) (fun k acc => acc + ∑ r : Fin R, f ((k + 1) * R + r.val)) B : M)
      = ∑ i : Fin ((B + 1) * R), f i.val := by
  rw [acc_blocks (fun t => ∑ r : Fin R, f (t * R + r.val)) B, sum_range_eq_fin, sum_blocks_nat]

end Cert.LibBlockSum
-- ==== Proof.KI.Val2.lean ====
/- Region 2's value at the ideal instance: the output array ends holding the pooled row of the table the region
   reads — for each column the sum over all 100000 rows, times 1/100000.

   The scratch row after grid point n is the sum of the column sums of blocks 0, …, n (an induction over the
   points, from what each point leaves in the scratch); block t's row p is row 5000·t + p of the table, so after
   the last point the scratch is the column sum over all rows; the output window is written back at the last
   point only, where its buffer holds the scratch scaled, and that one block is the whole output array. -/
import proofs.«150901_j3083786519230_1_alg».proof.Proof.KI.Reg2
import proofs.«150901_j3083786519230_1_alg».proof.Proof.Spec
import proofs.«150901_j3083786519230_1_alg».proof.Proof.Pay2
import proofs.«150901_j3083786519230_1_alg».proof.Proof.LibBlockSum
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen Cert.KernelIdeal.Pay Cert.GinSpec Cert.LibBlockSum
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The windows' block indices, over the grid -/

/-- The input window's block index at point t is (t, 0); the output window's is (0, 0). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- The last grid point. -/
def tLast : Fin cfg2.N := ⟨19, by decide⟩

/-! ## A block's rows are the table's rows -/

/-- The table the region reads, as the region finds it. -/
abbrev tab (c : Dev nD) : S100000x64.Idx → EReal := V c main_v29

/-- Row p, column q of block t is row 5000·t + p, column q of the table. -/
theorem iblk2_apply (c : Dev nD) (t : Fin cfg2.N) (p : Fin 5000) (q : Fin 64) (hr : t.val * 5000 + p.val < 100000) :
    (iblk2 V c 0 t : Vec Ideal S5000x64 .f32) (ix2 p q) = tab V c (ix2 ⟨t.val * 5000 + p.val, hr⟩ q) := by
  obtain ⟨e0, e1, -, -⟩ := block_index2 t
  unfold iblk2
  rw [View.read_apply]
  show V c main_v29 _ = V c main_v29 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 64 + 1 * q.val = q.val; rw [e1]; omega

/-- Column q of the table at row number r (zero past the last row, which no block reaches). -/
def colAt (c : Dev nD) (q : Fin 64) (r : ℕ) : EReal := if h : r < 100000 then tab V c (ix2 ⟨r, h⟩ q) else 0

/-- The column sum of a tile whose row p is row 5000·t + p of the table is the sum of column q over those rows. -/
theorem blk_colsum (c : Dev nD) (t : ℕ) (ht : t < 20) (q : Fin 64) (x : Vec Ideal S5000x64 .f32)
    (hx : ∀ (p : Fin 5000) (hr : t * 5000 + p.val < 100000), x (ix2 p q) = tab V c (ix2 ⟨t * 5000 + p.val, hr⟩ q)) :
    ∑ p : Fin 5000, x (ix2 p q) = ∑ p : Fin 5000, colAt V c q (t * 5000 + p.val) := by
  refine Finset.sum_congr rfl fun p _ => ?_
  have hr : t * 5000 + p.val < 100000 := by have := p.isLt; omega
  rw [hx p hr]
  unfold colAt
  rw [dif_pos hr]

/-! ## The scratch row, point by point -/

/-- After point n the scratch holds, in column q, the sum of the column sums of blocks 0, …, n. -/
theorem scr_sum (c : Dev nD) (z : Fin 1) (q : Fin 64) : ∀ (n : ℕ) (h : n < cfg2.N),
    (outsAt2 V c n h).2 (ix2 z q) = ∑ t ∈ Finset.range (n + 1), ∑ p : Fin 5000, colAt V c q (t * 5000 + p.val) := by
  intro n
  induction n with
  | zero =>
    intro h
    rw [scr2_zero V c h]
    refine (k2_pay2_apply (k2_pay1 (F := Ideal)) (iblk2 V c 0 ⟨0, h⟩) z q).trans ?_
    rw [k2_pay1_apply z q, zero_add, Finset.sum_range_one]
    exact blk_colsum V c 0 (by decide) q (iblk2 V c 0 ⟨0, h⟩) (fun p hr => iblk2_apply V c ⟨0, h⟩ p q hr)
  | succ n ih =>
    intro h
    rw [scr2_succ V c n h]
    refine (k2_pay2_apply (outsAt2 V c n (Nat.lt_of_succ_lt h)).2 (iblk2 V c 0 ⟨n + 1, h⟩) z q).trans ?_
    rw [ih (Nat.lt_of_succ_lt h), Finset.sum_range_succ _ (n + 1)]
    have hN : n + 1 < 20 := lt_of_lt_of_eq h (show cfg2.N = 20 from N_2)
    exact congrArg (_ + ·) (blk_colsum V c (n + 1) hN q (iblk2 V c 0 ⟨n + 1, h⟩) (fun p hr => iblk2_apply V c ⟨n + 1, h⟩ p q hr))

/-- So after the last point it holds the column's sum over all rows of the table. -/
theorem scr_last (c : Dev nD) (z : Fin 1) (q : Fin 64) :
    (outsAt2 V c tLast.val tLast.isLt).2 (ix2 z q) = ∑ i : Fin 100000, tab V c (ix2 i q) := by
  rw [show (outsAt2 V c tLast.val tLast.isLt) = outsAt2 V c 19 tLast.isLt from rfl, scr_sum V c z q 19 tLast.isLt,
    sum_range_eq_fin, ← sum_blocks_nat 20 5000 (colAt V c q)]
  refine Finset.sum_congr rfl fun i _ => ?_
  unfold colAt
  exact dif_pos i.isLt

/-! ## The output's buffer at the last point, and the array -/

/-- What the output's staging buffer holds after the last point is the pooled row. -/
theorem after_last (c : Dev nD) : (outsAt2 V c tLast.val tLast.isLt).1 = pool (tab V c) := by
  funext i
  rw [eq_ix2 i]
  rw [show (outsAt2 V c tLast.val tLast.isLt) = outsAt2 V c 19 tLast.isLt from rfl, out2_last V c tLast.isLt]
  refine (k2_pay3_apply (outsAt2 V c 19 tLast.isLt).2 (i 0) (i 1)).trans ?_
  rw [show (outsAt2 V c 19 tLast.isLt) = outsAt2 V c tLast.val tLast.isLt from rfl, scr_last V c (i 0) (i 1)]
  rfl

/-- The one write-back, at the last point, writes the pooled row: block (0, 0) of the [1, 64] array is the array. -/
theorem flushed_eq2 (c : Dev nD) (t : Fin cfg2.N) (hf : (cfg2.win 1).flush t = true) :
    (dat2 (F := Ideal) V c).flushed 1 t = ((cfg2.win 1).blk t).view.read (Elt Ideal) (pool (tab V c)) := by
  have hN : cfg2.N = 20 := N_2
  have h1 : t.val = 19 := by have := (flush2_1 t).mp hf; have := t.isLt; omega
  obtain rfl : t = tLast := Fin.ext h1
  show (cfg2.win 1).cut (grid2.coords tLast) ((dat2 (F := Ideal) V c).after 1 tLast) = _
  rw [after2_1, after_last]
  have hz' : (fun a => win2_1.index tLast a * main_v30.ty.shape.size a) = fun _ => 0 := funext fun a => by fin_cases a <;> decide
  exact (Memref.read_access_unit_zero (Elt Ideal) main_v30 hz' (fun a => by rw [congrFun hz' a]; simp) (pool (tab V c))).symm

/-- THE OUTPUT ARRAY after the region: the pooled row of the table the region reads. -/
theorem final2 (V : (c : Dev nD) → (b : Ref sig .tc) → Buf (Elt Ideal) ((c : Thread nD τ).loc b)) (c : Dev nD) :
    (dat2 (F := Ideal) V c).arrAt 1 cfg2.N = Cert.GinSpec.pool (V c main_v29) :=
  (dat2 (F := Ideal) V c).arrAt_eq_of_cover 1 (pool (tab V c)) (flushed_eq2 V c) fun i =>
    ⟨tLast, (flush2_1 tLast).mpr rfl, by
      show i ∈ ((View.whole main_v30).slice (win2_1.rect tLast)).set
      rw [View.set_slice_whole, Rect.mem_set_unit]
      intro a
      have h0 : (i 0 : Nat) < 1 := (i 0).isLt
      have h1 : (i 1 : Nat) < 64 := (i 1).isLt
      match a with
      | ⟨0, _⟩ => show win2_1.index tLast 0 * win2_1.size 0 ≤ (i 0 : Nat) ∧ (i 0 : Nat) < win2_1.index tLast 0 * win2_1.size 0 + win2_1.xsize (grid2.coords tLast) 0
                  rw [show win2_1.index tLast 0 * win2_1.size 0 = 0 from by decide +kernel, show win2_1.xsize (grid2.coords tLast) 0 = 1 from by decide +kernel]; omega
      | ⟨1, _⟩ => show win2_1.index tLast 1 * win2_1.size 1 ≤ (i 1 : Nat) ∧ (i 1 : Nat) < win2_1.index tLast 1 * win2_1.size 1 + win2_1.xsize (grid2.coords tLast) 1
                  rw [show win2_1.index tLast 1 * win2_1.size 1 = 0 from by decide +kernel, show win2_1.xsize (grid2.coords tLast) 1 = 64 from by decide +kernel]; omega⟩

end Cert.KernelIdeal.Fr

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.KI.Value.lean ====
/-
  The kernel program's two results as the specification's functions of the launch memory.

  At the first kernel's entry the node table, the weights and the edge list are as launched, the neighbour sums are the
  host's gather / scatter-add of the node table, and each bias vector is laid as a one-row table; the first kernel leaves
  the first layer's table.  The host operations between the kernels compute the neighbour sums of that table; the second
  kernel leaves the second layer's table, which is the first result; the pooling kernel leaves its column means.
-/
import proofs.«150901_j3083786519230_1_alg».proof.Proof.KI.Run
import proofs.«150901_j3083786519230_1_alg».proof.Proof.KI.HostVal
import proofs.«150901_j3083786519230_1_alg».proof.Proof.KI.Val0
import proofs.«150901_j3083786519230_1_alg».proof.Proof.KI.Val1
import proofs.«150901_j3083786519230_1_alg».proof.Proof.KI.Val2
import proofs.«150901_j3083786519230_1_alg».proof.Proof.LibRowBias
import proofs.«150901_j3083786519230_1_alg».proof.Proof.Spec

noncomputable section

namespace Cert.KernelIdeal.Fr

open Idealize.ShloMosaic Idealize.ShloMosaic.TcCoe Idealize.SL.Sem Idealize.ShloMosaic.ValueIdx
open Cert.KernelIdeal Cert.KernelIdeal.Gen Cert.KernelIdeal.HostVal Cert.GinSpec

variable (m : (ℓ : Loc nD τ sig) → Buf (Elt Ideal) ℓ) (ρ : Dev nD → PrngReg)

/-! ## The first kernel's entry -/

theorem E1_arg0 (c : Dev nD) : E1 m ρ c main_arg0 = (m ((c : Thread nD τ).loc main_arg0)) :=
  StableHlo.after_of_writes_sub hostOps0 _ hostOps0_writes (by decide)
theorem E1_arg3 (c : Dev nD) : E1 m ρ c main_arg3 = (m ((c : Thread nD τ).loc main_arg3)) :=
  StableHlo.after_of_writes_sub hostOps0 _ hostOps0_writes (by decide)
theorem E1_arg5 (c : Dev nD) : E1 m ρ c main_arg5 = (m ((c : Thread nD τ).loc main_arg5)) :=
  StableHlo.after_of_writes_sub hostOps0 _ hostOps0_writes (by decide)
theorem E1_v13 (c : Dev nD) : E1 m ρ c main_v13 = agg128 (m ((c : Thread nD τ).loc main_arg0)) (m ((c : Thread nD τ).loc main_arg1)) :=
  host0_v13 (B0 m ρ c)
theorem E1_v14 (c : Dev nD) : E1 m ρ c main_v14 = fun i => shapeCast S1x32 (m ((c : Thread nD τ).loc main_arg4)) shapeCasts_S32_S1x32 i :=
  host0_v14 (B0 m ρ c)
theorem E1_v15 (c : Dev nD) : E1 m ρ c main_v15 = fun i => shapeCast S1x64 (m ((c : Thread nD τ).loc main_arg6)) shapeCasts_S64_S1x64 i :=
  host0_v15 (B0 m ρ c)

/-! ## After the first kernel: what the host operations between the kernels read -/

theorem B2_v1 (c : Dev nD) : B2 m ρ c (Proc.devRef .tc main_v1) = srcRow (m ((c : Thread nD τ).loc main_arg1)) :=
  (B2_of_ne m ρ c main_v1 (by decide)).trans (host0_v1 (B0 m ρ c))
theorem B2_v3 (c : Dev nD) : B2 m ρ c (Proc.devRef .tc main_v3) = dstRow (m ((c : Thread nD τ).loc main_arg1)) :=
  (B2_of_ne m ρ c main_v3 (by decide)).trans (host0_v3 (B0 m ρ c))
theorem B2_v16 (c : Dev nD) : B2 m ρ c (Proc.devRef .tc main_v16) = (dat0 (E1 m ρ) c).arrAt 6 cfg0.N :=
  B2_arr m ρ c 6
theorem B2_arg7 (c : Dev nD) : B2 m ρ c (Proc.devRef .tc main_arg7) = (m ((c : Thread nD τ).loc main_arg7)) :=
  (B2_of_ne m ρ c main_arg7 (by decide)).trans (StableHlo.after_of_writes_sub hostOps0 _ hostOps0_writes (by decide))
theorem B2_arg8 (c : Dev nD) : B2 m ρ c (Proc.devRef .tc main_arg8) = (m ((c : Thread nD τ).loc main_arg8)) :=
  (B2_of_ne m ρ c main_arg8 (by decide)).trans (StableHlo.after_of_writes_sub hostOps0 _ hostOps0_writes (by decide))
theorem B2_arg9 (c : Dev nD) : B2 m ρ c (Proc.devRef .tc main_arg9) = (m ((c : Thread nD τ).loc main_arg9)) :=
  (B2_of_ne m ρ c main_arg9 (by decide)).trans (StableHlo.after_of_writes_sub hostOps0 _ hostOps0_writes (by decide))
theorem B2_arg10 (c : Dev nD) : B2 m ρ c (Proc.devRef .tc main_arg10) = (m ((c : Thread nD τ).loc main_arg10)) :=
  (B2_of_ne m ρ c main_arg10 (by decide)).trans (StableHlo.after_of_writes_sub hostOps0 _ hostOps0_writes (by decide))

/-! ## The second kernel's entry -/

theorem E3_v16 (c : Dev nD) : E3 m ρ c main_v16 = (dat0 (E1 m ρ) c).arrAt 6 cfg0.N :=
  (StableHlo.after_of_writes_sub hostOps1 _ hostOps1_writes (by decide)).trans (B2_v16 m ρ c)
theorem E3_arg7 (c : Dev nD) : E3 m ρ c main_arg7 = (m ((c : Thread nD τ).loc main_arg7)) :=
  (StableHlo.after_of_writes_sub hostOps1 _ hostOps1_writes (by decide)).trans (B2_arg7 m ρ c)
theorem E3_arg9 (c : Dev nD) : E3 m ρ c main_arg9 = (m ((c : Thread nD τ).loc main_arg9)) :=
  (StableHlo.after_of_writes_sub hostOps1 _ hostOps1_writes (by decide)).trans (B2_arg9 m ρ c)
theorem E3_v26 (c : Dev nD) : E3 m ρ c main_v26 = agg64 ((dat0 (E1 m ρ) c).arrAt 6 cfg0.N) (m ((c : Thread nD τ).loc main_arg1)) := by
  refine (host1_v26 (B2 m ρ c)).trans ?_
  rw [B2_v16, B2_v1, B2_v3]; rfl
theorem E3_v27 (c : Dev nD) : E3 m ρ c main_v27 = fun i => shapeCast S1x64 (m ((c : Thread nD τ).loc main_arg8)) shapeCasts_S64_S1x64 i := by
  refine (host1_v27 (B2 m ρ c)).trans ?_
  rw [B2_arg8]
theorem E3_v28 (c : Dev nD) : E3 m ρ c main_v28 = fun i => shapeCast S1x64 (m ((c : Thread nD τ).loc main_arg10)) shapeCasts_S64_S1x64 i := by
  refine (host1_v28 (B2 m ρ c)).trans ?_
  rw [B2_arg10]

/-! ## The pooling kernel's entry -/

theorem E4_v29 (c : Dev nD) : E4 m ρ c main_v29 = (dat1 (E3 m ρ) c).arrAt 6 cfg1.N :=
  B4_arr m ρ c 6

/-! ## The two tables and the results -/

/-- The first layer's table, from the launch memory. -/
def K1 (c : Dev nD) : Vec Ideal S100000x64 .f32 :=
  layer (m ((c : Thread nD τ).loc main_arg0)) (agg128 (m ((c : Thread nD τ).loc main_arg0)) (m ((c : Thread nD τ).loc main_arg1))) (m ((c : Thread nD τ).loc main_arg3)) (fun k : Fin 32 => (m ((c : Thread nD τ).loc main_arg4)) (ix1 k)) (m ((c : Thread nD τ).loc main_arg5)) (fun k : Fin 64 => (m ((c : Thread nD τ).loc main_arg6)) (ix1 k))
/-- The second layer's table, from the launch memory. -/
def K2 (c : Dev nD) : Vec Ideal S100000x64 .f32 :=
  layer (K1 m c) (agg64 (K1 m c) (m ((c : Thread nD τ).loc main_arg1))) (m ((c : Thread nD τ).loc main_arg7)) (fun k : Fin 64 => (m ((c : Thread nD τ).loc main_arg8)) (ix1 k)) (m ((c : Thread nD τ).loc main_arg9)) (fun k : Fin 64 => (m ((c : Thread nD τ).loc main_arg10)) (ix1 k))

/-- The first kernel leaves the first layer's table. -/
theorem arr0 (c : Dev nD) : (dat0 (E1 m ρ) c).arrAt 6 cfg0.N = K1 m c := by
  refine (final0 (E1 m ρ) c).trans ?_
  rw [E1_arg0, E1_v13, E1_arg3, E1_v14, E1_arg5, E1_v15]
  unfold K1
  simp only [Cert.LibRowBias.row_of_vec_apply]
/-- The second kernel leaves the second layer's table. -/
theorem arr1 (c : Dev nD) : (dat1 (E3 m ρ) c).arrAt 6 cfg1.N = K2 m c := by
  refine (final1 (E3 m ρ) c).trans ?_
  rw [E3_v16, E3_v26, E3_arg7, E3_v27, E3_arg9, E3_v28, arr0]
  unfold K2
  simp only [Cert.LibRowBias.row_of_vec_apply]
/-- The pooling kernel leaves the column means of the second layer's table. -/
theorem arr2 (c : Dev nD) : (dat2 (E4 m ρ) c).arrAt 1 cfg2.N = pool (K2 m c) := by
  refine (final2 (E4 m ρ) c).trans ?_
  rw [E4_v29, arr1]

/-- Every weakly fair execution of the kernel program terminates without a fault, with the second layer's table and
    its column means as the two results and every argument array as launched. -/
theorem kernel_run : θ_run defs (onTc (τ := τ) (main (F := Ideal))) ⟨m, fun _ => 0, ρ⟩ (fun r => ∀ c : Dev nD,
      r.2.mem ((c.tc : Thread nD τ).loc main_v29) = K2 m c
      ∧ r.2.mem ((c.tc : Thread nD τ).loc main_v30) = pool (K2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (arr1 m ρ c), (h c).2.1.trans (arr2 m ρ c), (h c).2.2⟩) (run m ρ)

end Cert.KernelIdeal.Fr

end
-- ==== Proof.RefValue.lean ====
/-
  The reference program's two results as the specification's functions of its arguments.

  The reference computes, twice over, a neighbour sum (rows of a node table gathered at the edges' source column and
  added up at their destination column), the sum of the table and its neighbour sums, and a two-layer perceptron of
  each row with a rectifier after each layer; then the column mean of the last table.  Each stage of the program is
  read here at one index: a matrix product is the sum over the contracted coordinate of the operands' products, a
  broadcast bias is the bias at the column, the rectifier is the maximum with the extended real 0, and the final
  division by the constant 100000 is the product with 1/100000.  The neighbour sums are never opened: they enter
  both sides as the same function of the table and the edge list.
-/
import proofs.«150901_j3083786519230_1_alg».proof.Proof.Gen.ReferenceIdeal.Run
import proofs.«150901_j3083786519230_1_alg».proof.Proof.Gen.ReferenceIdeal.Read
import proofs.«150901_j3083786519230_1_alg».proof.Proof.Spec

noncomputable section

open scoped BigOperators

namespace Cert.ReferenceIdeal.RefValue

open Idealize.ShloMosaic Idealize.ShloMosaic.ValueIdx Cert.ReferenceIdeal Cert.GinSpec
open Cert.ReferenceIdeal.Gen Cert.ReferenceIdeal.Read Idealize.ShloMosaic.StableHlo Idealize.ShloMosaic.TcCoe Idealize.SL.Sem

/-! ## The first layer -/

/-- The neighbour sums of a 128-column table, as the reference's own operations: the gather at the source column
    (negative indices wrapped by +100000) scatter-added into a zero table at the destination column.  Opaque: never
    opened. -/
def agg128 (x : Vec Ideal S100000x128 .f32) (ei : (⟨S2x1600000, .i32⟩ : BufTy).Contents (Elt Ideal)) :
    Vec Ideal S100000x128 .f32 :=
  val_main_v13 (F := Ideal) x ei

/-- The first layer's hidden row at node `p`, hidden unit `k`: the rectified sum over the 128 input columns of
    (table + neighbour sums) times the first weight matrix, plus the bias. -/
theorem hid1_at (x0 : Vec Ideal S100000x128 .f32) (x1 : (⟨S2x1600000, .i32⟩ : BufTy).Contents (Elt Ideal))
    (x3 : Vec Ideal S128x32 .f32) (x4 : Vec Ideal S32 .f32) (p : Fin 100000) (k : Fin 32) :
    val_main_v19 (F := Ideal) x0 x1 x3 x4 (ix2 p k) =
      max ((∑ j : Fin 128, (x0 (ix2 p j) + agg128 x0 x1 (ix2 p j)) * x3 (ix2 j k)) + x4 (ix1 k)) 0 := by
  rw [val_main_v19_apply, val_main_v18_apply, val_main_v15_apply, val_main_v17_apply, val_main_v16_apply,
    val_main_call0_v0_apply, val_main_call0_cst_apply]
  rw [Ideal.maximumf_def, Ideal.addf_def, Ideal.ofBits_def, Ideal.ofBits_zero_f32]
  have e1 : idx_main_v16 (idx_main_v17 (ix2 p k)) = ix1 k :=
    funext fun a => Fin.ext (by match a with | ⟨0, _⟩ => rfl)
  rw [e1]
  refine congrArg (fun s => max (s + x4 (ix1 k)) 0) (Finset.sum_congr rfl fun j _ => ?_)
  have el : lidx_main_v15 (ix2 p k) j = ix2 p j :=
    funext fun a => Fin.ext (by match a with | ⟨0, _⟩ => rfl | ⟨1, _⟩ => rfl)
  have er : ridx_main_v15 (ix2 p k) j = ix2 j k :=
    funext fun a => Fin.ext (by match a with | ⟨0, _⟩ => rfl | ⟨1, _⟩ => rfl)
  rw [el, er, val_main_v14_apply, Ideal.addf_def]
  rfl

/-- The first layer's table at node `p`, column `q` is the specification's layer of the input table and its
    neighbour sums. -/
theorem layer1_at (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32)
    (p : Fin 100000) (q : Fin 64) :
    val_main_v24 (F := Ideal) x0 x1 x3 x4 x5 x6 (ix2 p q) =
      layerAt x0 (agg128 x0 x1) x3 (fun k : Fin 32 => x4 (ix1 k)) x5 (fun k : Fin 64 => x6 (ix1 k)) p q := by
  rw [val_main_v24_apply, val_main_v23_apply, val_main_v20_apply, val_main_v22_apply, val_main_v21_apply,
    val_main_call1_v0_apply, val_main_call1_cst_apply]
  rw [Ideal.maximumf_def, Ideal.addf_def, Ideal.ofBits_def, Ideal.ofBits_zero_f32]
  have e1 : idx_main_v21 (idx_main_v22 (ix2 p q)) = ix1 q :=
    funext fun a => Fin.ext (by match a with | ⟨0, _⟩ => rfl)
  rw [e1]
  unfold layerAt mlpAt
  refine congrArg (fun s => max (s + x6 (ix1 q)) 0) (Finset.sum_congr rfl fun k _ => ?_)
  have el : lidx_main_v20 (ix2 p q) k = ix2 p k :=
    funext fun a => Fin.ext (by match a with | ⟨0, _⟩ => rfl | ⟨1, _⟩ => rfl)
  have er : ridx_main_v20 (ix2 p q) k = ix2 k q :=
    funext fun a => Fin.ext (by match a with | ⟨0, _⟩ => rfl | ⟨1, _⟩ => rfl)
  rw [el, er, hid1_at]

/-- The first layer's table as the specification's function of the arguments. -/
def h1 (x : Vec Ideal S100000x128 .f32) (ei : (⟨S2x1600000, .i32⟩ : BufTy).Contents (Elt Ideal))
    (W1 : Vec Ideal S128x32 .f32) (b1 : Vec Ideal S32 .f32) (W2 : Vec Ideal S32x64 .f32) (b2 : Vec Ideal S64 .f32) :
    Vec Ideal S100000x64 .f32 :=
  layer x (agg128 x ei) W1 (fun k : Fin 32 => b1 (ix1 k)) W2 (fun k : Fin 64 => b2 (ix1 k))

theorem h1_apply (x : Vec Ideal S100000x128 .f32) (ei : (⟨S2x1600000, .i32⟩ : BufTy).Contents (Elt Ideal))
    (W1 : Vec Ideal S128x32 .f32) (b1 : Vec Ideal S32 .f32) (W2 : Vec Ideal S32x64 .f32) (b2 : Vec Ideal S64 .f32)
    (p : Fin 100000) (q : Fin 64) :
    h1 x ei W1 b1 W2 b2 (ix2 p q) =
      layerAt x (agg128 x ei) W1 (fun k : Fin 32 => b1 (ix1 k)) W2 (fun k : Fin 64 => b2 (ix1 k)) p q := rfl

/-- The first layer's table, as a whole. -/
theorem v24_eq_h1 (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32) :
    val_main_v24 (F := Ideal) x0 x1 x3 x4 x5 x6 = h1 x0 x1 x3 x4 x5 x6 :=
  funext fun i => (congrArg (val_main_v24 (F := Ideal) x0 x1 x3 x4 x5 x6) (eq_ix2 i)).trans
    (layer1_at x0 x1 x3 x4 x5 x6 (i 0) (i 1))

/-! ## The second layer -/

/-- The neighbour sums of a 64-column table, by the same operations on the same edge list.  Opaque: never opened. -/
def agg64 (h : Vec Ideal S100000x64 .f32) (ei : (⟨S2x1600000, .i32⟩ : BufTy).Contents (Elt Ideal)) :
    Vec Ideal S100000x64 .f32 :=
  Host.scatterAdd (F := Ideal) (φ := .f32) scatter_S100000x64_S1600000x1_S1600000x64_1_0_0_1 (val_main_v32 (F := Ideal)) (val_main_v33 (F := Ideal) ei)
    (Host.gather gather_S100000x64_S1600000x1_S1600000x64_1_0_n_n_0_1_164 h (val_main_v30 (F := Ideal) ei))

/-- The program's second neighbour sum is `agg64` of the first layer's table. -/
theorem v34_eq_agg64 (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32) :
    val_main_v34 (F := Ideal) x0 x1 x3 x4 x5 x6 = agg64 (val_main_v24 (F := Ideal) x0 x1 x3 x4 x5 x6) x1 := rfl

/-- The second layer's hidden row at node `p`, hidden unit `k`. -/
theorem hid2_at (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32)
    (x7 : Vec Ideal S64x64 .f32) (x8 : Vec Ideal S64 .f32) (p : Fin 100000) (k : Fin 64) :
    val_main_v40 (F := Ideal) x0 x1 x3 x4 x5 x6 x7 x8 (ix2 p k) =
      max ((∑ j : Fin 64, (val_main_v24 (F := Ideal) x0 x1 x3 x4 x5 x6 (ix2 p j)
          + agg64 (val_main_v24 (F := Ideal) x0 x1 x3 x4 x5 x6) x1 (ix2 p j)) * x7 (ix2 j k)) + x8 (ix1 k)) 0 := by
  rw [val_main_v40_apply, val_main_v39_apply, val_main_v36_apply, val_main_v38_apply, val_main_v37_apply,
    val_main_call2_v0_apply, val_main_call2_cst_apply]
  rw [Ideal.maximumf_def, Ideal.addf_def, Ideal.ofBits_def, Ideal.ofBits_zero_f32]
  have e1 : idx_main_v37 (idx_main_v38 (ix2 p k)) = ix1 k :=
    funext fun a => Fin.ext (by match a with | ⟨0, _⟩ => rfl)
  rw [e1]
  refine congrArg (fun s => max (s + x8 (ix1 k)) 0) (Finset.sum_congr rfl fun j _ => ?_)
  have el : lidx_main_v36 (ix2 p k) j = ix2 p j :=
    funext fun a => Fin.ext (by match a with | ⟨0, _⟩ => rfl | ⟨1, _⟩ => rfl)
  have er : ridx_main_v36 (ix2 p k) j = ix2 j k :=
    funext fun a => Fin.ext (by match a with | ⟨0, _⟩ => rfl | ⟨1, _⟩ => rfl)
  rw [el, er, val_main_v35_apply, Ideal.addf_def, v34_eq_agg64]

/-- The second layer's table at node `p`, column `q` is the specification's layer of the first layer's table and
    its neighbour sums. -/
theorem layer2_at (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32)
    (x7 : Vec Ideal S64x64 .f32) (x8 : Vec Ideal S64 .f32) (x9 : Vec Ideal S64x64 .f32) (x10 : Vec Ideal S64 .f32)
    (p : Fin 100000) (q : Fin 64) :
    val_main_v45 (F := Ideal) x0 x1 x3 x4 x5 x6 x7 x8 x9 x10 (ix2 p q) =
      layerAt (val_main_v24 (F := Ideal) x0 x1 x3 x4 x5 x6) (agg64 (val_main_v24 (F := Ideal) x0 x1 x3 x4 x5 x6) x1)
        x7 (fun k : Fin 64 => x8 (ix1 k)) x9 (fun k : Fin 64 => x10 (ix1 k)) p q := by
  rw [val_main_v45_apply, val_main_v44_apply, val_main_v41_apply, val_main_v43_apply, val_main_v42_apply,
    val_main_call3_v0_apply, val_main_call3_cst_apply]
  rw [Ideal.maximumf_def, Ideal.addf_def, Ideal.ofBits_def, Ideal.ofBits_zero_f32]
  have e1 : idx_main_v42 (idx_main_v43 (ix2 p q)) = ix1 q :=
    funext fun a => Fin.ext (by match a with | ⟨0, _⟩ => rfl)
  rw [e1]
  unfold layerAt mlpAt
  refine congrArg (fun s => max (s + x10 (ix1 q)) 0) (Finset.sum_congr rfl fun k _ => ?_)
  have el : lidx_main_v41 (ix2 p q) k = ix2 p k :=
    funext fun a => Fin.ext (by match a with | ⟨0, _⟩ => rfl | ⟨1, _⟩ => rfl)
  have er : ridx_main_v41 (ix2 p q) k = ix2 k q :=
    funext fun a => Fin.ext (by match a with | ⟨0, _⟩ => rfl | ⟨1, _⟩ => rfl)
  rw [el, er, hid2_at]

/-- The second layer's table as the specification's function of the arguments. -/
def h2 (x : Vec Ideal S100000x128 .f32) (ei : (⟨S2x1600000, .i32⟩ : BufTy).Contents (Elt Ideal))
    (W1 : Vec Ideal S128x32 .f32) (b1 : Vec Ideal S32 .f32) (W2 : Vec Ideal S32x64 .f32) (b2 : Vec Ideal S64 .f32)
    (W3 : Vec Ideal S64x64 .f32) (b3 : Vec Ideal S64 .f32) (W4 : Vec Ideal S64x64 .f32) (b4 : Vec Ideal S64 .f32) :
    Vec Ideal S100000x64 .f32 :=
  layer (h1 x ei W1 b1 W2 b2) (agg64 (h1 x ei W1 b1 W2 b2) ei) W3 (fun k : Fin 64 => b3 (ix1 k)) W4
    (fun k : Fin 64 => b4 (ix1 k))

theorem layer2_at' (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32)
    (x7 : Vec Ideal S64x64 .f32) (x8 : Vec Ideal S64 .f32) (x9 : Vec Ideal S64x64 .f32) (x10 : Vec Ideal S64 .f32)
    (p : Fin 100000) (q : Fin 64) :
    val_main_v45 (F := Ideal) x0 x1 x3 x4 x5 x6 x7 x8 x9 x10 (ix2 p q) =
      layerAt (h1 x0 x1 x3 x4 x5 x6) (agg64 (h1 x0 x1 x3 x4 x5 x6) x1)
        x7 (fun k : Fin 64 => x8 (ix1 k)) x9 (fun k : Fin 64 => x10 (ix1 k)) p q := by
  rw [layer2_at, v24_eq_h1]

theorem h2_apply (x : Vec Ideal S100000x128 .f32) (ei : (⟨S2x1600000, .i32⟩ : BufTy).Contents (Elt Ideal))
    (W1 : Vec Ideal S128x32 .f32) (b1 : Vec Ideal S32 .f32) (W2 : Vec Ideal S32x64 .f32) (b2 : Vec Ideal S64 .f32)
    (W3 : Vec Ideal S64x64 .f32) (b3 : Vec Ideal S64 .f32) (W4 : Vec Ideal S64x64 .f32) (b4 : Vec Ideal S64 .f32)
    (p : Fin 100000) (q : Fin 64) :
    h2 x ei W1 b1 W2 b2 W3 b3 W4 b4 (ix2 p q) =
      layerAt (h1 x ei W1 b1 W2 b2) (agg64 (h1 x ei W1 b1 W2 b2) ei) W3 (fun k : Fin 64 => b3 (ix1 k)) W4
        (fun k : Fin 64 => b4 (ix1 k)) p q := rfl

/-- The second layer's table, as a whole. -/
theorem v45_eq_h2 (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32)
    (x7 : Vec Ideal S64x64 .f32) (x8 : Vec Ideal S64 .f32) (x9 : Vec Ideal S64x64 .f32) (x10 : Vec Ideal S64 .f32) :
    val_main_v45 (F := Ideal) x0 x1 x3 x4 x5 x6 x7 x8 x9 x10 = h2 x0 x1 x3 x4 x5 x6 x7 x8 x9 x10 :=
  funext fun i => (congrArg (val_main_v45 (F := Ideal) x0 x1 x3 x4 x5 x6 x7 x8 x9 x10) (eq_ix2 i)).trans
    (layer2_at' x0 x1 x3 x4 x5 x6 x7 x8 x9 x10 (i 0) (i 1))

/-! ## The two results -/

/-- The reference's first result is the second layer's table. -/
theorem res_out0_eq (m : (ℓ : Loc nD τ sig) → Buf (Elt Ideal) ℓ) (c : Dev nD) :
    Value.res_out0 (F := Ideal) m c =
      h2 (m ((c.tc : Thread nD τ).loc main_arg0))
        (m ((c.tc : Thread nD τ).loc main_arg1))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10)) :=
  (val_main_v45_eq m c).trans (v45_eq_h2 _ _ _ _ _ _ _ _ _ _)

/-- The divisor's bit pattern denotes the real 100000 (sign 0, exponent 143 = 127 + 16, fraction 0x435000:
    2^16 · (1 + 4411392 / 2^23) = 100000). -/
theorem ofBits_100000 : Ideal.ofBits .f32 0x47C35000#32 = ((100000 : ℝ) : EReal) := by
  simp [Ideal.ofBits, Ideal.ieee, -EReal.coe_mul]; norm_num

/-- The pooled row at column `q`: zero plus the sum over the 100000 rows, divided by 100000, is the column sum times
    1/100000. -/
theorem pool_at (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32)
    (x7 : Vec Ideal S64x64 .f32) (x8 : Vec Ideal S64 .f32) (x9 : Vec Ideal S64x64 .f32) (x10 : Vec Ideal S64 .f32) (z : Fin 1) (q : Fin 64) :
    val_main_v49 (F := Ideal) x0 x1 x3 x4 x5 x6 x7 x8 x9 x10 (ix2 z q) =
      poolAt (val_main_v45 (F := Ideal) x0 x1 x3 x4 x5 x6 x7 x8 x9 x10) q := by
  rw [val_main_v49_apply, val_main_v47_apply, val_main_v46_apply, val_main_v48_apply, val_main_cst_5_apply,
    val_main_cst_4_apply]
  simp only [Ideal.hostDivf_def, Ideal.ofBits_def]
  rw [Ideal.ofBits_zero_f32, zero_add, ofBits_100000, Ideal.div_coe (by norm_num : (100000 : ℝ) ≠ 0)]
  unfold poolAt
  refine congrArg (· * (((1 / 100000 : ℝ) : ℝ) : EReal)) (Finset.sum_congr rfl fun k _ => ?_)
  exact congrArg (val_main_v45 (F := Ideal) x0 x1 x3 x4 x5 x6 x7 x8 x9 x10)
    (funext fun a => Fin.ext (by match a with | ⟨0, _⟩ => rfl | ⟨1, _⟩ => rfl))

/-- The pooled row, as a whole. -/
theorem v49_eq_pool (x0 : Vec Ideal S100000x128 .f32) (x1 : (⟨S2x1600000, .i32⟩ : BufTy).Contents (Elt Ideal))
    (x3 : Vec Ideal S128x32 .f32) (x4 : Vec Ideal S32 .f32) (x5 : Vec Ideal S32x64 .f32) (x6 : Vec Ideal S64 .f32)
    (x7 : Vec Ideal S64x64 .f32) (x8 : Vec Ideal S64 .f32) (x9 : Vec Ideal S64x64 .f32) (x10 : Vec Ideal S64 .f32) :
    val_main_v49 (F := Ideal) x0 x1 x3 x4 x5 x6 x7 x8 x9 x10 = pool (h2 x0 x1 x3 x4 x5 x6 x7 x8 x9 x10) := by
  rw [← v45_eq_h2]
  exact funext fun i => (congrArg (val_main_v49 (F := Ideal) x0 x1 x3 x4 x5 x6 x7 x8 x9 x10) (eq_ix2 i)).trans
    (pool_at x0 x1 x3 x4 x5 x6 x7 x8 x9 x10 (i 0) (i 1))

/-- The reference's second result is the column mean of the second layer's table. -/
theorem res_out1_eq (m : (ℓ : Loc nD τ sig) → Buf (Elt Ideal) ℓ) (c : Dev nD) :
    Value.res_out1 (F := Ideal) m c =
      pool (h2 (m ((c.tc : Thread nD τ).loc main_arg0))
          (m ((c.tc : Thread nD τ).loc main_arg1))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))) :=
  (val_main_v49_eq m c).trans (v49_eq_pool _ _ _ _ _ _ _ _ _ _)

/-- Every weakly fair execution of the reference terminates with its two results at the specification's functions of the
    arguments as launched, the arguments unchanged. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v45) =
        h2 (m ((c.tc : Thread nD τ).loc main_arg0))
          (m ((c.tc : Thread nD τ).loc main_arg1))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
      ∧ r.2.mem ((c.tc : Thread nD τ).loc main_v49) =
        pool (h2 (m ((c.tc : Thread nD τ).loc main_arg0))
          (m ((c.tc : Thread nD τ).loc main_arg1))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => ⟨(h c).1.trans (res_out0_eq m c), (h c).2.1.trans (res_out1_eq m c), (h c).2.2⟩)
    (Value.run (F := Ideal) m ρ)

end Cert.ReferenceIdeal.RefValue

end
-- ==== Proof.AggBridge.lean ====
/-
  The neighbour sums are one function in both programs.

  The kernel program's host operations and the reference build the neighbour sums of a node table by the same chain of
  operations on the same edge list: the two index rows sliced out of the edge list and flattened, the source row's
  negative entries wrapped by the node count and laid as a column of start indices, the table's rows gathered there,
  and the gathered rows added into a zero table at the destination row's entries.  The two texts differ only in which
  program's shape facts and dimension records they cite; those are equal field by field, and the facts themselves are
  proofs of the same propositions.  So the two functions agree on every table and every edge list, with nothing
  evaluated: the arrays stay variables throughout.
-/
import proofs.«150901_j3083786519230_1_alg».proof.Proof.KI.HostVal
import proofs.«150901_j3083786519230_1_alg».proof.Proof.RefValue

noncomputable section

namespace Cert.AggBridge

open Idealize.ShloMosaic

/-- The 128-column neighbour sums of the kernel program's host operations are the reference's. -/
theorem agg128_eq (x : Vec Ideal Cert.KernelIdeal.S100000x128 .f32)
    (ei : (⟨Cert.KernelIdeal.S2x1600000, .i32⟩ : BufTy).Contents (Elt Ideal)) :
    Cert.KernelIdeal.HostVal.agg128 (F := Ideal) x ei = Cert.ReferenceIdeal.RefValue.agg128 x ei := by
  unfold Cert.KernelIdeal.HostVal.agg128 Cert.KernelIdeal.HostVal.aggRows128 Cert.ReferenceIdeal.RefValue.agg128
    Cert.ReferenceIdeal.Read.val_main_v13
  rfl

/-- The 64-column neighbour sums likewise. -/
theorem agg64_eq (h : Vec Ideal Cert.KernelIdeal.S100000x64 .f32)
    (ei : (⟨Cert.KernelIdeal.S2x1600000, .i32⟩ : BufTy).Contents (Elt Ideal)) :
    Cert.KernelIdeal.HostVal.agg64 (F := Ideal) h ei = Cert.ReferenceIdeal.RefValue.agg64 h ei := by
  unfold Cert.KernelIdeal.HostVal.agg64 Cert.KernelIdeal.HostVal.aggRows64 Cert.ReferenceIdeal.RefValue.agg64
  rfl

end Cert.AggBridge

end
-- ==== Proof.lean ====
/-
  Two graph-isomorphism layers with mean pooling over a graph of 100000 nodes and 1600000 edges.

  Both programs compute, twice, the neighbour sums of the node table (the host's gather at the edges' sources and
  scatter-add at their destinations: the same operations in both, never opened here) and the two-layer perceptron with
  rectifiers of each row of table + neighbour sums; the second table is the first result and its column means the second.
  The kernel program runs the perceptron on blocks of 5000 rows (its products in a narrower float format, which at the
  extended reals is the identity), accumulates the column sums block by block and multiplies by the named reciprocal
  1/100000; the reference takes whole-table products, one column sum and divides by 100000.  Over the extended reals
  these are the same functions: a sum over the rows is the sum over the blocks of the sums inside each block
  (addition is commutative and associative there), and dividing by the real 100000 is multiplying by 1/100000.

  The frames: each program's run, segment by segment, ends with every argument array as launched.
-/
import proofs.«150901_j3083786519230_1_alg».proof.Defs
import proofs.«150901_j3083786519230_1_alg».proof.Proof.Gen.Kernel
import proofs.«150901_j3083786519230_1_alg».proof.Proof.Gen.KernelIdeal
import proofs.«150901_j3083786519230_1_alg».proof.Proof.Gen.ReferenceIdeal
import proofs.«150901_j3083786519230_1_alg».proof.Proof.Gen.Pre_finite_inputs
import proofs.«150901_j3083786519230_1_alg».proof.Proof.K.Run
import proofs.«150901_j3083786519230_1_alg».proof.Proof.KI.Value
import proofs.«150901_j3083786519230_1_alg».proof.Proof.RefValue
import proofs.«150901_j3083786519230_1_alg».proof.Proof.AggBridge

noncomputable section

namespace Cert.Proof

open Idealize.ShloMosaic Idealize.SL.Sem Cert.GinSpec

/-- The first layer's table of the kernel program is the reference's: the same function of the same neighbour sums. -/
theorem K1_eq (m : (ℓ : Loc Cert.KernelIdeal.nD Cert.KernelIdeal.τ Cert.KernelIdeal.sig) → Buf (Elt Ideal) ℓ) (c : Dev Cert.KernelIdeal.nD) :
    Cert.KernelIdeal.Fr.K1 m c = Cert.ReferenceIdeal.RefValue.h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  unfold Cert.KernelIdeal.Fr.K1 Cert.ReferenceIdeal.RefValue.h1
  rw [Cert.AggBridge.agg128_eq]

/-- So is the second layer's table. -/
theorem K2_eq (m : (ℓ : Loc Cert.KernelIdeal.nD Cert.KernelIdeal.τ Cert.KernelIdeal.sig) → Buf (Elt Ideal) ℓ) (c : Dev Cert.KernelIdeal.nD) :
    Cert.KernelIdeal.Fr.K2 m c = Cert.ReferenceIdeal.RefValue.h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  unfold Cert.KernelIdeal.Fr.K2 Cert.ReferenceIdeal.RefValue.h2
  rw [K1_eq, Cert.AggBridge.agg64_eq]

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.RefValue.ref_run m ρ)

/-- The one named constant: the reciprocal of the node count is the rational 1/100000 at the extended reals. -/
theorem preserves : Cert.preserves_Kernel_KernelIdeal :=
  IdealRules.named_const.statement Cert.KernelIdeal.κ "inv_100000" .f32 0x3727C5AC#32 ((1 / 100000 : ℝ) : EReal) rfl

/-- From memories agreeing on the arguments both programs end with the second layer's table and its column means. -/
theorem algebraic : Cert.algebraic_KernelIdeal_ReferenceIdeal := by
  intro m ρ m' ρ' _ hagree
  refine ⟨fun c => Cert.KernelIdeal.Fr.K2 m c, fun c => pool (Cert.KernelIdeal.Fr.K2 m c), Cert.KernelIdeal.Fr.kernel_run m ρ, ?_⟩
  refine (θ_run Cert.ReferenceIdeal.defs _ _).mono (fun _ h c => ⟨(h c).1.trans ?_, (h c).2.1.trans ?_, (h c).2.2⟩)
    (Cert.ReferenceIdeal.RefValue.ref_run m' ρ')
  · rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (K2_eq m c).symm
  · rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact congrArg pool (K2_eq m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
